-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v69_0)) (v2 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v69_0) = v1 c
          ∧ r.2.mem ((c.tc : Thread Cert.KernelIdeal.nD Cert.KernelIdeal.τ).loc Cert.KernelIdeal.main_v69_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S128x128 .f32) (main_arg16 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S64 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S64x128 .f32) (main_arg8 : FVec F S64 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S64x128 .f32) (main_arg8 : FVec F S64 .f32) (main_arg9 : FVec F S128 .f32) (main_arg10 : FVec F S128 .f32) (main_arg11 : FVec F S128 .f32) (main_arg12 : FVec F S128 .f32) (main_arg13 : FVec F S128x128 .f32) (main_arg14 : FVec F S128 .f32) (main_arg15 : FVec F S128x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S20x1x128 : Shape := ⟨3, ![20, 1, 128]⟩
abbrev S5000x128 : Shape := ⟨2, ![5000, 128]⟩
abbrev S1x1x128 : Shape := ⟨3, ![1, 1, 128]⟩
abbrev S1x64 : Shape := ⟨2, ![1, 64]⟩
abbrev S128x64 : Shape := ⟨2, ![128, 64]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 129
  | .vmem => 48
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S64x128, .f32⟩
  | 8 => ⟨S64, .f32⟩
  | 9 => ⟨S128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S1600000x1, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S128x128, .f32⟩
  | 38 => ⟨S1x128, .f32⟩
  | 39 => ⟨S20x1x128, .f32⟩
  | 40 => ⟨S20x1x128, .f32⟩
  | 41 => ⟨S_, .f32⟩
  | 42 => ⟨S1x128, .f32⟩
  | 43 => ⟨S_, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S_, .f32⟩
  | 54 => ⟨S1x128, .f32⟩
  | 55 => ⟨S1x128, .f32⟩
  | 56 => ⟨S128x128, .f32⟩
  | 57 => ⟨S1x128, .f32⟩
  | 58 => ⟨S1x128, .f32⟩
  | 59 => ⟨S1x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x1, .f32⟩
  | 71 => ⟨S1600000x128, .f32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S128x128, .f32⟩
  | 78 => ⟨S1x128, .f32⟩
  | 79 => ⟨S20x1x128, .f32⟩
  | 80 => ⟨S20x1x128, .f32⟩
  | 81 => ⟨S_, .f32⟩
  | 82 => ⟨S1x128, .f32⟩
  | 83 => ⟨S_, .f32⟩
  | 84 => ⟨S1x128, .f32⟩
  | 85 => ⟨S_, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S128x128, .f32⟩
  | 97 => ⟨S1x128, .f32⟩
  | 98 => ⟨S1x128, .f32⟩
  | 99 => ⟨S1x128, .f32⟩
  | 100 => ⟨S128x128, .f32⟩
  | 101 => ⟨S1x128, .f32⟩
  | 102 => ⟨S128x128, .f32⟩
  | 103 => ⟨S1x128, .f32⟩
  | 104 => ⟨S100000x128, .f32⟩
  | 105 => ⟨S100000x128, .f32⟩
  | 106 => ⟨S_, .f32⟩
  | 107 => ⟨S1x64, .f32⟩
  | 108 => ⟨S128x64, .f32⟩
  | 109 => ⟨S100000x64, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x64, .f32⟩
  | 119 => ⟨S1600000x1, .f32⟩
  | 120 => ⟨S1600000x64, .f32⟩
  | 121 => ⟨S1600000x64, .f32⟩
  | 122 => ⟨S_, .f32⟩
  | 123 => ⟨S100000x64, .f32⟩
  | 124 => ⟨S1600000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19_0 : Ref sig .tc := ⟨.hbm, 39, rfl⟩
abbrev main_v19_1 : Ref sig .tc := ⟨.hbm, 40, rfl⟩
abbrev main_cst_1 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_8 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_cst_9 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69_0 : Ref sig .tc := ⟨.hbm, 104, rfl⟩
abbrev main_v69_1 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg10_0 : Ref sig .tc := ⟨.vmem, 37, rfl⟩
abbrev cc3_stg11_0 : Ref sig .tc := ⟨.vmem, 38, rfl⟩
abbrev cc3_stg11_1 : Ref sig .tc := ⟨.vmem, 39, rfl⟩
abbrev cc3_stg12_0 : Ref sig .tc := ⟨.vmem, 40, rfl⟩
abbrev cc3_stg12_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem4_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem10_0 : DmaSem sig := 37
abbrev cc3_sem11_0 : DmaSem sig := 38
abbrev cc3_sem11_1 : DmaSem sig := 39
abbrev cc3_sem12_0 : DmaSem sig := 40
abbrev cc3_sem12_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x1x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S128x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S5000x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S20x1x128_S1x128_d0 : S20x1x128.ReducesTo [0] S1x128
  h_S_ : 0 < S_.numel
  bcast_S_S1x128 : S_.BroadcastsInDim S1x128 (![] : Fin 0 → Fin S1x128.rank)
  bcast_S_S1x64 : S_.BroadcastsInDim S1x64 (![] : Fin 0 → Fin S1x64.rank)
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S20x1x128.size a
  hwx0_3 : ∀ i : grid0.Coords, EltTy.bits .f32 = 32 ∨ (Rect.block (s := S20x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S20x1x128.size a
  hwx0_4 : ∀ i : grid0.Coords, EltTy.bits .f32 = 32 ∨ (Rect.block (s := S20x1x128) S1x1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x128.size a ≤ S20x1x128.size a
  hwx2_3 : ∀ i : grid2.Coords, EltTy.bits .f32 = 32 ∨ (Rect.block (s := S20x1x128) S1x1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S20x1x128.size a
  hwx2_4 : ∀ i : grid2.Coords, EltTy.bits .f32 = 32 ∨ (Rect.block (s := S20x1x128) S1x1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S128x128.size a ≤ S128x128.size a
  hwx3_9 : ∀ i : grid3.Coords, EltTy.bits .f32 = 32 ∨ (Rect.block (s := S128x128) S128x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x128.size a ≤ S100000x128.size a
  hwx3_11 : ∀ i : grid3.Coords, EltTy.bits .f32 = 32 ∨ (Rect.block (s := S100000x128) S5000x128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S5000x128.size a ≤ S100000x128.size a
  hwx3_12 : ∀ i : grid3.Coords, EltTy.bits .f32 = 32 ∨ (Rect.block (s := S100000x128) S5000x128.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50_0) S1x1x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v50_1) S1x1x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v47) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v65) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v66) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v67) S128x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v68) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v69_0) S5000x128.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v69_1) S5000x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v69_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 191
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x128, .f32⟩
  | 4 => ⟨S128, .f32⟩
  | 5 => ⟨S128x128, .f32⟩
  | 6 => ⟨S128, .f32⟩
  | 7 => ⟨S64x128, .f32⟩
  | 8 => ⟨S64, .f32⟩
  | 9 => ⟨S128, .f32⟩
  | 10 => ⟨S128, .f32⟩
  | 11 => ⟨S128, .f32⟩
  | 12 => ⟨S128, .f32⟩
  | 13 => ⟨S128x128, .f32⟩
  | 14 => ⟨S128, .f32⟩
  | 15 => ⟨S128x128, .f32⟩
  | 16 => ⟨S128, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S1600000x1, .f32⟩
  | 31 => ⟨S1600000x128, .f32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S128x128, .f32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S100000x128, .f32⟩
  | 55 => ⟨S100000x128, .f32⟩
  | 56 => ⟨S100000x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S1600000x1, .f32⟩
  | 99 => ⟨S1600000x128, .f32⟩
  | 100 => ⟨S1600000x128, .f32⟩
  | 101 => ⟨S_, .f32⟩
  | 102 => ⟨S100000x128, .f32⟩
  | 103 => ⟨S1600000x1, .i32⟩
  | 104 => ⟨S100000x128, .f32⟩
  | 105 => ⟨S128x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S128, .f32⟩
  | 112 => ⟨S_, .f32⟩
  | 113 => ⟨S128, .f32⟩
  | 114 => ⟨S128, .f32⟩
  | 115 => ⟨S_, .i32⟩
  | 116 => ⟨S_, .f32⟩
  | 117 => ⟨S128, .f32⟩
  | 118 => ⟨S1x128, .f32⟩
  | 119 => ⟨S_, .f32⟩
  | 120 => ⟨S1x128, .f32⟩
  | 121 => ⟨S1x128, .f32⟩
  | 122 => ⟨S100000x128, .f32⟩
  | 123 => ⟨S100000x128, .f32⟩
  | 124 => ⟨S100000x128, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S_, .f32⟩
  | 5 => ⟨S_, .i1⟩
  | 6 => ⟨S_, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S_, .f32⟩
  | 14 => ⟨S128, .f32⟩
  | 15 => ⟨S128, .f32⟩
  | 16 => ⟨S128, .f32⟩
  | 17 => ⟨S1x128, .f32⟩
  | 18 => ⟨S100000x128, .f32⟩
  | 19 => ⟨S100000x128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S128x128, .f32⟩
  | 30 => ⟨S100000x128, .f32⟩
  | 31 => ⟨S1x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S128x128, .f32⟩
  | 38 => ⟨S100000x128, .f32⟩
  | 39 => ⟨S1x128, .f32⟩
  | 40 => ⟨S100000x128, .f32⟩
  | 41 => ⟨S100000x128, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S128x64, .f32⟩
  | 59 => ⟨S100000x64, .f32⟩
  | 60 => ⟨S1x64, .f32⟩
  | 61 => ⟨S100000x64, .f32⟩
  | 62 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_c_3 : Ref sig .tc := ⟨.hbm, 47, rfl⟩
abbrev main_call0_cst : Ref sig .tc := ⟨.hbm, 48, rfl⟩
abbrev main_call0_v0 : Ref sig .tc := ⟨.hbm, 49, rfl⟩
abbrev main_call0_v1 : Ref sig .tc := ⟨.hbm, 50, rfl⟩
abbrev main_call0_cst_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_cst_1 : Ref sig .tc := ⟨.hbm, 58, rfl⟩
abbrev main_call0_v8 : Ref sig .tc := ⟨.hbm, 59, rfl⟩
abbrev main_call0_cst_2 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_cst_3 : Ref sig .tc := ⟨.hbm, 64, rfl⟩
abbrev main_call0_v12 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_4 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_call1_cst : Ref sig .tc := ⟨.hbm, 86, rfl⟩
abbrev main_call1_v0 : Ref sig .tc := ⟨.hbm, 87, rfl⟩
abbrev main_v41 : Ref sig .tc := ⟨.hbm, 88, rfl⟩
abbrev main_c_5 : Ref sig .tc := ⟨.hbm, 89, rfl⟩
abbrev main_v42 : Ref sig .tc := ⟨.hbm, 90, rfl⟩
abbrev main_v43 : Ref sig .tc := ⟨.hbm, 91, rfl⟩
abbrev main_c_6 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_7 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_8 : Ref sig .tc := ⟨.hbm, 110, rfl⟩
abbrev main_v60 : Ref sig .tc := ⟨.hbm, 111, rfl⟩
abbrev main_cst_9 : Ref sig .tc := ⟨.hbm, 112, rfl⟩
abbrev main_v61 : Ref sig .tc := ⟨.hbm, 113, rfl⟩
abbrev main_v62 : Ref sig .tc := ⟨.hbm, 114, rfl⟩
abbrev main_c_10 : Ref sig .tc := ⟨.hbm, 115, rfl⟩
abbrev main_call2_cst : Ref sig .tc := ⟨.hbm, 116, rfl⟩
abbrev main_call2_v0 : Ref sig .tc := ⟨.hbm, 117, rfl⟩
abbrev main_call2_v1 : Ref sig .tc := ⟨.hbm, 118, rfl⟩
abbrev main_call2_cst_0 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_call2_v5 : Ref sig .tc := ⟨.hbm, 123, rfl⟩
abbrev main_call2_v6 : Ref sig .tc := ⟨.hbm, 124, rfl⟩
abbrev main_call2_v7 : Ref sig .tc := ⟨.hbm, 125, rfl⟩
abbrev main_call2_cst_1 : Ref sig .tc := ⟨.hbm, 126, rfl⟩
abbrev main_call2_v8 : Ref sig .tc := ⟨.hbm, 127, rfl⟩
abbrev main_call2_cst_2 : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_cst_3 : Ref sig .tc := ⟨.hbm, 132, rfl⟩
abbrev main_call2_v12 : Ref sig .tc := ⟨.hbm, 133, rfl⟩
abbrev main_call2_cst_4 : Ref sig .tc := ⟨.hbm, 134, rfl⟩
abbrev main_call2_call0_v0 : Ref sig .tc := ⟨.hbm, 135, rfl⟩
abbrev main_call2_call0_v1 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_11 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_call3_cst : Ref sig .tc := ⟨.hbm, 154, rfl⟩
abbrev main_call3_v0 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_call4_cst : Ref sig .tc := ⟨.hbm, 162, rfl⟩
abbrev main_call4_v0 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_c_12 : Ref sig .tc := ⟨.hbm, 170, rfl⟩
abbrev main_v91 : Ref sig .tc := ⟨.hbm, 171, rfl⟩
abbrev main_v92 : Ref sig .tc := ⟨.hbm, 172, rfl⟩
abbrev main_c_13 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_cst_14 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_v106 : Ref sig .tc := ⟨.hbm, 188, rfl⟩
abbrev main_v107 : Ref sig .tc := ⟨.hbm, 189, rfl⟩
abbrev main_v108 : Ref sig .tc := ⟨.hbm, 190, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KerRun.lean ====
/-
  The idealized kernel program's run with its END STATE named: every weakly fair execution of @main terminates,
  nothing faulting, and every buffer that outlives the call holds, on every core, the contents the last host stretch
  leaves (the fold of the six host stretches and the five regions' write-backs over the launch memory).  The three
  results and the seventeen arguments are then read off that one fact.
-/
import proofs.«117873_j69002944578214_2_alg».proof.Proof.Gen.KernelIdeal.Frame

set_option maxRecDepth 16384

noncomputable section

namespace Cert.KernelIdeal.KerValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every buffer that outlives the call at the last boundary's contents. -/
theorem run_end : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run with the three results at the last boundary's contents and the arguments as launched. -/
theorem run_results : θ_run defs (onTc (τ := τ) (main (F := F))) ⟨m, fun _ => 0, ρ⟩ (fun r => ∀ c : Dev nD,
      r.2.mem ((c.tc : Thread nD τ).loc main_v88) = W11 m ρ c (Proc.devRef .tc main_v88)
      ∧ r.2.mem ((c.tc : Thread nD τ).loc main_v69_0) = W11 m ρ c (Proc.devRef .tc main_v69_0)
      ∧ r.2.mem ((c.tc : Thread nD τ).loc main_v69_1) = W11 m ρ c (Proc.devRef .tc main_v69_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v88 (by decide)), h c _ (mem_uc main_v69_0 (by decide)), h c _ (mem_uc main_v69_1 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c),
     (h c _ (mem_uc main_arg11 (by decide))).trans (W11_main_arg11 m ρ c),
     (h c _ (mem_uc main_arg12 (by decide))).trans (W11_main_arg12 m ρ c),
     (h c _ (mem_uc main_arg13 (by decide))).trans (W11_main_arg13 m ρ c),
     (h c _ (mem_uc main_arg14 (by decide))).trans (W11_main_arg14 m ρ c),
     (h c _ (mem_uc main_arg15 (by decide))).trans (W11_main_arg15 m ρ c),
     (h c _ (mem_uc main_arg16 (by decide))).trans (W11_main_arg16 m ρ c)⟩)
    (run_end m ρ)

end Cert.KernelIdeal.KerValue

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«117873_j69002944578214_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.LibScatter.lean ====
/-
  General lemmas about the accumulating scatter of whole rows, read at an entry: a table of rows to which update rows
  are added at the rows a column of start indices names, and the same for a vector to which update entries are added.
  The result at an entry is the table's entry plus the sum of the updates whose start index, read as a signed integer,
  names that row; an update whose start index names no row of the table contributes nothing. None mentions a program.
-/
import Idealize.ShloMosaic.Lib.ValueIdx
import Idealize.ShloMosaic.Lib.ValueLayout
import Idealize.ShloMosaic.Lib.Pipeline.Value
import Idealize.ShloMosaic.PureOps.Ideal.Laws

noncomputable section

namespace Cert.ScatterLib

open Idealize.ShloMosaic Idealize.ShloMosaic.ValueIdx

/-! ## Update rows added into a table -/

/-- The dimension numbers of a scatter of whole rows: a table of N rows of C entries, a column of R start indices,
    R update rows of C entries; the row axis of the table is named by the start index, the column axis is the
    window axis. -/
abbrev rowScatterDims (N C R : ℕ)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Rows

variable {N C R : ℕ} (wf : ScatterDims.WF ⟨2, ![N, C]⟩ ⟨2, ![R, 1]⟩ ⟨2, ![R, C]⟩ [1] [0] [0] 1)

/-- On the row axis the window coordinate of an update entry is zero: the row comes from the start index alone. -/
theorem rows_window_zero (r : Fin R) (k' : Fin C) :
    (rowScatterDims N C R wf).window (ix2 r k') (0 : Fin 2) = 0 := by
  unfold ScatterDims.window
  rw [dif_neg (show (0 : Fin 2) ∉ (rowScatterDims N C R wf).sKept from
    (by decide : (0 : Fin 2) ∉ ([1] : List (Fin 2))))]

/-- On the column axis the window coordinate of update entry (r, k') is k'. -/
theorem rows_window_one (r : Fin R) (k' : Fin C) :
    (rowScatterDims N C R wf).window (ix2 r k') (1 : Fin 2) = k'.val := by
  unfold ScatterDims.window
  rw [dif_pos (show (1 : Fin 2) ∈ (rowScatterDims N C R wf).sKept from
    (by decide : (1 : Fin 2) ∈ ([1] : List (Fin 2))))]
  rfl

variable {w : ℕ} (idx : IVec ⟨2, ![R, 1]⟩ w)

/-- On the row axis the window of update entry (r, k') starts at start index r, read as a signed integer. -/
theorem rows_start_zero (r : Fin R) (k' : Fin C) :
    (rowScatterDims N C R wf).start (ix2 r k') idx (0 : Fin 2) = (idx (ix2 r (0 : Fin 1))).toInt := by
  unfold ScatterDims.start
  rw [dif_pos (show (0 : Fin 2) ∈ (rowScatterDims N C R wf).scatterDimsToOperandDims from List.mem_singleton.mpr rfl)]
  have hsi : (rowScatterDims N C R wf).siIdx (ix2 r k')
      ⟨List.idxOf (0 : Fin 2) (rowScatterDims N C R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- On the column axis the window starts at zero. -/
theorem rows_start_one (r : Fin R) (k' : Fin C) :
    (rowScatterDims N C R wf).start (ix2 r k') idx (1 : Fin 2) = 0 := by
  unfold ScatterDims.start
  rw [dif_neg (show (1 : Fin 2) ∉ (rowScatterDims N C R wf).scatterDimsToOperandDims from
    (by decide : (1 : Fin 2) ∉ ([0] : List (Fin 2))))]

/-- WHERE AN UPDATE ENTRY LANDS: update entry (r, k') lands at table entry (b, k) exactly when start index r, read
    as a signed integer, is b, and k' is k. -/
theorem rows_resultIdx_iff (r : Fin R) (k' : Fin C) (b : Fin N) (k : Fin C) :
    (rowScatterDims N C R wf).resultIdx? (ix2 r k') idx = some (ix2 b k) ↔
      (idx (ix2 r (0 : Fin 1))).toInt = (b.val : ℤ) ∧ k' = k := by
  have s0 := rows_start_zero wf idx r k'
  have s1 := rows_start_one wf idx r k'
  have w0 := rows_window_zero wf r k'
  have w1 := rows_window_one wf r k'
  have hN : (⟨2, ![N, C]⟩ : Shape).size (0 : Fin 2) = N := rfl
  have hC : (⟨2, ![N, C]⟩ : Shape).size (1 : Fin 2) = C := rfl
  have hb := b.isLt
  have hk := k.isLt
  have hk' := k'.isLt
  unfold ScatterDims.resultIdx?
  split
  · rename_i h
    have h0 := h (0 : Fin 2)
    rw [s0, w0] at h0
    constructor
    · intro he
      have he' := Option.some.inj he
      have e0 : ((rowScatterDims N C R wf).start (ix2 r k') idx (0 : Fin 2)
          + ((rowScatterDims N C R wf).window (ix2 r k') (0 : Fin 2) : ℕ)).toNat = b.val :=
        congrArg Fin.val (congrFun he' (0 : Fin 2))
      have e1 : ((rowScatterDims N C R wf).start (ix2 r k') idx (1 : Fin 2)
          + ((rowScatterDims N C R wf).window (ix2 r k') (1 : Fin 2) : ℕ)).toNat = k.val :=
        congrArg Fin.val (congrFun he' (1 : Fin 2))
      rw [s0, w0] at e0
      rw [s1, w1] at e1
      exact ⟨by omega, Fin.ext (by omega)⟩
    · rintro ⟨hbe, hke⟩
      refine congrArg some (funext (Fin.forall_fin_two.2 ⟨Fin.ext ?_, Fin.ext ?_⟩))
      · show ((rowScatterDims N C R wf).start (ix2 r k') idx (0 : Fin 2)
          + ((rowScatterDims N C R wf).window (ix2 r k') (0 : Fin 2) : ℕ)).toNat = b.val
        rw [s0, w0]; omega
      · show ((rowScatterDims N C R wf).start (ix2 r k') idx (1 : Fin 2)
          + ((rowScatterDims N C R wf).window (ix2 r k') (1 : Fin 2) : ℕ)).toNat = k.val
        rw [s1, w1, hke]; omega
  · rename_i h
    constructor
    · intro he; exact absurd he (by simp)
    · rintro ⟨hbe, hke⟩
      exfalso; apply h
      refine Fin.forall_fin_two.2 ⟨?_, ?_⟩
      · rw [s0, w0, hN]; omega
      · rw [s1, w1, hC]; omega

/-- The same for an update index not yet split into its coordinates. -/
theorem rows_resultIdx_iff' (j : (⟨2, ![R, C]⟩ : Shape).Idx) (b : Fin N) (k : Fin C) :
    (rowScatterDims N C R wf).resultIdx? j idx = some (ix2 b k) ↔
      (idx (ix2 (j (0 : Fin 2)) (0 : Fin 1))).toInt = (b.val : ℤ) ∧ j (1 : Fin 2) = k := by
  have e : (ix2 (j (0 : Fin 2)) (j (1 : Fin 2)) : (⟨2, ![R, C]⟩ : Shape).Idx) = j := (eq_ix2 j).symm
  have h := rows_resultIdx_iff wf idx (j (0 : Fin 2)) (j (1 : Fin 2)) b k
  rw [e] at h
  exact h

end Rows

/-- THE ROW SCATTER READ AT (b, k): the table's entry plus the sum, over the update rows whose start index, read as
    a signed integer, is b, of their entry in column k. -/
theorem scatterAdd_rows_apply {N C R w : ℕ}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (b : Fin N) (k : Fin C) :
    Ideal.hostScatterAdd (rowScatterDims N C R wf) x idx upd (ix2 b k) = x (ix2 b k)
      + ∑ r ∈ Finset.univ.filter (fun r : Fin R => (idx (ix2 r (0 : Fin 1))).toInt = (b.val : ℤ)), upd (ix2 r k) := by
  unfold Ideal.hostScatterAdd
  congr 1
  refine Finset.sum_nbij' (fun j => ((j (0 : Fin 2)) : Fin R)) (fun r => (ix2 r k : (⟨2, ![R, C]⟩ : Shape).Idx))
    ?_ ?_ ?_ ?_ ?_
  · intro j hj
    have hj' := (rows_resultIdx_iff' wf idx j b k).1 (Finset.mem_filter.1 hj).2
    exact Finset.mem_filter.2 ⟨Finset.mem_univ _, hj'.1⟩
  · intro r hr
    exact Finset.mem_filter.2 ⟨Finset.mem_univ _,
      (rows_resultIdx_iff wf idx r k b k).2 ⟨(Finset.mem_filter.1 hr).2, rfl⟩⟩
  · intro j hj
    have hj' := (rows_resultIdx_iff' wf idx j b k).1 (Finset.mem_filter.1 hj).2
    show ix2 (j (0 : Fin 2)) k = j
    rw [← hj'.2]; exact (eq_ix2 j).symm
  · intro r _; rfl
  · intro j hj
    have hj' := (rows_resultIdx_iff' wf idx j b k).1 (Finset.mem_filter.1 hj).2
    show upd j = upd (ix2 (j (0 : Fin 2)) k)
    rw [← hj'.2]; exact congrArg upd (eq_ix2 j)

/-! ## Update entries added into a vector -/

/-- The dimension numbers of a scatter of single entries into a vector: a vector of N entries, a column of R start
    indices, R update entries; the vector's one axis is named by the start index and there is no window axis. -/
abbrev vecScatterDims (N R : ℕ)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

section Vec

variable {N R : ℕ} (wf : ScatterDims.WF ⟨1, ![N]⟩ ⟨2, ![R, 1]⟩ ⟨1, ![R]⟩ [] [0] [0] 1)

/-- The window coordinate of an update entry is zero: the place comes from the start index alone. -/
theorem vec_window_zero (r : Fin R) :
    (vecScatterDims N R wf).window (ix1 r) (0 : Fin 1) = 0 := by
  unfold ScatterDims.window
  rw [dif_neg (show (0 : Fin 1) ∉ (vecScatterDims N R wf).sKept from
    (by decide : (0 : Fin 1) ∉ ([] : List (Fin 1))))]

variable {w : ℕ} (idx : IVec ⟨2, ![R, 1]⟩ w)

/-- The window of update entry r starts at start index r, read as a signed integer. -/
theorem vec_start_zero (r : Fin R) :
    (vecScatterDims N R wf).start (ix1 r) idx (0 : Fin 1) = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r)
      ⟨List.idxOf (0 : Fin 1) (vecScatterDims N R wf).scatterDimsToOperandDims,
        List.idxOf_lt_length_iff.2 (List.mem_singleton.mpr rfl)⟩ = ix2 r (0 : Fin 1) := by
    funext a; refine Fin.ext ?_
    match a with
    | ⟨0, _⟩ => rfl
    | ⟨1, _⟩ => rfl
  rw [hsi]

/-- WHERE AN UPDATE ENTRY LANDS: update entry r lands at vector entry b exactly when start index r, read as a signed
    integer, is b. -/
theorem vec_resultIdx_iff (r : Fin R) (b : Fin N) :
    (vecScatterDims N R wf).resultIdx? (ix1 r) idx = some (ix1 b) ↔
      (idx (ix2 r (0 : Fin 1))).toInt = (b.val : ℤ) := by
  have s0 := vec_start_zero wf idx r
  have w0 := vec_window_zero wf r
  have hN : (⟨1, ![N]⟩ : Shape).size (0 : Fin 1) = N := rfl
  have hb := b.isLt
  unfold ScatterDims.resultIdx?
  split
  · rename_i h
    have h0 := h (0 : Fin 1)
    rw [s0, w0] at h0
    constructor
    · intro he
      have he' := Option.some.inj he
      have e0 : ((vecScatterDims N R wf).start (ix1 r) idx (0 : Fin 1)
          + ((vecScatterDims N R wf).window (ix1 r) (0 : Fin 1) : ℕ)).toNat = b.val :=
        congrArg Fin.val (congrFun he' (0 : Fin 1))
      rw [s0, w0] at e0
      omega
    · intro hbe
      refine congrArg some (funext (Fin.forall_fin_one.2 (Fin.ext ?_)))
      show ((vecScatterDims N R wf).start (ix1 r) idx (0 : Fin 1)
          + ((vecScatterDims N R wf).window (ix1 r) (0 : Fin 1) : ℕ)).toNat = b.val
      rw [s0, w0]; omega
  · rename_i h
    constructor
    · intro he; exact absurd he (by simp)
    · intro hbe
      exfalso; apply h
      refine Fin.forall_fin_one.2 ?_
      rw [s0, w0, hN]; omega

/-- The same for an update index not yet split into its coordinate. -/
theorem vec_resultIdx_iff' (j : (⟨1, ![R]⟩ : Shape).Idx) (b : Fin N) :
    (vecScatterDims N R wf).resultIdx? j idx = some (ix1 b) ↔
      (idx (ix2 (j (0 : Fin 1)) (0 : Fin 1))).toInt = (b.val : ℤ) := by
  have e : (ix1 (j (0 : Fin 1)) : (⟨1, ![R]⟩ : Shape).Idx) = j := (eq_ix1 j).symm
  have h := vec_resultIdx_iff wf idx (j (0 : Fin 1)) b
  rw [e] at h
  exact h

end Vec

/-- THE VECTOR SCATTER READ AT b: the vector's entry plus the sum of the update entries whose start index, read as a
    signed integer, is b. -/
theorem scatterAdd_vec_apply {N R w : ℕ}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (b : Fin N) :
    Ideal.hostScatterAdd (vecScatterDims N R wf) x idx upd (ix1 b) = x (ix1 b)
      + ∑ r ∈ Finset.univ.filter (fun r : Fin R => (idx (ix2 r (0 : Fin 1))).toInt = (b.val : ℤ)), upd (ix1 r) := by
  unfold Ideal.hostScatterAdd
  congr 1
  refine Finset.sum_nbij' (fun j => ((j (0 : Fin 1)) : Fin R)) (fun r => (ix1 r : (⟨1, ![R]⟩ : Shape).Idx))
    ?_ ?_ ?_ ?_ ?_
  · intro j hj
    exact Finset.mem_filter.2 ⟨Finset.mem_univ _, (vec_resultIdx_iff' wf idx j b).1 (Finset.mem_filter.1 hj).2⟩
  · intro r hr
    exact Finset.mem_filter.2 ⟨Finset.mem_univ _, (vec_resultIdx_iff wf idx r b).2 (Finset.mem_filter.1 hr).2⟩
  · intro j _
    exact (eq_ix1 j).symm
  · intro r _; rfl
  · intro j _
    exact congrArg upd (eq_ix1 j)

end Cert.ScatterLib

end
-- ==== Proof.LibSageSpec.lean ====
/-
  The mathematics of a two-layer mean-aggregation graph network, as functions of whole arrays over the extended
  reals: rows of a table taken at a column of start indices, update rows summed per destination row, a per-row
  scale, column means, the normalisation of every column followed by the cut at zero, and the two ways the second
  layer may be arranged (the weight applied before or after the aggregation). No program is mentioned.
-/
import proofs.«117873_j69002944578214_2_alg».proof.Proof.LibDense
import proofs.«117873_j69002944578214_2_alg».proof.Proof.LibRows
import proofs.«117873_j69002944578214_2_alg».proof.Proof.LibScatter

noncomputable section

namespace Cert.Sage

open Idealize.ShloMosaic Idealize.ShloMosaic.ValueIdx Cert.DenseLib Cert.RowsLib

/-- A rank-two array of extended reals. -/
abbrev Mat (a b : ℕ) : Type := (⟨2, ![a, b]⟩ : Shape).Idx → EReal
/-- A vector of extended reals. -/
abbrev Vc (a : ℕ) : Type := (⟨1, ![a]⟩ : Shape).Idx → EReal
/-- A column of 32-bit start indices. -/
abbrev ICol (R : ℕ) : Type := IVec ⟨2, ![R, 1]⟩ 32

/-- Every entry is a real number (neither infinity). -/
def IsFin {s : Shape} (X : s.Idx → EReal) : Prop := ∀ i, ∃ r : ℝ, X i = (r : EReal)

variable {N C R : ℕ}

/-- Row `r` of the result is the row of `X` that start index `r` names (clamped into the table). -/
def takeRows (hN : 0 < N) (src : ICol R) (X : Mat N C) : Mat R C :=
  fun i => X (ix2 (rowOf N hN (src (ix2 (n0 := R) (i 0) (0 : Fin 1)))) (n1 := C) (i 1))

/-- Row `b` of the result is the sum of the update rows whose start index, read as a signed integer, is `b`. -/
def segSum (dst : ICol R) (U : Mat R C) : Mat N C :=
  fun i => ∑ r ∈ Finset.univ.filter (fun r : Fin R => (dst (ix2 r (0 : Fin 1))).toInt = (((i 0 : Fin N)).val : ℤ)),
    U (ix2 r (n1 := C) (i 1))

/-- Every row scaled by that row's entry of `d`. -/
def scaleRows (d : Vc N) (X : Mat N C) : Mat N C := fun i => X i * d (ix1 (n := N) (i 0))

/-- The mean aggregation: neighbours' rows taken, summed per destination, scaled by the reciprocal degree. -/
def meanAgg (hN : 0 < N) (src dst : ICol R) (d : Vc N) (X : Mat N C) : Mat N C :=
  scaleRows d (segSum dst (takeRows hN src X))

/-- The column sums (from zero) divided by the constant `cN`. -/
def colMean (cN : EReal) (X : Mat N C) : Vc C :=
  fun j => Ideal.div (0 + ∑ n : Fin N, X (ix2 n (n1 := C) (j 0))) cN

/-- The squared deviation of every entry from its column's value of `mu`. -/
def sqDev (X : Mat N C) (mu : Vc C) : Mat N C :=
  fun i => (X i - mu (ix1 (n := C) (i 1))) * (X i - mu (ix1 (n := C) (i 1)))

/-- Every column centred, scaled by the reciprocal root of its variance plus `eps`, by `gamma`, shifted by `beta`,
    and cut at zero. -/
def bnRelu (eps : EReal) (X : Mat N C) (mu var gamma beta : Vc C) : Mat N C :=
  fun i => max (((X i - mu (ix1 (n := C) (i 1))) * Ideal.rsqrt (var (ix1 (n := C) (i 1)) + eps))
    * gamma (ix1 (n := C) (i 1)) + beta (ix1 (n := C) (i 1))) 0

/-- The one row of a one-row array, as a vector. -/
def rowVec (B : Mat 1 C) : Vc C := fun j => B (ix2 (0 : Fin 1) (n1 := C) (j 0))

/-- A vector laid along every row. -/
def vrows {M : ℕ} (b : Vc C) : Mat M C := rows (M := M) fun c => b (ix1 c)

/-- The first layer before normalisation: aggregated features and own features through their weights, plus the
    bias (the bias added last). -/
def layer1 {K : ℕ} (A X : Mat N K) (Wl Wr : Mat K C) (b : Vc C) : Mat N C :=
  plus (plus (mm A Wl) (mm X Wr)) (vrows b)

/-- The hidden features: the first layer, normalised per column with its own column means and variances, cut at zero. -/
def hidden {K : ℕ} (cN eps : EReal) (A X : Mat N K) (Wl Wr : Mat K C) (b gamma beta : Vc C) : Mat N C :=
  bnRelu eps (layer1 A X Wl Wr b) (colMean cN (layer1 A X Wl Wr b))
    (colMean cN (sqDev (layer1 A X Wl Wr b) (colMean cN (layer1 A X Wl Wr b)))) gamma beta

/-- The second layer with the weight applied BEFORE the aggregation, the bias added last. -/
def outPre {K : ℕ} (hN : 0 < N) (src dst : ICol R) (d : Vc N) (H : Mat N K) (Wl Wr : Mat K C) (b : Vc C) : Mat N C :=
  plus (plus (meanAgg hN src dst d (mm H Wl)) (mm H Wr)) (vrows b)

/-- The second layer with the weight applied AFTER the aggregation, the bias added before the own-feature term. -/
def outPost {K : ℕ} (hN : 0 < N) (src dst : ICol R) (d : Vc N) (H : Mat N K) (Wl Wr : Mat K C) (b : Vc C) : Mat N C :=
  plus (plus (mm (meanAgg hN src dst d H) Wl) (vrows b)) (mm H Wr)

end Cert.Sage

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«117873_j69002944578214_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibSgcSpec.lean ====
/-
  The network both programs compute, as functions of whole arrays over the extended reals.

  One propagation step carries every node's row along the edges, scales each carried row by its edge's weight and
  sums the carried rows per destination node.  A layer multiplies the propagated features by a weight matrix, adds a
  bias along the rows, normalises every column over all the nodes, applies a gain and an offset and cuts at zero.

  The two programs differ in three places, all written out below:
  * the column statistics.  One arrangement takes the column mean and then the mean squared deviation from it
    (`normTwo`).  The other sums every column and every column's squares over tiles of `T` consecutive rows, adds
    the tile sums, and takes mean(z²) − mean(z)², cut below at zero (`normOne`);
  * the last layer.  One arrangement propagates and then multiplies by the weight, the other multiplies, with a
    zero bias, propagates the narrower rows and adds the bias last;
  * nothing else: the two-layer head is the same expression on both sides.
-/
import proofs.«117873_j69002944578214_2_alg».proof.Proof.LibSageSpec
import proofs.«117873_j69002944578214_2_alg».proof.Proof.LibRowBlocks

noncomputable section

namespace Cert.Sgc

open Idealize.ShloMosaic Idealize.ShloMosaic.ValueIdx Cert.DenseLib Cert.RowsLib Cert.Sage

/-- A rank-three array of extended reals. -/
abbrev Cube (a b c : ℕ) : Type := (⟨3, ![a, b, c]⟩ : Shape).Idx → EReal

variable {N C R K : ℕ}

/-- One propagation step: rows taken along the edges, each scaled by its edge's weight, summed per destination. -/
def prop (hN : 0 < N) (src dst : ICol R) (ew : Vc R) (X : Mat N C) : Mat N C :=
  segSum dst (scaleRows ew (takeRows hN src X))

/-- `P · W + b`, the bias laid along every row. -/
def pre (P : Mat N K) (W : Mat K C) (b : Vc C) : Mat N C := plus (mm P W) (vrows b)

/-- The transposed matrix. -/
def tr {a b : ℕ} (W : Mat a b) : Mat b a := fun i => W (ix2 (n0 := a) (i 1) (n1 := b) (i 0))

/-- Every entry squared. -/
def sq (Z : Mat N C) : Mat N C := fun i => Z i * Z i

/-- Row `r` of tile `t` is a row of the array. -/
theorem tile_lt {B T : ℕ} (h : B * T = N) (t : Fin B) (r : Fin T) : t.val * T + r.val < N := by
  calc t.val * T + r.val < t.val * T + T := by omega
    _ = (t.val + 1) * T := by ring
    _ ≤ B * T := Nat.mul_le_mul_right T t.isLt
    _ = N := h

/-- Row `r` of tile `t`. -/
def tileRow {B T : ℕ} (h : B * T = N) (t : Fin B) (r : Fin T) : Fin N := ⟨t.val * T + r.val, tile_lt h t r⟩

/-- The column sums of every tile of `T` consecutive rows: entry `(t, 0, q)` is the sum of column `q` over tile `t`. -/
def tileSums (B T : ℕ) (h : B * T = N) (Z : Mat N C) : Cube B 1 C :=
  fun i => ∑ r : Fin T, Z (ix2 (tileRow h (i 0) r) (n1 := C) (i 2))

/-- The tile sums added (from zero) and divided by the constant `cN`, as one row. -/
def meanT {B : ℕ} (cN : EReal) (S : Cube B 1 C) : Mat 1 C :=
  fun i => Ideal.div (0 + ∑ t : Fin B, S (ix3 t (0 : Fin 1) (n2 := C) (i 1))) cN

/-- mean(z²) − mean(z)², cut below at zero, as one row. -/
def varT {B : ℕ} (cN : EReal) (S SS : Cube B 1 C) : Mat 1 C :=
  fun i => max (meanT cN SS i - meanT cN S i * meanT cN S i) 0

/-- Normalisation with the column mean and the mean squared deviation from it. -/
def normTwo (cN eps : EReal) (Z : Mat N C) (g be : Vc C) : Mat N C :=
  bnRelu eps Z (colMean cN Z) (colMean cN (sqDev Z (colMean cN Z))) g be

/-- Normalisation with the statistics gathered tile by tile in one pass. -/
def normOne (B T : ℕ) (h : B * T = N) (cN eps : EReal) (Z : Mat N C) (g be : Vc C) : Mat N C :=
  bnRelu eps Z (rowVec (meanT cN (tileSums B T h Z)))
    (rowVec (varT cN (tileSums B T h Z) (tileSums B T h (sq Z)))) g be

/-- The head: a layer cut at zero, then a second layer. -/
def proj {A B : ℕ} (H : Mat N K) (W₁ : Mat K A) (b₁ : Vc A) (W₂ : Mat A B) (b₂ : Vc B) : Mat N B :=
  pre (relu (pre H W₁ b₁)) W₂ b₂

/-! ## The network at its sizes -/

/-- The arguments: node features, the two columns of edge ends, edge weights, and the layers' parameters. -/
structure Args where
  x : Mat 100000 128
  src : ICol 1600000
  dst : ICol 1600000
  ew : Vc 1600000
  W1 : Mat 128 128
  b1 : Vc 128
  W2 : Mat 128 128
  b2 : Vc 128
  W3 : Mat 64 128
  b3 : Vc 64
  g1 : Vc 128
  be1 : Vc 128
  g2 : Vc 128
  be2 : Vc 128
  pW1 : Mat 128 128
  pb1 : Vc 128
  pW2 : Mat 128 128
  pb2 : Vc 128

/-- Every float argument is real-valued. -/
structure Args.Fin (a : Args) : Prop where
  x : IsFin a.x
  ew : IsFin a.ew
  W1 : IsFin a.W1
  b1 : IsFin a.b1
  W2 : IsFin a.W2
  b2 : IsFin a.b2
  W3 : IsFin a.W3
  b3 : IsFin a.b3
  g1 : IsFin a.g1
  be1 : IsFin a.be1
  g2 : IsFin a.g2
  be2 : IsFin a.be2
  pW1 : IsFin a.pW1
  pb1 : IsFin a.pb1
  pW2 : IsFin a.pW2
  pb2 : IsFin a.pb2

theorem nodes_pos : 0 < 100000 := by norm_num

/-- The node count as both programs write it: the float word of 100000. -/
def cN : EReal := Ideal.ofBits .f32 0x47C35000#32
/-- The stabiliser under the root: the float word nearest 1e-5. -/
def eps : EReal := Ideal.ofBits .f32 0x3727C5AC#32
/-- The zero bias of the last layer's early product. -/
def zeros64 : Vc 64 := fun _ => Ideal.ofBits .f32 0x00000000#32

variable (a : Args)

/-- A propagation step over the network's graph. -/
def step {C : ℕ} (X : Mat 100000 C) : Mat 100000 C := prop nodes_pos a.src a.dst a.ew X

/-- A layer with the two-pass statistics. -/
def layerTwo (X : Mat 100000 128) (W : Mat 128 128) (b g be : Vc 128) : Mat 100000 128 :=
  normTwo cN eps (pre (step a X) (tr W) b) g be

/-- A layer with the one-pass statistics over 20 tiles of 5000 rows. -/
def layerOne (X : Mat 100000 128) (W : Mat 128 128) (b g be : Vc 128) : Mat 100000 128 :=
  normOne 20 5000 rfl cN eps (pre (step a X) (tr W) b) g be

def refH1 : Mat 100000 128 := layerTwo a a.x a.W1 a.b1 a.g1 a.be1
def refH2 : Mat 100000 128 := layerTwo a (refH1 a) a.W2 a.b2 a.g2 a.be2
def refZ : Mat 100000 128 := proj (refH2 a) (tr a.pW1) a.pb1 (tr a.pW2) a.pb2
def refLogits : Mat 100000 64 := pre (step a (refH2 a)) (tr a.W3) a.b3

def kerH1 : Mat 100000 128 := layerOne a a.x a.W1 a.b1 a.g1 a.be1
def kerH2 : Mat 100000 128 := layerOne a (kerH1 a) a.W2 a.b2 a.g2 a.be2
def kerZ : Mat 100000 128 := proj (kerH2 a) (tr a.pW1) a.pb1 (tr a.pW2) a.pb2
def kerLogits : Mat 100000 64 := plus (step a (pre (kerH2 a) (tr a.W3) zeros64)) (vrows a.b3)

end Cert.Sgc

end
-- ==== Proof.LibSageHost.lean ====
/-
  The host's spellings of the graph network's stages, each as ONE function of its operands over the extended reals:
  a gather of whole rows is the rows taken at the start indices; update rows added into a broadcast-zero table are
  the update rows summed per destination row; the product with a vector broadcast to a column and along the rows
  scales every row; a sum down the columns from a zero initial value divided by a broadcast constant is the column
  mean; the centred, scaled, shifted array cut at zero is the normalisation; two general dots and a bias row are the
  layers' arrangements. Every dimension record and every shape side condition is an argument, so that any program's
  own records can be plugged in. No program is mentioned.
-/
import proofs.«117873_j69002944578214_2_alg».proof.Proof.LibSageSpec
import Idealize.ShloMosaic.PureOps.Ideal.Laws
import Idealize.ShloMosaic.Lib.ValueIdx
import Idealize.ShloMosaic.Lib.Pipeline.Value

noncomputable section

namespace Cert.Sage

open Idealize.ShloMosaic Idealize.ShloMosaic.ValueIdx Cert.DenseLib Cert.RowsLib Cert.ScatterLib Cert.LayoutLib

section Host

variable {N C R K : ℕ}

/-- A gather of whole rows is the rows of the table taken at the start indices. -/
theorem gather_eq_takeRows (hN : 0 < N)
    (wf : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wf)
    (X : FVec Ideal ⟨2, ![N, C]⟩ .f32) (s : ICol R) :
    Host.gather g X s = takeRows hN s X := by
  subst hg
  funext i
  obtain ⟨r, c, rfl⟩ : ∃ (r : Fin R) (c : Fin C), i = ix2 r c := ⟨i 0, i 1, eq_ix2 i⟩
  exact gather_rows_apply hN wf X s r c

/-- Update rows added into a zero table are the update rows summed per destination row. -/
theorem scatter_eq_segSum
    (wf : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wf)
    (hb : (⟨0, ![]⟩ : Shape).BroadcastsInDim ⟨2, ![N, C]⟩ (![] : Fin 0 → Fin 2))
    (idx : ICol R) (U : FVec Ideal ⟨2, ![R, C]⟩ .f32) :
    Host.scatterAdd (F := Ideal) sc
        (broadcastInDim ⟨2, ![N, C]⟩ ![] hb (constant (F := Ideal) ⟨0, ![]⟩ .f32 0x00000000#32)) idx U
      = segSum idx U := by
  subst hsc
  funext i
  obtain ⟨b, k, rfl⟩ : ∃ (b : Fin N) (k : Fin C), i = ix2 b k := ⟨i 0, i 1, eq_ix2 i⟩
  refine (scatterAdd_rows_apply wf _ idx U b k).trans ?_
  rw [broadcastInDim_scalar_apply]
  show Ideal.ofBits .f32 0x00000000#32 + _ = _
  rw [Ideal.ofBits_zero_f32, zero_add]
  rfl

/-- The product with a vector broadcast to a column and then along the rows scales every row by its entry. -/
theorem scale_eq
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (d : FVec Ideal ⟨1, ![N]⟩ .f32) (X : FVec Ideal ⟨2, ![N, C]⟩ .f32) :
    mulf X (broadcastInDim ⟨2, ![N, C]⟩ ![0, 1] h2 (broadcastInDim ⟨2, ![N, 1]⟩ ![0] h1 d)) = scaleRows d X := by
  funext i
  obtain ⟨p, q, rfl⟩ : ∃ (p : Fin N) (q : Fin C), i = ix2 p q := ⟨i 0, i 1, eq_ix2 i⟩
  show X (ix2 p q) * broadcastInDim ⟨2, ![N, C]⟩ ![0, 1] h2 (broadcastInDim ⟨2, ![N, 1]⟩ ![0] h1 d) (ix2 p q)
    = X (ix2 p q) * d (ix1 p)
  rw [broadcastInDim_col_apply, broadcastInDim_vecCol_apply]

/-- The whole aggregation: rows taken, added into a zero table, scaled. -/
theorem meanAgg_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![N]⟩ : Shape).BroadcastsInDim ⟨2, ![N, 1]⟩ (![0] : Fin 1 → Fin 2))
    (h2 : (⟨2, ![N, 1]⟩ : Shape).BroadcastsInDim ⟨2, ![N, C]⟩ (![0, 1] : Fin 2 → Fin 2))
    (X : FVec Ideal ⟨2, ![N, C]⟩ .f32) (s t : ICol R) (d : FVec Ideal ⟨1, ![N]⟩ .f32) :
    mulf (Host.scatterAdd (F := Ideal) sc
        (broadcastInDim ⟨2, ![N, C]⟩ ![] hb (constant (F := Ideal) ⟨0, ![]⟩ .f32 0x00000000#32)) t (Host.gather g X s))
      (broadcastInDim ⟨2, ![N, C]⟩ ![0, 1] h2 (broadcastInDim ⟨2, ![N, 1]⟩ ![0] h1 d))
      = meanAgg hN s t d X := by
  rw [gather_eq_takeRows hN wfg g hg, scatter_eq_segSum wfs sc hsc, scale_eq]
  rfl

/-- Two products, the bias row added to the first: the second layer's arrangement. -/
theorem post_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = plus (plus (mm A Wl) (vrows b)) (mm X Wr) := by
  rw [dotGeneral_eq_mm D hD, dotGeneral_eq_mm D hD, broadcastInDim_eq_rows]
  rfl

/-- The same with the bias added last: the first layer before normalisation. -/
theorem layer1_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (A X : FVec Ideal ⟨2, ![N, K]⟩ .f32) (Wl Wr : FVec Ideal ⟨2, ![K, C]⟩ .f32) (b : FVec Ideal ⟨1, ![C]⟩ .f32) :
    addf (addf (Host.dotGeneral D none A Wl)
        (broadcastInDim ⟨2, ![N, C]⟩ ![0, 1] h2 (broadcastInDim ⟨2, ![1, C]⟩ ![1] h1 b))) (Host.dotGeneral D none X Wr)
      = layer1 A X Wl Wr b := by
  rw [post_eq D hD]
  funext i
  show mm A Wl i + vrows b i + mm X Wr i = mm A Wl i + mm X Wr i + vrows b i
  exact add_right_comm _ _ _

/-- The source index over column `q` with coordinate `k` on the summed axis is `(k, q)`. -/
theorem lift_col (h : (⟨2, ![N, C]⟩ : Shape).Reduces [(0 : Fin 2)] ⟨1, ![C]⟩) (q : Fin C) (k : Fin N) :
    h.lift (ix1 q) k = ix2 k q :=
  funext fun c => Fin.ext (by match c with | ⟨0, _⟩ => rfl | ⟨1, _⟩ => rfl)

/-- A sum down the columns from a zero initial value, divided by a broadcast constant, is the column mean. -/
theorem colMean_eq
    (h' : (⟨2, ![N, C]⟩ : Shape).ReducesTo [(0 : Fin 2)] ⟨1, ![C]⟩)
    (h : (⟨2, ![N, C]⟩ : Shape).Reduces [(0 : Fin 2)] ⟨1, ![C]⟩)
    (hu : 0 < (⟨0, ![]⟩ : Shape).numel)
    (hb : (⟨0, ![]⟩ : Shape).BroadcastsInDim ⟨1, ![C]⟩ (![] : Fin 0 → Fin 1))
    (w : BitVec 32) (X : FVec Ideal ⟨2, ![N, C]⟩ .f32) :
    Host.divf (F := Ideal) (Host.reduceAdd (F := Ideal) X (constant (F := Ideal) ⟨0, ![]⟩ .f32 0x00000000#32) h' hu)
        (broadcastInDim ⟨1, ![C]⟩ ![] hb (constant (F := Ideal) ⟨0, ![]⟩ .f32 w))
      = colMean (Ideal.ofBits .f32 w) X := by
  funext j
  obtain ⟨q, rfl⟩ : ∃ q : Fin C, j = ix1 q := ⟨j 0, eq_ix1 j⟩
  show Ideal.div (Ideal.hostReduceAdd h' X (Ideal.ofBits .f32 0x00000000#32) (ix1 q))
      (broadcastInDim ⟨1, ![C]⟩ ![] hb (constant (F := Ideal) ⟨0, ![]⟩ .f32 w) (ix1 q))
    = Ideal.div (0 + ∑ n : Fin N, X (ix2 n q)) (Ideal.ofBits .f32 w)
  rw [Ideal.hostReduceAdd_single h' h, broadcastInDim_scalar_apply, Ideal.ofBits_zero_f32]
  exact congrArg (fun t => Ideal.div (0 + t) (Ideal.ofBits .f32 w))
    (Finset.sum_congr rfl fun k _ => congrArg X (lift_col h q k))

/-- The squared deviation from a vector laid along every row. -/
theorem sqDev_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (H : FVec Ideal ⟨2, ![N, C]⟩ .f32) (mu : FVec Ideal ⟨1, ![C]⟩ .f32) :
    mulf (subf H (broadcastInDim ⟨2, ![N, C]⟩ ![0, 1] h2 (broadcastInDim ⟨2, ![1, C]⟩ ![1] h1 mu)))
        (subf H (broadcastInDim ⟨2, ![N, C]⟩ ![0, 1] h2 (broadcastInDim ⟨2, ![1, C]⟩ ![1] h1 mu)))
      = sqDev H mu := by
  rw [broadcastInDim_eq_rows]
  funext i
  obtain ⟨p, q, rfl⟩ : ∃ (p : Fin N) (q : Fin C), i = ix2 p q := ⟨i 0, i 1, eq_ix2 i⟩
  rfl

/-- Centred, scaled by the reciprocal root of the variance plus a broadcast constant and by `gamma`, shifted by
    `beta`, cut at zero. -/
theorem bn_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hb : (⟨0, ![]⟩ : Shape).BroadcastsInDim ⟨1, ![C]⟩ (![] : Fin 0 → Fin 1))
    (hz : (⟨0, ![]⟩ : Shape).BroadcastsInDim ⟨2, ![N, C]⟩ (![] : Fin 0 → Fin 2))
    (w : BitVec 32) (H : FVec Ideal ⟨2, ![N, C]⟩ .f32) (mu var gamma beta : FVec Ideal ⟨1, ![C]⟩ .f32) :
    maximumf
        (addf
          (mulf
            (mulf (subf H (broadcastInDim ⟨2, ![N, C]⟩ ![0, 1] h2 (broadcastInDim ⟨2, ![1, C]⟩ ![1] h1 mu)))
              (broadcastInDim ⟨2, ![N, C]⟩ ![0, 1] h2 (broadcastInDim ⟨2, ![1, C]⟩ ![1] h1
                (Host.rsqrt (F := Ideal)
                  (addf var (broadcastInDim ⟨1, ![C]⟩ ![] hb (constant (F := Ideal) ⟨0, ![]⟩ .f32 w)))))))
            (broadcastInDim ⟨2, ![N, C]⟩ ![0, 1] h2 (broadcastInDim ⟨2, ![1, C]⟩ ![1] h1 gamma)))
          (broadcastInDim ⟨2, ![N, C]⟩ ![0, 1] h2 (broadcastInDim ⟨2, ![1, C]⟩ ![1] h1 beta)))
        (broadcastInDim ⟨2, ![N, C]⟩ ![] hz (constant (F := Ideal) ⟨0, ![]⟩ .f32 0x00000000#32))
      = bnRelu (Ideal.ofBits .f32 w) H mu var gamma beta := by
  rw [maximumf_bcast_zero, broadcastInDim_eq_rows, broadcastInDim_eq_rows, broadcastInDim_eq_rows,
    broadcastInDim_eq_rows]
  funext i
  obtain ⟨p, q, rfl⟩ : ∃ (p : Fin N) (q : Fin C), i = ix2 p q := ⟨i 0, i 1, eq_ix2 i⟩
  show max (((H (ix2 p q) - mu (ix1 q))
      * Ideal.rsqrt (var (ix1 q) + broadcastInDim ⟨1, ![C]⟩ ![] hb (constant (F := Ideal) ⟨0, ![]⟩ .f32 w) (ix1 q)))
      * gamma (ix1 q) + beta (ix1 q)) 0 = _
  rw [broadcastInDim_scalar_apply]
  rfl

end Host

/-! ## The reciprocal degree -/

section Degree

variable {N R : ℕ}

/-- From zero, the float word `w` once for every update row whose start index, read as a signed integer, is `i`:
    with `w` the word of one, the number of edges into node `i`. -/
def countAt (w : BitVec 32) (dst : ICol R) : Vc N :=
  fun i => 0 + ∑ _r ∈ Finset.univ.filter (fun r : Fin R => (dst (ix2 r (0 : Fin 1))).toInt = (((i 0 : Fin N)).val : ℤ)),
    Ideal.ofBits .f32 w

/-- Where the edge count exceeds zero, one over the larger of the count and one; elsewhere zero. -/
def recipDeg (dst : ICol R) : Vc N := fun i =>
  Scalar.select (Ideal.cmp .ogt (countAt (N := N) 0x3F800000#32 dst i) (Ideal.ofBits .f32 0x00000000#32))
    (Ideal.div (Ideal.ofBits .f32 0x3F800000#32)
      (max (countAt (N := N) 0x3F800000#32 dst i) (Ideal.ofBits .f32 0x3F800000#32)))
    (Ideal.ofBits .f32 0x00000000#32)

/-- A broadcast constant added into a broadcast-zero vector at a column of start indices counts, per entry, the
    update rows that land there. -/
theorem scatter_const_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (w : BitVec 32) (dst : ICol R) :
    Host.scatterAdd (F := Ideal) sc
        (broadcastInDim ⟨1, ![N]⟩ ![] hbN (constant (F := Ideal) ⟨0, ![]⟩ .f32 0x00000000#32)) dst
        (broadcastInDim ⟨1, ![R]⟩ ![] hbR (constant (F := Ideal) ⟨0, ![]⟩ .f32 w))
      = countAt w dst := by
  subst hsc
  funext j
  obtain ⟨p, rfl⟩ : ∃ p : Fin N, j = ix1 p := ⟨j 0, eq_ix1 j⟩
  refine (scatterAdd_vec_apply wf _ dst _ p).trans ?_
  rw [broadcastInDim_scalar_apply]
  show Ideal.ofBits .f32 0x00000000#32 + _ = _
  rw [Ideal.ofBits_zero_f32]
  refine congrArg (fun t => (0 : EReal) + t) (Finset.sum_congr rfl fun r _ => ?_)
  exact broadcastInDim_scalar_apply hbR _ (ix1 r)

/-- The host's reciprocal degree: the count compared with zero selects one over the larger of the count and one,
    or zero. -/
theorem recipDeg_eq
    (wf : ScatterDims.WF ⟨1, ![N]⟩ ⟨2, ![R, 1]⟩ ⟨1, ![R]⟩ [] [0] [0] 1)
    (sc : ScatterDims ⟨1, ![N]⟩ ⟨2, ![R, 1]⟩ ⟨1, ![R]⟩) (hsc : sc = vecScatterDims N R wf)
    (hbN : (⟨0, ![]⟩ : Shape).BroadcastsInDim ⟨1, ![N]⟩ (![] : Fin 0 → Fin 1))
    (hbR : (⟨0, ![]⟩ : Shape).BroadcastsInDim ⟨1, ![R]⟩ (![] : Fin 0 → Fin 1))
    (dst : ICol R) :
    select
        (cmpf .ogt
          (Host.scatterAdd (F := Ideal) sc
            (broadcastInDim ⟨1, ![N]⟩ ![] hbN (constant (F := Ideal) ⟨0, ![]⟩ .f32 0x00000000#32)) dst
            (broadcastInDim ⟨1, ![R]⟩ ![] hbR (constant (F := Ideal) ⟨0, ![]⟩ .f32 0x3F800000#32)))
          (broadcastInDim ⟨1, ![N]⟩ ![] hbN (constant (F := Ideal) ⟨0, ![]⟩ .f32 0x00000000#32)))
        (Host.divf (F := Ideal)
          (broadcastInDim ⟨1, ![N]⟩ ![] hbN (constant (F := Ideal) ⟨0, ![]⟩ .f32 0x3F800000#32))
          (maximumf
            (Host.scatterAdd (F := Ideal) sc
              (broadcastInDim ⟨1, ![N]⟩ ![] hbN (constant (F := Ideal) ⟨0, ![]⟩ .f32 0x00000000#32)) dst
              (broadcastInDim ⟨1, ![R]⟩ ![] hbR (constant (F := Ideal) ⟨0, ![]⟩ .f32 0x3F800000#32)))
            (broadcastInDim ⟨1, ![N]⟩ ![] hbN (constant (F := Ideal) ⟨0, ![]⟩ .f32 0x3F800000#32))))
        (broadcastInDim ⟨1, ![N]⟩ ![] hbN (constant (F := Ideal) ⟨0, ![]⟩ .f32 0x00000000#32))
      = recipDeg dst := by
  rw [scatter_const_eq wf sc hsc hbN hbR]
  funext j
  obtain ⟨p, rfl⟩ : ∃ p : Fin N, j = ix1 p := ⟨j 0, eq_ix1 j⟩
  show Scalar.select
      (Ideal.cmp .ogt (countAt (N := N) 0x3F800000#32 dst (ix1 p))
        (broadcastInDim ⟨1, ![N]⟩ ![] hbN (constant (F := Ideal) ⟨0, ![]⟩ .f32 0x00000000#32) (ix1 p)))
      (Ideal.div (broadcastInDim ⟨1, ![N]⟩ ![] hbN (constant (F := Ideal) ⟨0, ![]⟩ .f32 0x3F800000#32) (ix1 p))
        (max (countAt (N := N) 0x3F800000#32 dst (ix1 p))
          (broadcastInDim ⟨1, ![N]⟩ ![] hbN (constant (F := Ideal) ⟨0, ![]⟩ .f32 0x3F800000#32) (ix1 p))))
      (broadcastInDim ⟨1, ![N]⟩ ![] hbN (constant (F := Ideal) ⟨0, ![]⟩ .f32 0x00000000#32) (ix1 p)) = _
  rw [broadcastInDim_scalar_apply, broadcastInDim_scalar_apply]
  rfl

/-- Every entry of the reciprocal degree is zero or one over the larger of that node's edge count and one. -/
theorem recipDeg_cases (dst : ICol R) (i : (⟨1, ![N]⟩ : Shape).Idx) :
    recipDeg (N := N) dst i = Ideal.ofBits .f32 0x00000000#32
      ∨ recipDeg (N := N) dst i = Ideal.div (Ideal.ofBits .f32 0x3F800000#32)
          (max (countAt (N := N) 0x3F800000#32 dst i) (Ideal.ofBits .f32 0x3F800000#32)) := by
  unfold recipDeg Scalar.select
  split
  · exact Or.inr rfl
  · exact Or.inl rfl

end Degree

end Cert.Sage

end
-- ==== Proof.LibSgcHost.lean ====
/-
  The small host stretches between the kernel launches, read as the specification's functions: a transposed weight, a
  vector recast as one row, the tile sums added and divided (the mean row), mean(z²) − mean(z)² cut at zero (the
  variance row), a zero row, and a bias laid along the rows of a sum.
-/
import proofs.«117873_j69002944578214_2_alg».proof.Proof.LibSgcSpec
import proofs.«117873_j69002944578214_2_alg».proof.Proof.LibSageHost
import Idealize.ShloMosaic.Lib.ValueLayout

noncomputable section

namespace Cert.Sgc

open Idealize.ShloMosaic Idealize.ShloMosaic.ValueIdx Cert.DenseLib Cert.RowsLib Cert.LayoutLib Cert.RowBlocks Cert.Sage

/-- The host's transpose of a matrix is the transposed matrix. -/
theorem transpose_eq_tr {a b : ℕ} (W : FVec Ideal ⟨2, ![a, b]⟩ .f32)
    (h : (⟨2, ![a, b]⟩ : Shape).Transposes [1, 0] ⟨2, ![b, a]⟩) :
    transpose ⟨2, ![b, a]⟩ [1, 0] W h = tr W := by
  funext j
  obtain ⟨p, q, rfl⟩ : ∃ (p : Fin b) (q : Fin a), j = ix2 p q := ⟨j 0, j 1, eq_ix2 j⟩
  exact transpose_ix2_apply W h p q

/-- A vector recast as one row: the row is the vector. -/
theorem rowVec_shapeCast {C : ℕ} (b : FVec Ideal ⟨1, ![C]⟩ .f32) (h : (⟨1, ![C]⟩ : Shape).ShapeCasts ⟨2, ![1, C]⟩) :
    rowVec (shapeCast ⟨2, ![1, C]⟩ b h) = b := by
  funext j
  obtain ⟨q, rfl⟩ : ∃ q : Fin C, j = ix1 q := ⟨j 0, eq_ix1 j⟩
  exact shapeCast_vecRow_apply b h 0 q

/-- The source index over `(0, q)` with coordinate `k` on the summed leading axis is `(k, 0, q)`. -/
theorem lift_lead {B C : ℕ} (h : (⟨3, ![B, 1, C]⟩ : Shape).Reduces [(0 : Fin 3)] ⟨2, ![1, C]⟩) (q : Fin C) (k : Fin B) :
    h.lift (ix2 (0 : Fin 1) q) k = ix3 k (0 : Fin 1) q :=
  funext fun c => Fin.ext (by match c with | ⟨0, _⟩ => rfl | ⟨1, _⟩ => rfl | ⟨2, _⟩ => rfl)

/-- The tile sums added from a zero initial value and divided by a broadcast constant: the mean row. -/
theorem hostMeanT_eq {B C : ℕ}
    (h' : (⟨3, ![B, 1, C]⟩ : Shape).ReducesTo [(0 : Fin 3)] ⟨2, ![1, C]⟩)
    (h : (⟨3, ![B, 1, C]⟩ : Shape).Reduces [(0 : Fin 3)] ⟨2, ![1, C]⟩)
    (hu : 0 < (⟨0, ![]⟩ : Shape).numel)
    (hb : (⟨0, ![]⟩ : Shape).BroadcastsInDim ⟨2, ![1, C]⟩ (![] : Fin 0 → Fin 2))
    (w : BitVec 32) (S : FVec Ideal ⟨3, ![B, 1, C]⟩ .f32) :
    Host.divf (F := Ideal) (Host.reduceAdd (F := Ideal) S (constant (F := Ideal) ⟨0, ![]⟩ .f32 0x00000000#32) h' hu)
        (broadcastInDim ⟨2, ![1, C]⟩ ![] hb (constant (F := Ideal) ⟨0, ![]⟩ .f32 w))
      = meanT (Ideal.ofBits .f32 w) S := by
  funext j
  obtain ⟨u, q, rfl⟩ : ∃ (u : Fin 1) (q : Fin C), j = ix2 u q := ⟨j 0, j 1, eq_ix2 j⟩
  obtain rfl : u = 0 := Subsingleton.elim _ _
  show Ideal.div (Ideal.hostReduceAdd h' S (Ideal.ofBits .f32 0x00000000#32) (ix2 (0 : Fin 1) q))
      (broadcastInDim ⟨2, ![1, C]⟩ ![] hb (constant (F := Ideal) ⟨0, ![]⟩ .f32 w) (ix2 (0 : Fin 1) q))
    = Ideal.div (0 + ∑ t : Fin B, S (ix3 t (0 : Fin 1) q)) (Ideal.ofBits .f32 w)
  rw [Ideal.hostReduceAdd_single h' h, broadcastInDim_scalar_apply, Ideal.ofBits_zero_f32]
  exact congrArg (fun t => Ideal.div (0 + t) (Ideal.ofBits .f32 w))
    (Finset.sum_congr rfl fun k _ => congrArg S (lift_lead h q k))

/-- The difference of the squares' mean row and the squared mean row, cut at a broadcast zero: the variance row. -/
theorem hostVarT_eq {B C : ℕ} (cN : EReal) (S SS : Cube B 1 C)
    (hb : (⟨0, ![]⟩ : Shape).BroadcastsInDim ⟨2, ![1, C]⟩ (![] : Fin 0 → Fin 2)) :
    maximumf (F := Ideal) (φ := .f32) (subf (F := Ideal) (φ := .f32) (meanT cN SS) (mulf (F := Ideal) (φ := .f32) (meanT cN S) (meanT cN S)))
        (broadcastInDim ⟨2, ![1, C]⟩ ![] hb (constant (F := Ideal) ⟨0, ![]⟩ .f32 0x00000000#32))
      = varT cN S SS := by
  rw [maximumf_bcast_zero]
  rfl

/-- A broadcast zero word, as one row of 64, is the zero bias. -/
theorem rowVec_zero (hb : (⟨0, ![]⟩ : Shape).BroadcastsInDim ⟨2, ![1, 64]⟩ (![] : Fin 0 → Fin 2)) :
    rowVec (broadcastInDim ⟨2, ![1, 64]⟩ ![] hb (constant (F := Ideal) ⟨0, ![]⟩ .f32 0x00000000#32)) = zeros64 := by
  funext j
  show broadcastInDim ⟨2, ![1, 64]⟩ ![] hb (constant (F := Ideal) ⟨0, ![]⟩ .f32 0x00000000#32) _ = _
  rw [broadcastInDim_scalar_apply]
  rfl

/-- A vector broadcast to one row, then down the rows, added to an array: the bias laid along every row. -/
theorem addf_bias_eq {M N : ℕ} (X : FVec Ideal ⟨2, ![M, N]⟩ .f32) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    addf X (broadcastInDim ⟨2, ![M, N]⟩ ![0, 1] h2 (broadcastInDim ⟨2, ![1, N]⟩ ![1] h1 b)) = plus X (vrows b) := by
  rw [broadcastInDim_eq_rows b h1 h2]
  rfl

end Cert.Sgc

end
-- ==== Proof.LibGatherVec.lean ====
/-
  General lemma: a gather of single entries of a vector at a column of start indices, read at an entry. The
  entry a start index names is the index read as a signed integer and clamped into the vector. None mentions a program.
-/
import Idealize.ShloMosaic.Lib.ValueIdx
import Idealize.ShloMosaic.Lib.Pipeline.Value

noncomputable section

namespace Cert.GatherVecLib

open Idealize.ShloMosaic Idealize.ShloMosaic.ValueIdx

variable {α : Type}

/-- The dimension numbers of a gather of single entries: a vector of N entries, a column of R start indices, a
    result of R entries; the one axis is collapsed and named by the start index, and there is no offset axis. -/
abbrev vecGatherDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry a start index names: the word read as a signed integer, clamped into the vector. -/
def entryOf (N : ℕ) (hN : 0 < N) {w : ℕ} (b : BitVec w) : Fin N := ⟨min b.toInt.toNat (N - 1), by omega⟩

/-- THE ENTRY GATHER READ AT r: the vector at the entry that start index r names. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r) = x (ix1 (entryOf N hN (idx (ix2 r (0 : Fin 1))))) := by
  unfold Host.gather
  congr 1
  funext a
  refine Fin.ext ?_
  match a with
  | ⟨0, _⟩ =>
    show (vecGatherDims N R wf).start (ix1 r) idx 0 + (vecGatherDims N R wf).batchCoord (ix1 r) 0
      + (vecGatherDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 r) ⟨List.idxOf (0 : Fin 1) (vecGatherDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.GatherVecLib

end
-- ==== Proof.LibGcn.lean ====
/-
  A two-layer graph convolution with symmetric degree normalisation, a mean over graphs and a linear head, as
  functions of whole arrays over the extended reals, in two arrangements of the normalisation. An edge e carries
  the row of its source node to its destination node. In the first arrangement every carried row is weighted by
  d(source e) · d(destination e) and the weighted rows are summed per destination; in the second every row of the
  table is weighted by its own d before it is carried, the carried rows are summed per destination, and row v of
  the sum is weighted by d(v). The two agree whenever every d is a nonnegative real: on the extended reals the
  product with a nonnegative real distributes over any sum, infinite summands included, and products re-associate.
  No finiteness of the carried rows is needed. No program is mentioned.
-/
import proofs.«117873_j69002944578214_2_alg».proof.Proof.LibSageSpec
import proofs.«117873_j69002944578214_2_alg».proof.Proof.LibGatherVec

noncomputable section

namespace Cert.Gcn

open Idealize.ShloMosaic Idealize.ShloMosaic.ValueIdx Cert.DenseLib Cert.RowsLib Cert.Sage Cert.GatherVecLib

variable {N C R K G : ℕ}

/-- The weight of edge e: d at the node its source index names times d at the node its (wrapped) destination index
    names, each index clamped into the table. -/
def edgeNorm (hN : 0 < N) (srcw dstw : ICol R) (d : Vc N) : Vc R :=
  fun e => d (ix1 (entryOf N hN (srcw (ix2 (n0 := R) (e 0) (0 : Fin 1)))))
    * d (ix1 (entryOf N hN (dstw (ix2 (n0 := R) (e 0) (0 : Fin 1)))))

/-- Every carried row scaled by its edge's weight. -/
def scaleEdges (n : Vc R) (U : Mat R C) : Mat R C := fun i => U i * n (ix1 (n := R) (i 0))

/-- The first arrangement: rows carried along the edges, weighted per edge, summed per destination. -/
def aggEdge (hN : 0 < N) (srcw dst dstw : ICol R) (d : Vc N) (Y : Mat N C) : Mat N C :=
  segSum dst (scaleEdges (edgeNorm hN srcw dstw d) (takeRows hN srcw Y))

/-- The second arrangement: rows weighted per node, carried, summed per destination, weighted per destination. -/
def aggNode (hN : 0 < N) (srcw dst : ICol R) (d : Vc N) (Y : Mat N C) : Mat N C :=
  scaleRows d (segSum dst (takeRows hN srcw (scaleRows d Y)))

/-- The product with a nonnegative real distributes over a finite sum of extended reals. -/
theorem sum_mul_nonneg_real {ι : Type} (s : Finset ι) (f : ι → EReal) (x : EReal) (hx : 0 ≤ x) (hx' : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top hx hx', ih]

/-- THE TWO ARRANGEMENTS AGREE where every d is a nonnegative real and, for an edge that lands on node v, the wrapped
    destination index names v: at entry (v, j) both are the sum over the edges e landing on v of
    Y (source e, j) · d (source e) · d v. -/
theorem aggEdge_eq_aggNode (hN : 0 < N) (srcw dst dstw : ICol R) (d : Vc N) (Y : Mat N C)
    (hd : ∀ i, 0 ≤ d i ∧ d i ≠ ⊤)
    (hdw : ∀ (r : Fin R) (v : Fin N), (dst (ix2 r (0 : Fin 1))).toInt = (v.val : ℤ) →
      entryOf N hN (dstw (ix2 r (0 : Fin 1))) = v) :
    aggEdge hN srcw dst dstw d Y = aggNode hN srcw dst d Y := by
  funext i
  obtain ⟨v, j, rfl⟩ : ∃ (v : Fin N) (j : Fin C), i = ix2 v j := ⟨i 0, i 1, eq_ix2 i⟩
  show (∑ r ∈ Finset.univ.filter (fun r : Fin R => (dst (ix2 r (0 : Fin 1))).toInt = ((v : Fin N).val : ℤ)),
      Y (ix2 (rowOf N hN (srcw (ix2 r (0 : Fin 1)))) j)
        * (d (ix1 (entryOf N hN (srcw (ix2 r (0 : Fin 1))))) * d (ix1 (entryOf N hN (dstw (ix2 r (0 : Fin 1)))))))
    = (∑ r ∈ Finset.univ.filter (fun r : Fin R => (dst (ix2 r (0 : Fin 1))).toInt = ((v : Fin N).val : ℤ)),
      Y (ix2 (rowOf N hN (srcw (ix2 r (0 : Fin 1)))) j) * d (ix1 (rowOf N hN (srcw (ix2 r (0 : Fin 1)))))) * d (ix1 v)
  rw [sum_mul_nonneg_real _ _ _ (hd (ix1 v)).1 (hd (ix1 v)).2]
  refine Finset.sum_congr rfl fun r hr => ?_
  rw [hdw r v (Finset.mem_filter.1 hr).2, mul_assoc]
  rfl

/-! ## The network -/

/-- The input layer: product with the weights, bias along every row, cut at zero. -/
def layer0 (X : Mat N K) (W : Mat K C) (b : Vc C) : Mat N C := relu (plus (mm X W) (vrows b))

/-- A convolution in the first arrangement. -/
def convEdge (hN : 0 < N) (srcw dst dstw : ICol R) (d : Vc N) (H : Mat N K) (W : Mat K C) (b : Vc C) : Mat N C :=
  relu (plus (aggEdge hN srcw dst dstw d (mm H W)) (vrows b))

/-- A convolution in the second arrangement. -/
def convNode (hN : 0 < N) (srcw dst : ICol R) (d : Vc N) (H : Mat N K) (W : Mat K C) (b : Vc C) : Mat N C :=
  relu (plus (aggNode hN srcw dst d (mm H W)) (vrows b))

/-- Rows summed per graph, each graph's sum divided by that graph's count. -/
def pool (batch : ICol N) (cnt : Vc G) (H : Mat N C) : Mat G C :=
  fun i => Ideal.div (segSum (N := G) batch H i) (cnt (ix1 (n := G) (i 0)))

/-- The head: product with the weights plus the bias along every row. -/
def head (P : Mat G K) (W : Mat K C) (b : Vc C) : Mat G C := plus (mm P W) (vrows b)

theorem convEdge_eq_convNode (hN : 0 < N) (srcw dst dstw : ICol R) (d : Vc N) (H : Mat N K) (W : Mat K C) (b : Vc C)
    (hd : ∀ i, 0 ≤ d i ∧ d i ≠ ⊤)
    (hdw : ∀ (r : Fin R) (v : Fin N), (dst (ix2 r (0 : Fin 1))).toInt = (v.val : ℤ) →
      entryOf N hN (dstw (ix2 r (0 : Fin 1))) = v) :
    convEdge hN srcw dst dstw d H W b = convNode hN srcw dst d H W b := by
  unfold convEdge convNode
  rw [aggEdge_eq_aggNode hN srcw dst dstw d _ hd hdw]

end Cert.Gcn

end
-- ==== Proof.LibSageAlgebra.lean ====
/-
  The algebra of the two-layer mean-aggregation network over the extended reals: where every entry of the operands
  is a real number, the weight may be applied before or after the aggregation; every operation of the network keeps
  all entries real; the column variance is a nonnegative real, so the reciprocal root of the variance plus a positive
  real is again real.
-/
import proofs.«117873_j69002944578214_2_alg».proof.Proof.LibSageSpec
import Idealize.ShloMosaic.PureOps.Ideal

noncomputable section

namespace Cert.Sage

open Idealize.ShloMosaic Idealize.ShloMosaic.ValueIdx Cert.DenseLib Cert.RowsLib

/-! ## Real entries -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An array whose entries are all real is the coercion of an array of reals. -/
theorem IsFin.exists_real {s : Shape} {X : s.Idx → EReal} (h : IsFin X) :
    ∃ x : s.Idx → ℝ, X = fun i => (x i : EReal) := by
  choose x hx using h
  exact ⟨x, funext hx⟩

/-! ## The weight before or after the aggregation -/

/-- With real entries, aggregating the products is the product of the aggregate: at entry (n, j) both are the sum,
    over the update rows e sent to n and over k, of H (c e, k) · Wl (k, j) · d n, by distributivity in the reals. -/
theorem meanAgg_mm {N K C R : ℕ} (hN : 0 < N) (src dst : ICol R) (d : Vc N) (H : Mat N K) (Wl : Mat K C)
    (hH : IsFin H) (hW : IsFin Wl) (hd : IsFin d) :
    meanAgg hN src dst d (mm H Wl) = mm (meanAgg hN src dst d H) Wl := by
  obtain ⟨h, rfl⟩ := hH.exists_real
  obtain ⟨w, rfl⟩ := hW.exists_real
  obtain ⟨e, rfl⟩ := hd.exists_real
  funext i
  obtain ⟨n, j, rfl⟩ : ∃ (n : Fin N) (j : Fin C), i = ix2 n j := ⟨i 0, i 1, eq_ix2 i⟩
  show (∑ r ∈ Finset.univ.filter (fun r : Fin R => (dst (ix2 r (0 : Fin 1))).toInt = ((n : Fin N).val : ℤ)),
      ∑ k : Fin K, ((h (ix2 (rowOf N hN (src (ix2 r (0 : Fin 1)))) k) : ℝ) : EReal) * ((w (ix2 k j) : ℝ) : EReal))
        * ((e (ix1 n) : ℝ) : EReal)
    = ∑ k : Fin K, ((∑ r ∈ Finset.univ.filter (fun r : Fin R => (dst (ix2 r (0 : Fin 1))).toInt = ((n : Fin N).val : ℤ)),
      ((h (ix2 (rowOf N hN (src (ix2 r (0 : Fin 1)))) k) : ℝ) : EReal)) * ((e (ix1 n) : ℝ) : EReal))
        * ((w (ix2 k j) : ℝ) : EReal)
  simp only [← EReal.coe_mul, ← coe_sum]
  congr 1
  rw [Finset.sum_comm, Finset.sum_mul]
  refine Finset.sum_congr rfl fun k _ => ?_
  rw [← Finset.sum_mul]
  ring

/-- THE TWO ARRANGEMENTS OF THE SECOND LAYER AGREE where the features, the first weight and the scale are real:
    the aggregate term is the same by distributivity, and the other two terms are added in the other order. -/
theorem outPre_eq_outPost {N K C R : ℕ} (hN : 0 < N) (src dst : ICol R) (d : Vc N) (H : Mat N K) (Wl Wr : Mat K C)
    (b : Vc C) (hH : IsFin H) (hW : IsFin Wl) (hd : IsFin d) :
    outPre hN src dst d H Wl Wr b = outPost hN src dst d H Wl Wr b := by
  funext i
  show (meanAgg hN src dst d (mm H Wl) i + mm H Wr i) + vrows b i
    = (mm (meanAgg hN src dst d H) Wl i + vrows b i) + mm H Wr i
  rw [meanAgg_mm hN src dst d H Wl hH hW hd, add_right_comm]

/-! ## Every operation keeps the entries real -/

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

/-- The greater of two reals, taken in the extended reals, is the greater of them in the reals. -/
theorem coe_max_real (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, coe_max_real a b⟩

theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

theorem isFin_mm {M K N : ℕ} {X : Mat M K} {W : Mat K N} (hX : IsFin X) (hW : IsFin W) : IsFin (mm X W) :=
  fun _ => real_sum _ _ fun _ _ => real_mul (hX _) (hW _)

theorem isFin_plus {s : Shape} {X Y : s.Idx → EReal} (hX : IsFin X) (hY : IsFin Y) : IsFin (plus X Y) :=
  fun i => real_add (hX i) (hY i)

theorem isFin_vrows {M C : ℕ} {b : Vc C} (hb : IsFin b) : IsFin (vrows (M := M) b) := fun _ => hb _

theorem isFin_rowVec {C : ℕ} {B : Mat 1 C} (hB : IsFin B) : IsFin (rowVec B) := fun _ => hB _

theorem isFin_relu {s : Shape} {X : s.Idx → EReal} (hX : IsFin X) : IsFin (relu X) :=
  fun i => real_max (hX i) real_zero

theorem isFin_takeRows {N C R : ℕ} (hN : 0 < N) (src : ICol R) {X : Mat N C} (hX : IsFin X) :
    IsFin (takeRows hN src X) := fun _ => hX _

theorem isFin_segSum {N C R : ℕ} (dst : ICol R) {U : Mat R C} (hU : IsFin U) : IsFin (segSum (N := N) dst U) :=
  fun _ => real_sum _ _ fun _ _ => hU _

theorem isFin_scaleRows {N C : ℕ} {d : Vc N} {X : Mat N C} (hd : IsFin d) (hX : IsFin X) : IsFin (scaleRows d X) :=
  fun i => real_mul (hX i) (hd _)

theorem isFin_meanAgg {N C R : ℕ} (hN : 0 < N) (src dst : ICol R) {d : Vc N} {X : Mat N C} (hd : IsFin d)
    (hX : IsFin X) : IsFin (meanAgg hN src dst d X) :=
  isFin_scaleRows hd (isFin_segSum dst (isFin_takeRows hN src hX))

/-- A column mean over a positive real count: the sum of reals times the reciprocal of the count. -/
theorem isFin_colMean {N C : ℕ} (cN : EReal) (hc : ∃ r : ℝ, 0 < r ∧ cN = (r : EReal)) {X : Mat N C}
    (hX : IsFin X) : IsFin (colMean cN X) := by
  obtain ⟨r, hr, rfl⟩ := hc
  intro j
  show ∃ v : ℝ, Ideal.div (0 + ∑ n : Fin N, X (ix2 n (n1 := C) (j 0))) (r : EReal) = (v : EReal)
  rw [Ideal.div_coe (ne_of_gt hr)]
  exact real_mul (real_add real_zero (real_sum _ _ fun n _ => hX _)) ⟨1 / r, rfl⟩

theorem isFin_layer1 {N K C : ℕ} {A X : Mat N K} {Wl Wr : Mat K C} {b : Vc C} (hA : IsFin A) (hX : IsFin X)
    (hWl : IsFin Wl) (hWr : IsFin Wr) (hb : IsFin b) : IsFin (layer1 A X Wl Wr b) :=
  isFin_plus (isFin_plus (isFin_mm hA hWl) (isFin_mm hX hWr)) (isFin_vrows hb)

/-! ## The variance is a nonnegative real, so the normalisation stays real -/

theorem nn_zero : ∃ r : ℝ, 0 ≤ r ∧ (0 : EReal) = (r : EReal) := ⟨0, le_rfl, EReal.coe_zero.symm⟩

theorem nn_add {x y : EReal} (hx : ∃ r : ℝ, 0 ≤ r ∧ x = (r : EReal)) (hy : ∃ r : ℝ, 0 ≤ r ∧ y = (r : EReal)) :
    ∃ r : ℝ, 0 ≤ r ∧ x + y = (r : EReal) := by
  obtain ⟨a, ha, rfl⟩ := hx
  obtain ⟨b, hb, rfl⟩ := hy
  exact ⟨a + b, add_nonneg ha hb, (EReal.coe_add a b).symm⟩

theorem nn_mul {x y : EReal} (hx : ∃ r : ℝ, 0 ≤ r ∧ x = (r : EReal)) (hy : ∃ r : ℝ, 0 ≤ r ∧ y = (r : EReal)) :
    ∃ r : ℝ, 0 ≤ r ∧ x * y = (r : EReal) := by
  obtain ⟨a, ha, rfl⟩ := hx
  obtain ⟨b, hb, rfl⟩ := hy
  exact ⟨a * b, mul_nonneg ha hb, (EReal.coe_mul a b).symm⟩

/-- The square of a real is a nonnegative real. -/
theorem nn_sq {x : EReal} (hx : ∃ r : ℝ, x = (r : EReal)) : ∃ r : ℝ, 0 ≤ r ∧ x * x = (r : EReal) := by
  obtain ⟨a, rfl⟩ := hx
  exact ⟨a * a, mul_self_nonneg a, (EReal.coe_mul a a).symm⟩

theorem nn_sum {ι : Type} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_rfl, by simp⟩
  | insert a s ha ih =>
    rw [Finset.sum_insert ha]
    exact nn_add (h a (Finset.mem_insert_self a s)) (ih fun i hi => h i (Finset.mem_insert_of_mem hi))

theorem isFin_sqDev {N C : ℕ} {X : Mat N C} {mu : Vc C} (hX : IsFin X) (hmu : IsFin mu) : IsFin (sqDev X mu) :=
  fun i => real_mul (real_sub (hX i) (hmu _)) (real_sub (hX i) (hmu _))

theorem sqDev_nonneg {N C : ℕ} {X : Mat N C} {mu : Vc C} (hX : IsFin X) (hmu : IsFin mu) :
    ∀ i, ∃ v : ℝ, 0 ≤ v ∧ sqDev X mu i = (v : EReal) := fun i => nn_sq (real_sub (hX i) (hmu _))

/-- A column mean of nonnegative reals over a positive real count is a nonnegative real. -/
theorem colMean_nonneg {N C : ℕ} (cN : EReal) (hc : ∃ r : ℝ, 0 < r ∧ cN = (r : EReal)) {X : Mat N C}
    (hX : ∀ i, ∃ v : ℝ, 0 ≤ v ∧ X i = (v : EReal)) : ∀ j, ∃ v : ℝ, 0 ≤ v ∧ colMean cN X j = (v : EReal) := by
  obtain ⟨r, hr, rfl⟩ := hc
  intro j
  show ∃ v : ℝ, 0 ≤ v ∧ Ideal.div (0 + ∑ n : Fin N, X (ix2 n (n1 := C) (j 0))) (r : EReal) = (v : EReal)
  rw [Ideal.div_coe (ne_of_gt hr)]
  exact nn_mul (nn_add nn_zero (nn_sum _ _ fun n _ => hX _)) ⟨1 / r, (one_div_pos.mpr hr).le, rfl⟩

/-- The reciprocal root of a nonnegative real plus a positive real is a real: the argument is a positive real. -/
theorem real_rsqrt {x y : EReal} (hx : ∃ v : ℝ, 0 ≤ v ∧ x = (v : EReal)) (hy : ∃ e : ℝ, 0 < e ∧ y = (e : EReal)) :
    ∃ r : ℝ, Ideal.rsqrt (x + y) = (r : EReal) := by
  obtain ⟨v, hv, rfl⟩ := hx
  obtain ⟨e, he, rfl⟩ := hy
  have hpos : 0 < v + e := add_pos_of_nonneg_of_pos hv he
  rw [← EReal.coe_add, Ideal.rsqrt_coe, if_neg (not_lt.mpr hpos.le), if_neg hpos.ne']
  exact ⟨_, rfl⟩

theorem isFin_bnRelu {N C : ℕ} (eps : EReal) (he : ∃ e : ℝ, 0 < e ∧ eps = (e : EReal)) {X : Mat N C}
    {mu var gamma beta : Vc C} (hX : IsFin X) (hmu : IsFin mu)
    (hvar : ∀ j, ∃ v : ℝ, 0 ≤ v ∧ var j = (v : EReal)) (hg : IsFin gamma) (hb : IsFin beta) :
    IsFin (bnRelu eps X mu var gamma beta) :=
  fun i => real_max (real_add (real_mul (real_mul (real_sub (hX i) (hmu _)) (real_rsqrt (hvar _) he)) (hg _))
    (hb _)) real_zero

/-- THE HIDDEN FEATURES ARE REAL where every operand is real, the count is a positive real and eps is a positive
    real: the variance is a mean of squares of reals, a nonnegative real, so variance + eps is a positive real and
    its reciprocal root is real. -/
theorem isFin_hidden {N K C : ℕ} (cN eps : EReal) (hc : ∃ r : ℝ, 0 < r ∧ cN = (r : EReal))
    (he : ∃ e : ℝ, 0 < e ∧ eps = (e : EReal)) (A X : Mat N K) (Wl Wr : Mat K C) (b gamma beta : Vc C)
    (hA : IsFin A) (hX : IsFin X) (hWl : IsFin Wl) (hWr : IsFin Wr) (hb : IsFin b) (hg : IsFin gamma)
    (hbe : IsFin beta) : IsFin (hidden cN eps A X Wl Wr b gamma beta) :=
  have hL := isFin_layer1 hA hX hWl hWr hb
  have hmu := isFin_colMean cN hc hL
  isFin_bnRelu eps he hL hmu (colMean_nonneg cN hc (sqDev_nonneg hL hmu)) hg hbe

/-! ## Three float patterns as reals, and the reciprocal degree -/

/-- The pattern of `50000.0`: exponent field 142, fraction field 4411392, so (2^23 + 4411392) · 2^(142 - 127 - 23)
    = 12800000 / 256 = 50000. -/
theorem lit_50000 : ∃ r : ℝ, 0 < r ∧ Ideal.ofBits .f32 0x47435000#32 = (r : EReal) := by
  refine ⟨50000, by norm_num, ?_⟩
  simp [Ideal.ofBits, Ideal.ieee, -EReal.coe_mul]; norm_num

/-- The pattern nearest `1e-5`: exponent field 110, fraction field 2606508, so 10995116 · 2^(-40), a positive real. -/
theorem lit_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The pattern of `1.0`. -/
theorem lit_one : Ideal.ofBits .f32 0x3F800000#32 = ((1 : ℝ) : EReal) := by
  simp [Ideal.ofBits, Ideal.ieee, -EReal.coe_mul]; norm_num

/-- A reciprocal degree is real: each entry is zero or one over the greater of a real degree and one, and that
    greater value is a real at least one, so not zero. -/
theorem isFin_degInv {N : ℕ} (deg d : Vc N) (one zero : EReal) (h1 : one = ((1 : ℝ) : EReal)) (h0 : zero = 0)
    (hdeg : IsFin deg) (hd : ∀ i, d i = zero ∨ d i = Ideal.div one (max (deg i) one)) : IsFin d := by
  subst h1 h0
  intro i
  rcases hd i with h | h
  · exact ⟨0, by rw [h, EReal.coe_zero]⟩
  · obtain ⟨g, hg⟩ := hdeg i
    rw [h, hg, coe_max_real, Ideal.div_coe (ne_of_gt (lt_of_lt_of_le one_pos (le_max_right g 1)))]
    exact ⟨_, (EReal.coe_mul _ _).symm⟩

end Cert.Sage

end
-- ==== Proof.LibGcnHost.lean ====
/-
  The host's spellings of the graph convolution's stages, each as one function of its operands over the extended
  reals, with every dimension record and shape side condition an argument: an index vector laid as a column of start
  indices, raw or with negative entries wrapped by a constant; the degree as a count of ones added per destination,
  its reciprocal root where positive and zero elsewhere, and that this is always a nonnegative real; that the wrapped
  destination index of an edge landing on node v names v; the two arrangements of the aggregation as the host writes
  them; the mean over graphs. No program is mentioned.
-/
import proofs.«117873_j69002944578214_2_alg».proof.Proof.LibGcn
import proofs.«117873_j69002944578214_2_alg».proof.Proof.LibSageHost
import proofs.«117873_j69002944578214_2_alg».proof.Proof.LibSageAlgebra

noncomputable section

namespace Cert.Gcn

open Idealize.ShloMosaic Idealize.ShloMosaic.ValueIdx Cert.DenseLib Cert.RowsLib Cert.Sage Cert.GatherVecLib
  Cert.ScatterLib Cert.LayoutLib

variable {N C R K G : ℕ}

/-- A vector of 32-bit indices. -/
abbrev IVc (R : ℕ) : Type := IVec ⟨1, ![R]⟩ 32

/-! ## Index columns -/

/-- An index vector laid as a column of start indices. -/
def rawCol (hc : (⟨1, ![R]⟩ : Shape).BroadcastsInDim ⟨2, ![R, 1]⟩ (![0] : Fin 1 → Fin 2)) (v : IVc R) : ICol R :=
  broadcastInDim ⟨2, ![R, 1]⟩ ![0] hc v

/-- The same with every negative entry first increased by the constant n. -/
def wrapCol (hc : (⟨1, ![R]⟩ : Shape).BroadcastsInDim ⟨2, ![R, 1]⟩ (![0] : Fin 1 → Fin 2))
    (hz : (⟨0, ![]⟩ : Shape).BroadcastsInDim ⟨1, ![R]⟩ (![] : Fin 0 → Fin 1)) (n : BitVec 32) (v : IVc R) : ICol R :=
  broadcastInDim ⟨2, ![R, 1]⟩ ![0] hc
    (select (cmpi .slt v (broadcastInDim ⟨1, ![R]⟩ ![] hz (constantI ⟨0, ![]⟩ 32 0#32)))
      (addi v (broadcastInDim ⟨1, ![R]⟩ ![] hz (constantI ⟨0, ![]⟩ 32 n))) v)

theorem rawCol_apply (hc : (⟨1, ![R]⟩ : Shape).BroadcastsInDim ⟨2, ![R, 1]⟩ (![0] : Fin 1 → Fin 2)) (v : IVc R) (r : Fin R) :
    rawCol hc v (ix2 r (0 : Fin 1)) = v (ix1 r) := broadcastInDim_vecCol_apply hc v r 0

theorem wrapCol_apply (hc : (⟨1, ![R]⟩ : Shape).BroadcastsInDim ⟨2, ![R, 1]⟩ (![0] : Fin 1 → Fin 2))
    (hz : (⟨0, ![]⟩ : Shape).BroadcastsInDim ⟨1, ![R]⟩ (![] : Fin 0 → Fin 1)) (n : BitVec 32) (v : IVc R) (r : Fin R) :
    wrapCol hc hz n v (ix2 r (0 : Fin 1))
      = Scalar.select (IntOp.cmpi .slt (v (ix1 r)) 0#32) (IntOp.addi (v (ix1 r)) n) (v (ix1 r)) := by
  unfold wrapCol
  rw [broadcastInDim_vecCol_apply]
  show Scalar.select (IntOp.cmpi .slt (v (ix1 r)) (broadcastInDim ⟨1, ![R]⟩ ![] hz (constantI ⟨0, ![]⟩ 32 0#32) (ix1 r)))
      (IntOp.addi (v (ix1 r)) (broadcastInDim ⟨1, ![R]⟩ ![] hz (constantI ⟨0, ![]⟩ 32 n) (ix1 r))) (v (ix1 r)) = _
  rw [broadcastInDim_scalar_apply, broadcastInDim_scalar_apply]
  rfl

/-- An edge whose raw destination index, read as a signed integer, is the node u has a wrapped destination index
    that names u: the index is not negative, so the wrap leaves it, and it lies inside the table, so the clamp does. -/
theorem wrap_names (hN : 0 < N) (hc : (⟨1, ![R]⟩ : Shape).BroadcastsInDim ⟨2, ![R, 1]⟩ (![0] : Fin 1 → Fin 2))
    (hz : (⟨0, ![]⟩ : Shape).BroadcastsInDim ⟨1, ![R]⟩ (![] : Fin 0 → Fin 1)) (n : BitVec 32) (v : IVc R)
    (r : Fin R) (u : Fin N) (h : (rawCol hc v (ix2 r (0 : Fin 1))).toInt = (u.val : ℤ)) :
    entryOf N hN (wrapCol hc hz n v (ix2 r (0 : Fin 1))) = u := by
  rw [rawCol_apply] at h
  rw [wrapCol_apply]
  have hs : (v (ix1 r)).slt 0#32 = false := by
    rw [Bool.eq_false_iff, ne_eq, BitVec.slt_iff_toInt_lt, h]
    simp
  have hsel : Scalar.select (IntOp.cmpi .slt (v (ix1 r)) 0#32) (IntOp.addi (v (ix1 r)) n) (v (ix1 r)) = v (ix1 r) := by
    unfold Scalar.select IntOp.cmpi
    simp only [hs]
    rfl
  rw [hsel]
  refine Fin.ext ?_
  show min (v (ix1 r)).toInt.toNat (N - 1) = u.val
  rw [h]
  have := u.isLt
  simp only [Int.toNat_natCast]
  omega

/-! ## The degree and its reciprocal root -/

/-- The reciprocal root of the degree where the degree is positive, zero elsewhere. -/
def dinvOf (hbN : (⟨0, ![]⟩ : Shape).BroadcastsInDim ⟨1, ![N]⟩ (![] : Fin 0 → Fin 1)) (deg : Vc N) : Vc N :=
  select (cmpf (F := Ideal) .ogt (deg : FVec Ideal ⟨1, ![N]⟩ .f32)
      (broadcastInDim ⟨1, ![N]⟩ ![] hbN (constant (F := Ideal) ⟨0, ![]⟩ .f32 0x00000000#32)))
    (Host.rsqrt (F := Ideal) (φ := .f32) (deg : FVec Ideal ⟨1, ![N]⟩ .f32))
    (broadcastInDim ⟨1, ![N]⟩ ![] hbN (constant (F := Ideal) ⟨0, ![]⟩ .f32 0x00000000#32))

/-- A count of ones is a nonnegative real. -/
theorem countAt_one_nonneg (dst : ICol R) (i : (⟨1, ![N]⟩ : Shape).Idx) :
    ∃ r : ℝ, 0 ≤ r ∧ countAt (N := N) 0x3F800000#32 dst i = (r : EReal) :=
  nn_add nn_zero (nn_sum _ _ fun _ _ => ⟨1, zero_le_one, lit_one⟩)

/-- THE SCALE IS A NONNEGATIVE REAL: where the degree, a nonnegative real, is positive its reciprocal root is the
    real 1/√deg ≥ 0; elsewhere the scale is zero. -/
theorem dinvOf_nonneg (hbN : (⟨0, ![]⟩ : Shape).BroadcastsInDim ⟨1, ![N]⟩ (![] : Fin 0 → Fin 1)) (deg : Vc N)
    (hdeg : ∀ i, ∃ r : ℝ, 0 ≤ r ∧ deg i = (r : EReal)) (i : (⟨1, ![N]⟩ : Shape).Idx) :
    0 ≤ dinvOf hbN deg i ∧ dinvOf hbN deg i ≠ ⊤ := by
  obtain ⟨r, hr, e⟩ := hdeg i
  show 0 ≤ Scalar.select (Ideal.cmp .ogt (deg i)
        (broadcastInDim ⟨1, ![N]⟩ ![] hbN (constant (F := Ideal) ⟨0, ![]⟩ .f32 0x00000000#32) i))
      (Ideal.rsqrt (deg i)) (broadcastInDim ⟨1, ![N]⟩ ![] hbN (constant (F := Ideal) ⟨0, ![]⟩ .f32 0x00000000#32) i)
    ∧ Scalar.select (Ideal.cmp .ogt (deg i)
        (broadcastInDim ⟨1, ![N]⟩ ![] hbN (constant (F := Ideal) ⟨0, ![]⟩ .f32 0x00000000#32) i))
      (Ideal.rsqrt (deg i)) (broadcastInDim ⟨1, ![N]⟩ ![] hbN (constant (F := Ideal) ⟨0, ![]⟩ .f32 0x00000000#32) i) ≠ ⊤
  rw [broadcastInDim_scalar_apply]
  show 0 ≤ Scalar.select (Ideal.cmp .ogt (deg i) (Ideal.ofBits .f32 0x00000000#32)) (Ideal.rsqrt (deg i)) (Ideal.ofBits .f32 0x00000000#32)
    ∧ Scalar.select (Ideal.cmp .ogt (deg i) (Ideal.ofBits .f32 0x00000000#32)) (Ideal.rsqrt (deg i)) (Ideal.ofBits .f32 0x00000000#32) ≠ ⊤
  rw [Ideal.ofBits_zero_f32, e]
  unfold Scalar.select Ideal.cmp
  by_cases h0 : (0 : EReal) < (r : EReal)
  · have hr0 : 0 < r := EReal.coe_pos.1 h0
    simp only [h0, decide_true, BitVec.ofBool_true, if_true]
    rw [Ideal.rsqrt_coe, if_neg (not_lt.2 hr0.le), if_neg hr0.ne']
    exact ⟨EReal.coe_nonneg.2 (inv_nonneg.2 (Real.sqrt_nonneg r)), EReal.coe_ne_top _⟩
  · simp only [h0, decide_false, BitVec.ofBool_false]
    exact ⟨by simp, by simp⟩

/-! ## The aggregation as the host writes it -/

/-- Rows taken along the edges and added into a zero table: the carried rows summed per destination. -/
theorem hostCarry_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (Y : FVec Ideal ⟨2, ![N, C]⟩ .f32) (srcw dst : ICol R) :
    Host.scatterAdd (F := Ideal) sc
        (broadcastInDim ⟨2, ![N, C]⟩ ![] hb (constant (F := Ideal) ⟨0, ![]⟩ .f32 0x00000000#32)) dst (Host.gather g Y srcw)
      = segSum dst (takeRows hN srcw Y) := by
  rw [gather_eq_takeRows hN wfg g hg, scatter_eq_segSum wfs sc hsc]

/-- The first arrangement as the host writes it: the scale taken at both ends of every edge and multiplied, laid
    along the carried rows, the weighted rows added into a zero table. -/
theorem hostEdge_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfv : GatherDims.WF ⟨1, ![N]⟩ ⟨2, ![R, 1]⟩ ⟨1, ![R]⟩ [] [0] [] [0] [] 1 ![1])
    (gv : GatherDims ⟨1, ![N]⟩ ⟨2, ![R, 1]⟩ ⟨1, ![R]⟩) (hgv : gv = vecGatherDims N R wfv)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![R]⟩ : Shape).BroadcastsInDim ⟨2, ![R, 1]⟩ (![0] : Fin 1 → Fin 2))
    (h2 : (⟨2, ![R, 1]⟩ : Shape).BroadcastsInDim ⟨2, ![R, C]⟩ (![0, 1] : Fin 2 → Fin 2))
    (Y : FVec Ideal ⟨2, ![N, C]⟩ .f32) (srcw dst dstw : ICol R) (d : FVec Ideal ⟨1, ![N]⟩ .f32) :
    Host.scatterAdd (F := Ideal) sc
        (broadcastInDim ⟨2, ![N, C]⟩ ![] hb (constant (F := Ideal) ⟨0, ![]⟩ .f32 0x00000000#32)) dst
        (mulf (Host.gather g Y srcw)
          (broadcastInDim ⟨2, ![R, C]⟩ ![0, 1] h2 (broadcastInDim ⟨2, ![R, 1]⟩ ![0] h1
            (mulf (Host.gather gv d srcw) (Host.gather gv d dstw)))))
      = aggEdge hN srcw dst dstw d Y := by
  subst hgv
  rw [gather_eq_takeRows hN wfg g hg, scatter_eq_segSum wfs sc hsc]
  unfold aggEdge
  refine congrArg (segSum dst) (funext fun i => ?_)
  obtain ⟨e, j, rfl⟩ : ∃ (e : Fin R) (j : Fin C), i = ix2 e j := ⟨i 0, i 1, eq_ix2 i⟩
  show takeRows hN srcw Y (ix2 e j)
      * broadcastInDim ⟨2, ![R, C]⟩ ![0, 1] h2 (broadcastInDim ⟨2, ![R, 1]⟩ ![0] h1
          (mulf (Host.gather (vecGatherDims N R wfv) d srcw) (Host.gather (vecGatherDims N R wfv) d dstw))) (ix2 e j)
    = takeRows hN srcw Y (ix2 e j) * edgeNorm hN srcw dstw d (ix1 e)
  rw [broadcastInDim_col_apply, broadcastInDim_vecCol_apply]
  show _ * (Host.gather (vecGatherDims N R wfv) d srcw (ix1 e) * Host.gather (vecGatherDims N R wfv) d dstw (ix1 e)) = _
  rw [gather_vec_apply hN wfv, gather_vec_apply hN wfv]
  rfl

/-- Rows added per graph into a zero table and divided by the graph counts laid along the rows: the mean over graphs. -/
theorem hostPool_eq
    (wfs : ScatterDims.WF ⟨2, ![G, C]⟩ ⟨2, ![N, 1]⟩ ⟨2, ![N, C]⟩ [1] [0] [0] 1)
    (sc : ScatterDims ⟨2, ![G, C]⟩ ⟨2, ![N, 1]⟩ ⟨2, ![N, C]⟩) (hsc : sc = rowScatterDims G C N wfs)
    (hb : (⟨0, ![]⟩ : Shape).BroadcastsInDim ⟨2, ![G, C]⟩ (![] : Fin 0 → Fin 2))
    (h1 : (⟨1, ![G]⟩ : Shape).BroadcastsInDim ⟨2, ![G, 1]⟩ (![0] : Fin 1 → Fin 2))
    (h2 : (⟨2, ![G, 1]⟩ : Shape).BroadcastsInDim ⟨2, ![G, C]⟩ (![0, 1] : Fin 2 → Fin 2))
    (batch : ICol N) (cnt : FVec Ideal ⟨1, ![G]⟩ .f32) (H : FVec Ideal ⟨2, ![N, C]⟩ .f32) :
    Host.divf (F := Ideal)
        (Host.scatterAdd (F := Ideal) sc
          (broadcastInDim ⟨2, ![G, C]⟩ ![] hb (constant (F := Ideal) ⟨0, ![]⟩ .f32 0x00000000#32)) batch H)
        (broadcastInDim ⟨2, ![G, C]⟩ ![0, 1] h2 (broadcastInDim ⟨2, ![G, 1]⟩ ![0] h1 cnt))
      = pool batch cnt H := by
  rw [scatter_eq_segSum wfs sc hsc]
  funext i
  obtain ⟨p, q, rfl⟩ : ∃ (p : Fin G) (q : Fin C), i = ix2 p q := ⟨i 0, i 1, eq_ix2 i⟩
  show Ideal.div (segSum (N := G) batch H (ix2 p q))
      (broadcastInDim ⟨2, ![G, C]⟩ ![0, 1] h2 (broadcastInDim ⟨2, ![G, 1]⟩ ![0] h1 cnt) (ix2 p q))
    = Ideal.div (segSum (N := G) batch H (ix2 p q)) (cnt (ix1 p))
  rw [broadcastInDim_col_apply, broadcastInDim_vecCol_apply]

/-! ## The dense layers as the host writes them -/

/-- Product, bias laid along the rows, cut at zero. -/
theorem hostLayer0_eq (D : DotDims ⟨2, ![N, K]⟩ ⟨2, ![K, C]⟩ ⟨2, ![N, C]⟩) (hD : D = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hz : (⟨0, ![]⟩ : Shape).BroadcastsInDim ⟨2, ![N, C]⟩ (![] : Fin 0 → Fin 2))
    (X : FVec Ideal ⟨2, ![N, K]⟩ .f32) (W : FVec Ideal ⟨2, ![K, C]⟩ .f32) (b : FVec Ideal ⟨1, ![C]⟩ .f32) :
    maximumf (addf (Host.dotGeneral D none X W)
        (broadcastInDim ⟨2, ![N, C]⟩ ![0, 1] h2 (broadcastInDim ⟨2, ![1, C]⟩ ![1] h1 b)))
      (broadcastInDim ⟨2, ![N, C]⟩ ![] hz (constant (F := Ideal) ⟨0, ![]⟩ .f32 0x00000000#32))
      = layer0 X W b := by
  rw [maximumf_bcast_zero, dotGeneral_eq_mm D hD, broadcastInDim_eq_rows]
  rfl

/-- Bias laid along the rows of an aggregate, cut at zero. -/
theorem hostBiasRelu_eq
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (hz : (⟨0, ![]⟩ : Shape).BroadcastsInDim ⟨2, ![N, C]⟩ (![] : Fin 0 → Fin 2))
    (A : FVec Ideal ⟨2, ![N, C]⟩ .f32) (b : FVec Ideal ⟨1, ![C]⟩ .f32) :
    maximumf (addf A (broadcastInDim ⟨2, ![N, C]⟩ ![0, 1] h2 (broadcastInDim ⟨2, ![1, C]⟩ ![1] h1 b)))
      (broadcastInDim ⟨2, ![N, C]⟩ ![] hz (constant (F := Ideal) ⟨0, ![]⟩ .f32 0x00000000#32))
      = relu (plus A (vrows b)) := by
  rw [maximumf_bcast_zero, broadcastInDim_eq_rows]
  rfl

/-- Product plus the bias laid along the rows. -/
theorem hostHead_eq (D : DotDims ⟨2, ![G, K]⟩ ⟨2, ![K, C]⟩ ⟨2, ![G, C]⟩) (hD : D = DotDims.plain G K C)
    (h1 : (⟨1, ![C]⟩ : Shape).BroadcastsInDim ⟨2, ![1, C]⟩ (![1] : Fin 1 → Fin 2))
    (h2 : (⟨2, ![1, C]⟩ : Shape).BroadcastsInDim ⟨2, ![G, C]⟩ (![0, 1] : Fin 2 → Fin 2))
    (P : FVec Ideal ⟨2, ![G, K]⟩ .f32) (W : FVec Ideal ⟨2, ![K, C]⟩ .f32) (b : FVec Ideal ⟨1, ![C]⟩ .f32) :
    addf (Host.dotGeneral D none P W)
        (broadcastInDim ⟨2, ![G, C]⟩ ![0, 1] h2 (broadcastInDim ⟨2, ![1, C]⟩ ![1] h1 b))
      = head P W b := by
  rw [dotGeneral_eq_mm D hD, broadcastInDim_eq_rows]
  rfl

end Cert.Gcn

end
-- ==== Proof.LibSgcPropHost.lean ====
/-
  One propagation step as the host writes it: the rows gathered at the (wrapped) source column, multiplied by the
  edge weights laid first as a column and then along the rows, and added into a zero table at the destination column.
-/
import proofs.«117873_j69002944578214_2_alg».proof.Proof.LibSgcSpec
import proofs.«117873_j69002944578214_2_alg».proof.Proof.LibGcnHost

noncomputable section

namespace Cert.Sgc

open Idealize.ShloMosaic Idealize.ShloMosaic.ValueIdx Cert.DenseLib Cert.RowsLib Cert.ScatterLib Cert.LayoutLib Cert.Sage

variable {N C R : ℕ}

/-- Gather, weight per edge, scatter-add into zeros: one propagation step. -/
theorem hostProp_eq (hN : 0 < N)
    (wfg : GatherDims.WF ⟨2, ![N, C]⟩ ⟨2, ![R, 1]⟩ ⟨2, ![R, C]⟩ [1] [0] [] [0] [] 1 ![1, C])
    (g : GatherDims ⟨2, ![N, C]⟩ ⟨2, ![R, 1]⟩ ⟨2, ![R, C]⟩) (hg : g = rowGatherDims N C R wfg)
    (wfs : ScatterDims.WF ⟨2, ![N, C]⟩ ⟨2, ![R, 1]⟩ ⟨2, ![R, C]⟩ [1] [0] [0] 1)
    (sc : ScatterDims ⟨2, ![N, C]⟩ ⟨2, ![R, 1]⟩ ⟨2, ![R, C]⟩) (hsc : sc = rowScatterDims N C R wfs)
    (hb : (⟨0, ![]⟩ : Shape).BroadcastsInDim ⟨2, ![N, C]⟩ (![] : Fin 0 → Fin 2))
    (h1 : (⟨1, ![R]⟩ : Shape).BroadcastsInDim ⟨2, ![R, 1]⟩ (![0] : Fin 1 → Fin 2))
    (h2 : (⟨2, ![R, 1]⟩ : Shape).BroadcastsInDim ⟨2, ![R, C]⟩ (![0, 1] : Fin 2 → Fin 2))
    (Y : FVec Ideal ⟨2, ![N, C]⟩ .f32) (srcw dst : ICol R) (ew : FVec Ideal ⟨1, ![R]⟩ .f32) :
    Host.scatterAdd (F := Ideal) sc
        (broadcastInDim ⟨2, ![N, C]⟩ ![] hb (constant (F := Ideal) ⟨0, ![]⟩ .f32 0x00000000#32)) dst
        (mulf (Host.gather g Y srcw)
          (broadcastInDim ⟨2, ![R, C]⟩ ![0, 1] h2 (broadcastInDim ⟨2, ![R, 1]⟩ ![0] h1 ew)))
      = prop hN srcw dst ew Y := by
  rw [gather_eq_takeRows hN wfg g hg, scatter_eq_segSum wfs sc hsc]
  unfold prop
  refine congrArg (segSum dst) (funext fun i => ?_)
  obtain ⟨e, j, rfl⟩ : ∃ (e : Fin R) (j : Fin C), i = ix2 e j := ⟨i 0, i 1, eq_ix2 i⟩
  show takeRows hN srcw Y (ix2 e j)
      * broadcastInDim ⟨2, ![R, C]⟩ ![0, 1] h2 (broadcastInDim ⟨2, ![R, 1]⟩ ![0] h1 ew) (ix2 e j)
    = takeRows hN srcw Y (ix2 e j) * ew (ix1 e)
  rw [broadcastInDim_col_apply, broadcastInDim_vecCol_apply]

end Cert.Sgc

end
-- ==== Proof.KerPre.lean ====
/-
  A block of `P · W + b` and its column sums, as the vector unit spells them.

  The product of a block of rows with the whole weight, accumulated from zero, plus the one-row bias laid down the
  block, is `P · W + b` of the block; an entry of it depends on its own row of `P` only; and the sum down the columns
  of an `[a, b]` block, kept as a `[1, 1, b]` block, is at `(0, 0, q)` the sum of column `q`.
-/
import proofs.«117873_j69002944578214_2_alg».proof.Proof.LibSgcSpec
import Idealize.ShloMosaic.Lib.Pipeline.Value
import Idealize.ShloMosaic.Lib.ValueLayout

noncomputable section

namespace Cert.KernelIdeal.RegionValue

open Idealize.ShloMosaic Idealize.ShloMosaic.ValueIdx
open Cert.DenseLib Cert.Sage Cert.Sgc

theorem hz2 : (![0, 0] : Fin 2 → Nat) = fun _ => 0 := funext fun a => by fin_cases a <;> rfl
theorem hz3 : (![0, 0, 0] : Fin 3 → Nat) = fun _ => 0 := funext fun a => by fin_cases a <;> rfl

/-- The product accumulated from the zero splat plus the one-row bias broadcast down the rows is `P · W + b`. -/
theorem affine_block {M K N : ℕ} (D : DotDims ⟨2, ![M, K]⟩ ⟨2, ![K, N]⟩ ⟨2, ![M, N]⟩) (hD : D = DotDims.plain M K N)
    (x0 : FVec Ideal ⟨2, ![M, K]⟩ .bf16) (x1 : FVec Ideal ⟨2, ![K, N]⟩ .bf16) (x2 : FVec Ideal ⟨2, ![1, N]⟩ .f32)
    (h : (⟨2, ![1, N]⟩ : Shape).Broadcasts ⟨2, ![M, N]⟩) :
    addf (matmul D none x0 x1 (constant ⟨2, ![M, N]⟩ .f32 0x00000000#32)) (broadcastTo ⟨2, ![M, N]⟩ x2 h)
      = pre x0 x1 (rowVec x2) :=
  (congr (congrArg addf (matmul_eq_mm D hD x0 x1)) (broadcastTo_eq_rows (M := M) x2 h)).trans rfl

/-- An entry of `P · W + b` is determined by its row of `P`: if row `j 0` of `P'` is row `i 0` of `P` and the columns
    `j 1`, `i 1` are the same, the two entries are equal. -/
theorem pre_eq_of_row {M M' K C : ℕ} (P' : Mat M' K) (P : Mat M K) (W : Mat K C) (b : Vc C)
    (j : (⟨2, ![M', C]⟩ : Shape).Idx) (i : (⟨2, ![M, C]⟩ : Shape).Idx) (hq : (j 1).val = (i 1).val)
    (hx : ∀ k : Fin K, P' (ix2 (n0 := M') (j 0) k) = P (ix2 (n0 := M) (i 0) k)) : pre P' W b j = pre P W b i :=
  Cert.RowBlocks.biased_eq_of_entry (mm P' W) (fun c => b (ix1 c)) (mm P W) (fun c => b (ix1 c)) j i rfl hq
    (Cert.RowBlocks.mm_eq_of_row P' W P W j i rfl hq hx)

/-- The source index over column `q` with coordinate `r` on the summed axis is `(r, q)`. -/
theorem lift_col {a b : ℕ} (h : (⟨2, ![a, b]⟩ : Shape).Reduces [(0 : Fin 2)] ⟨1, ![b]⟩) (q : Fin b) (r : Fin a) :
    h.lift (ix1 q) r = ix2 r q :=
  funext fun c => Fin.ext (by match c with | ⟨0, _⟩ => rfl | ⟨1, _⟩ => rfl)

/-- A sum down the columns of an `[a, b]` block, recast as a `[1, 1, b]` block: the column's sum. -/
theorem colsum_apply {a b : ℕ} (Z : FVec Ideal ⟨2, ![a, b]⟩ .f32) (acc : BitVec 32)
    (h : (⟨2, ![a, b]⟩ : Shape).Reduces [(0 : Fin 2)] ⟨1, ![b]⟩) (hφ : FKind.Formats FTy.f32)
    (hacc : acc = FKind.add.neutral FTy.f32 hφ) (c1 : (⟨1, ![b]⟩ : Shape).ShapeCasts ⟨2, ![1, b]⟩)
    (c2 : (⟨2, ![1, b]⟩ : Shape).ShapeCasts ⟨3, ![1, 1, b]⟩) (u v : Fin 1) (q : Fin b) :
    shapeCast ⟨3, ![1, 1, b]⟩ (shapeCast ⟨2, ![1, b]⟩ (multiReduction .add [(0 : Fin 2)] ⟨1, ![b]⟩ Z acc h hφ hacc) c1) c2 (ix3 u v q)
      = ∑ r : Fin a, Z (ix2 r q) := by
  rw [shapeCast_ab_1ab_apply, shapeCast_a_1a_apply]
  refine (Ideal.multiReduction_add_single Z acc h hφ hacc (ix1 q)).trans ?_
  exact Finset.sum_congr rfl fun r _ => congrArg Z (lift_col h q r)

end Cert.KernelIdeal.RegionValue

end
-- ==== Proof.KerStats.lean ====
/-
  The statistics kernel's two output arrays after a launch, as whole-array functions of the arrays the launch finds.

  The grid has 20 points.  Point `t` reads rows `5000·t … 5000·t + 4999` of the `[100000, 128]` array `P`, the whole
  weight `W` and the whole one-row bias `b`; it forms `Z = P · W + b` on its block, sums every column of `Z` and of
  `Z²` over the block's 5000 rows, and writes the two sums as block `(t, 0, ·)` of two `[20, 1, 128]` arrays.  A row of
  `P · W + b` depends on that row of `P` only, so the block's `Z` is rows `5000·t …` of the whole array's `Z`, and the two
  output arrays end as the tile sums of `Z` and of `Z²` over 20 tiles of 5000 rows.  The kernel is launched twice with
  the same text; the per-block part is written once and the blocks-to-array part once per launch.
-/
import proofs.«117873_j69002944578214_2_alg».proof.Proof.Gen.KernelIdeal.Frame
import proofs.«117873_j69002944578214_2_alg».proof.Proof.KerPre

noncomputable section

namespace Cert.KernelIdeal.RegionValue

open Idealize.ShloMosaic Idealize.ShloMosaic.ValueIdx Idealize.ShloMosaic.TcCoe
open Cert.KernelIdeal Cert.KernelIdeal.Gen
open Cert.DenseLib Cert.Sage Cert.Sgc

/-! ## One block -/

theorem stats_dot_plain : dot_S5000x128_S128x128_S5000x128_1_0_0_1_n_n = DotDims.plain 5000 128 128 := rfl

/-- The block's `Z`: the casts to the narrower format are the identity on the extended reals, the product starts from
    zero, the bias row is laid down the block. -/
theorem stats_pay1_eq (x0 : Vec Ideal S5000x128 .f32) (x1 : Vec Ideal S128x128 .f32) (x2 : Vec Ideal S1x128 .f32) :
    k0_pay1 (F := Ideal) x0 x1 x2 = pre x0 x1 (rowVec x2) := by
  unfold k0_pay1
  dsimp only
  simp only [shapeCast_self]
  exact affine_block dot_S5000x128_S128x128_S5000x128_1_0_0_1_n_n stats_dot_plain x0 x1 x2 broadcasts_S1x128_S5000x128

/-- The first stored value at `(0, 0, q)`: column `q` of the block's `Z` summed over its rows. -/
theorem stats_pay2_apply (x0 : Vec Ideal S5000x128 .f32) (x1 : Vec Ideal S128x128 .f32) (x2 : Vec Ideal S1x128 .f32)
    (u v : Fin 1) (q : Fin 128) :
    k0_pay2 (F := Ideal) x0 x1 x2 (ix3 u v q) = ∑ r : Fin 5000, pre x0 x1 (rowVec x2) (ix2 r q) := by
  unfold k0_pay2
  dsimp only
  rw [stats_pay1_eq]
  exact colsum_apply _ _ _ _ _ _ _ u v q

/-- The second stored value at `(0, 0, q)`: column `q` of the block's `Z²` summed over its rows. -/
theorem stats_pay3_apply (x0 : Vec Ideal S5000x128 .f32) (x1 : Vec Ideal S128x128 .f32) (x2 : Vec Ideal S1x128 .f32)
    (u v : Fin 1) (q : Fin 128) :
    k0_pay3 (F := Ideal) x0 x1 x2 (ix3 u v q) = ∑ r : Fin 5000, sq (pre x0 x1 (rowVec x2)) (ix2 r q) := by
  unfold k0_pay3
  dsimp only
  rw [stats_pay1_eq]
  exact colsum_apply _ _ _ _ _ _ _ u v q

/-- The one store into each output buffer is through the whole buffer, and the loads are of the whole input buffers:
    what the body leaves is the stored value of the blocks. -/
theorem stats_out3_eq (x0 : Vec Ideal S5000x128 .f32) (x1 : Vec Ideal S128x128 .f32) (x2 : Vec Ideal S1x128 .f32) :
    out0_3 (F := Ideal) x0 x1 x2 = k0_pay2 x0 x1 x2 := by
  unfold out0_3
  rw [View.canon_unit_zero hz3]
  simp only [View.ld_unit_zero (S := S5000x128) hz2, View.ld_unit_zero (S := S128x128) hz2, View.ld_unit_zero (S := S1x128) hz2]

theorem stats_out4_eq (x0 : Vec Ideal S5000x128 .f32) (x1 : Vec Ideal S128x128 .f32) (x2 : Vec Ideal S1x128 .f32) :
    out0_4 (F := Ideal) x0 x1 x2 = k0_pay3 x0 x1 x2 := by
  unfold out0_4
  rw [View.canon_unit_zero hz3]
  simp only [View.ld_unit_zero (S := S5000x128) hz2, View.ld_unit_zero (S := S128x128) hz2, View.ld_unit_zero (S := S1x128) hz2]

/-- The second launch runs the same text: its buffers end as the same functions of its blocks. -/
theorem stats_out3_eq' (x0 : Vec Ideal S5000x128 .f32) (x1 : Vec Ideal S128x128 .f32) (x2 : Vec Ideal S1x128 .f32) :
    out2_3 (F := Ideal) x0 x1 x2 = k0_pay2 x0 x1 x2 := stats_out3_eq x0 x1 x2

theorem stats_out4_eq' (x0 : Vec Ideal S5000x128 .f32) (x1 : Vec Ideal S128x128 .f32) (x2 : Vec Ideal S1x128 .f32) :
    out2_4 (F := Ideal) x0 x1 x2 = k0_pay3 x0 x1 x2 := stats_out4_eq x0 x1 x2

/-! ## A block's sums are the tile's sums -/

/-- The column sums of block `t` — rows `5000·t …` of the array, the whole weight and bias — are entry `(t, 0, ·)` of the
    array's tile sums. -/
theorem block_sum (A0 : Mat 100000 128) (A1 : Mat 128 128) (A2 : Mat 1 128)
    (x0 : Vec Ideal S5000x128 .f32) (x1 : Vec Ideal S128x128 .f32) (x2 : Vec Ideal S1x128 .f32) (t : Fin 20)
    (h0 : ∀ (r : Fin 5000) (k : Fin 128), x0 (ix2 r k) = A0 (ix2 (tileRow (B := 20) (T := 5000) rfl t r) k))
    (h1 : x1 = A1) (h2 : x2 = A2) (j : S1x1x128.Idx) (i : S20x1x128.Idx)
    (hi0 : (i 0).val = t.val) (hi2 : (i 2).val = (j 2).val) :
    k0_pay2 (F := Ideal) x0 x1 x2 j = tileSums 20 5000 rfl (pre A0 A1 (rowVec A2)) i := by
  subst h1 h2
  obtain ⟨u, v, q, rfl⟩ : ∃ (u v : Fin 1) (q : Fin 128), j = ix3 u v q := ⟨j 0, j 1, j 2, eq_ix3 j⟩
  obtain ⟨t', w, q', rfl⟩ : ∃ (t' : Fin 20) (w : Fin 1) (q' : Fin 128), i = ix3 t' w q' := ⟨i 0, i 1, i 2, eq_ix3 i⟩
  obtain rfl : t' = t := Fin.ext hi0
  obtain rfl : q' = q := Fin.ext hi2
  rw [stats_pay2_apply]
  show _ = ∑ r : Fin 5000, pre A0 x1 (rowVec x2) (ix2 (tileRow (B := 20) (T := 5000) rfl t' r) q')
  exact Finset.sum_congr rfl fun r _ => pre_eq_of_row x0 A0 x1 (rowVec x2) (ix2 r q') (ix2 _ q') rfl fun k => h0 r k

/-- The same for the squares. -/
theorem block_sumsq (A0 : Mat 100000 128) (A1 : Mat 128 128) (A2 : Mat 1 128)
    (x0 : Vec Ideal S5000x128 .f32) (x1 : Vec Ideal S128x128 .f32) (x2 : Vec Ideal S1x128 .f32) (t : Fin 20)
    (h0 : ∀ (r : Fin 5000) (k : Fin 128), x0 (ix2 r k) = A0 (ix2 (tileRow (B := 20) (T := 5000) rfl t r) k))
    (h1 : x1 = A1) (h2 : x2 = A2) (j : S1x1x128.Idx) (i : S20x1x128.Idx)
    (hi0 : (i 0).val = t.val) (hi2 : (i 2).val = (j 2).val) :
    k0_pay3 (F := Ideal) x0 x1 x2 j = tileSums 20 5000 rfl (sq (pre A0 A1 (rowVec A2))) i := by
  subst h1 h2
  obtain ⟨u, v, q, rfl⟩ : ∃ (u v : Fin 1) (q : Fin 128), j = ix3 u v q := ⟨j 0, j 1, j 2, eq_ix3 j⟩
  obtain ⟨t', w, q', rfl⟩ : ∃ (t' : Fin 20) (w : Fin 1) (q' : Fin 128), i = ix3 t' w q' := ⟨i 0, i 1, i 2, eq_ix3 i⟩
  obtain rfl : t' = t := Fin.ext hi0
  obtain rfl : q' = q := Fin.ext hi2
  rw [stats_pay3_apply]
  show _ = ∑ r : Fin 5000, sq (pre A0 x1 (rowVec x2)) (ix2 (tileRow (B := 20) (T := 5000) rfl t' r) q')
  refine Finset.sum_congr rfl fun r _ => ?_
  have e := pre_eq_of_row x0 A0 x1 (rowVec x2) (ix2 r q') (ix2 (tileRow (B := 20) (T := 5000) rfl t' r) q') rfl fun k => h0 r k
  show pre x0 x1 (rowVec x2) (ix2 r q') * pre x0 x1 (rowVec x2) (ix2 r q') = pre A0 x1 (rowVec x2) (ix2 _ q') * pre A0 x1 (rowVec x2) (ix2 _ q')
  rw [e]

/-! ## The first launch: from blocks to the arrays -/

section Region0

variable (V : (c : Dev nD) → (b : Ref sig .tc) → Buf (Elt Ideal) ((c : Thread nD τ).loc b))

/-- The windows' block indices over the grid: the row block and both output blocks move with the point, the weight and
    the bias stay. -/
theorem grid_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- A grid point as a tile number. -/
def tile0 (t : Fin cfg0.N) : Fin 20 := ⟨t.val, lt_of_lt_of_eq t.isLt N_0⟩

/-- Row `r` of the row block at point `t` is row `5000·t + r` of the array. -/
theorem iblk0_0_apply (c : Dev nD) (t : Fin cfg0.N) (r : Fin 5000) (k : Fin 128) :
    (iblk0 V c 0 t : Vec Ideal S5000x128 .f32) (ix2 r k)
      = (V c (Pipeline.arrRef spec0 0) : Mat 100000 128) (ix2 (tileRow (B := 20) (T := 5000) rfl (tile0 t) r) k) := by
  obtain ⟨e0, e1, -⟩ := grid_idx0 t
  unfold iblk0
  rw [View.read_apply]
  refine congrArg (V c (Pipeline.arrRef spec0 0) : Mat 100000 128) ?_
  funext a
  apply Fin.ext
  match a with
  | ⟨0, _⟩ => show win0_0.index t (0 : Fin 2) * 5000 + 1 * r.val = t.val * 5000 + r.val; rw [e0]; omega
  | ⟨1, _⟩ => show win0_0.index t (1 : Fin 2) * 128 + 1 * k.val = k.val; rw [e1]; omega

/-- The weight's block is the whole weight at every point. -/
theorem iblk0_1_eq (c : Dev nD) (t : Fin cfg0.N) :
    (iblk0 V c 1 t : Vec Ideal S128x128 .f32) = (V c (Pipeline.arrRef spec0 1) : Mat 128 128) := by
  obtain ⟨-, -, e0, e1, -⟩ := grid_idx0 t
  funext y
  unfold iblk0
  rw [View.read_apply]
  refine congrArg (V c (Pipeline.arrRef spec0 1) : Mat 128 128) ?_
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's block is the whole one-row bias at every point. -/
theorem iblk0_2_eq (c : Dev nD) (t : Fin cfg0.N) :
    (iblk0 V c 2 t : Vec Ideal S1x128 .f32) = (V c (Pipeline.arrRef spec0 2) : Mat 1 128) := by
  obtain ⟨-, -, -, -, e0, e1, -⟩ := grid_idx0 t
  funext y
  unfold iblk0
  rw [View.read_apply]
  refine congrArg (V c (Pipeline.arrRef spec0 2) : Mat 1 128) ?_
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- What point `t` writes back to the sums' array is block `t` of the tile sums. -/
theorem flushed0_3 (c : Dev nD) (t : Fin cfg0.N) :
    (dat0 (F := Ideal) V c).flushed 3 t = ((cfg0.win 3).blk t).view.read (Elt Ideal)
      (tileSums 20 5000 rfl (pre (V c (Pipeline.arrRef spec0 0)) (V c (Pipeline.arrRef spec0 1)) (rowVec (V c (Pipeline.arrRef spec0 2))))) := by
  show (cfg0.win 3).cut (grid0.coords t) ((dat0 V c).after 3 t) = _
  rw [after0_3, stats_out3_eq]
  obtain ⟨-, -, -, -, -, -, e0, e1, e2, -⟩ := grid_idx0 t
  funext j
  rw [View.read_apply]
  refine block_sum _ _ _ _ _ _ (tile0 t) (iblk0_0_apply V c t) (iblk0_1_eq V c t) (iblk0_2_eq V c t) j _ ?_ ?_
  · show win0_3.index t (0 : Fin 3) * 1 + 1 * (j 0).val = t.val
    have hj : (j 0).val < 1 := (j 0).isLt
    rw [e0]; omega
  · show win0_3.index t (2 : Fin 3) * 128 + 1 * (j 2).val = (j 2).val
    rw [e2]; omega

/-- What point `t` writes back to the squares' array is block `t` of the tile sums of the squares. -/
theorem flushed0_4 (c : Dev nD) (t : Fin cfg0.N) :
    (dat0 (F := Ideal) V c).flushed 4 t = ((cfg0.win 4).blk t).view.read (Elt Ideal)
      (tileSums 20 5000 rfl (sq (pre (V c (Pipeline.arrRef spec0 0)) (V c (Pipeline.arrRef spec0 1)) (rowVec (V c (Pipeline.arrRef spec0 2)))))) := by
  show (cfg0.win 4).cut (grid0.coords t) ((dat0 V c).after 4 t) = _
  rw [after0_4, stats_out4_eq]
  obtain ⟨-, -, -, -, -, -, -, -, -, e0, e1, e2⟩ := grid_idx0 t
  funext j
  rw [View.read_apply]
  refine block_sumsq _ _ _ _ _ _ (tile0 t) (iblk0_0_apply V c t) (iblk0_1_eq V c t) (iblk0_2_eq V c t) j _ ?_ ?_
  · show win0_4.index t (0 : Fin 3) * 1 + 1 * (j 0).val = t.val
    have hj : (j 0).val < 1 := (j 0).isLt
    rw [e0]; omega
  · show win0_4.index t (2 : Fin 3) * 128 + 1 * (j 2).val = (j 2).val
    rw [e2]; omega

/-- Entry `(t, 0, q)` of the array lies in point `t`'s block. -/
theorem mem_blk0_3 (t : Fin cfg0.N) (i : S20x1x128.Idx) (ht : (i 0).val = t.val) : i ∈ ((cfg0.win 3).blk t).view.set := by
  have h1 : (i 1).val < 1 := (i 1).isLt
  have h2 : (i 2).val < 128 := (i 2).isLt
  obtain ⟨-, -, -, -, -, -, e0, e1, e2, -⟩ := grid_idx0 t
  show i ∈ ((View.whole main_v19_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 128 ≤ (i 2).val ∧ (i 2).val < win0_3.index t (2 : Fin 3) * 128 + 128; rw [e2]; omega

theorem covered0_3 (i : S20x1x128.Idx) : ∃ t : Fin cfg0.N, (cfg0.win 3).flush t = true ∧ i ∈ ((cfg0.win 3).blk t).view.set :=
  ⟨⟨(i 0).val, lt_of_lt_of_eq (i 0).isLt N_0.symm⟩, flush0_3 _, mem_blk0_3 _ i rfl⟩

/-- Entry `(t, 0, q)` of the array lies in point `t`'s block. -/
theorem mem_blk0_4 (t : Fin cfg0.N) (i : S20x1x128.Idx) (ht : (i 0).val = t.val) : i ∈ ((cfg0.win 4).blk t).view.set := by
  have h1 : (i 1).val < 1 := (i 1).isLt
  have h2 : (i 2).val < 128 := (i 2).isLt
  obtain ⟨-, -, -, -, -, -, -, -, -, e0, e1, e2⟩ := grid_idx0 t
  show i ∈ ((View.whole main_v19_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 1 ≤ (i 1).val ∧ (i 1).val < win0_4.index t (1 : Fin 3) * 1 + 1; rw [e1]; omega
  | ⟨2, _⟩ => show win0_4.index t (2 : Fin 3) * 128 ≤ (i 2).val ∧ (i 2).val < win0_4.index t (2 : Fin 3) * 128 + 128; rw [e2]; omega

theorem covered0_4 (i : S20x1x128.Idx) : ∃ t : Fin cfg0.N, (cfg0.win 4).flush t = true ∧ i ∈ ((cfg0.win 4).blk t).view.set :=
  ⟨⟨(i 0).val, lt_of_lt_of_eq (i 0).isLt N_0.symm⟩, flush0_4 _, mem_blk0_4 _ i rfl⟩

/-- After the first launch the sums' array holds the tile sums of `P · W + b`. -/
theorem stats0_sum (c : Dev nD) : (Gen.dat0 (F := Ideal) V c).arrAt 3 cfg0.N
    = Cert.Sgc.tileSums 20 5000 rfl (Cert.Sgc.pre (V c (Pipeline.arrRef spec0 0)) (V c (Pipeline.arrRef spec0 1)) (Cert.Sage.rowVec (V c (Pipeline.arrRef spec0 2)))) :=
  (dat0 (F := Ideal) V c).arrAt_eq_of_cover 3 _ (fun t _ => flushed0_3 V c t) covered0_3

/-- After the first launch the squares' array holds the tile sums of the squares of `P · W + b`. -/
theorem stats0_sumsq (c : Dev nD) : (Gen.dat0 (F := Ideal) V c).arrAt 4 cfg0.N
    = Cert.Sgc.tileSums 20 5000 rfl (Cert.Sgc.sq (Cert.Sgc.pre (V c (Pipeline.arrRef spec0 0)) (V c (Pipeline.arrRef spec0 1)) (Cert.Sage.rowVec (V c (Pipeline.arrRef spec0 2))))) :=
  (dat0 (F := Ideal) V c).arrAt_eq_of_cover 4 _ (fun t _ => flushed0_4 V c t) covered0_4

end Region0

/-! ## The second launch: from blocks to the arrays -/

section Region2

variable (V : (c : Dev nD) → (b : Ref sig .tc) → Buf (Elt Ideal) ((c : Thread nD τ).loc b))

/-- The windows' block indices over the grid: the row block and both output blocks move with the point, the weight and
    the bias stay. -/
theorem grid_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0
    ∧ win2_4.index t (0 : Fin 3) = t.val ∧ win2_4.index t (1 : Fin 3) = 0 ∧ win2_4.index t (2 : Fin 3) = 0 :=
  (by decide +kernel : ∀ t : Fin grid2.N, _)

/-- A grid point as a tile number. -/
def tile2 (t : Fin cfg2.N) : Fin 20 := ⟨t.val, lt_of_lt_of_eq t.isLt N_2⟩

/-- Row `r` of the row block at point `t` is row `5000·t + r` of the array. -/
theorem iblk2_0_apply (c : Dev nD) (t : Fin cfg2.N) (r : Fin 5000) (k : Fin 128) :
    (iblk2 V c 0 t : Vec Ideal S5000x128 .f32) (ix2 r k)
      = (V c (Pipeline.arrRef spec2 0) : Mat 100000 128) (ix2 (tileRow (B := 20) (T := 5000) rfl (tile2 t) r) k) := by
  obtain ⟨e0, e1, -⟩ := grid_idx2 t
  unfold iblk2
  rw [View.read_apply]
  refine congrArg (V c (Pipeline.arrRef spec2 0) : Mat 100000 128) ?_
  funext a
  apply Fin.ext
  match a with
  | ⟨0, _⟩ => show win2_0.index t (0 : Fin 2) * 5000 + 1 * r.val = t.val * 5000 + r.val; rw [e0]; omega
  | ⟨1, _⟩ => show win2_0.index t (1 : Fin 2) * 128 + 1 * k.val = k.val; rw [e1]; omega

/-- The weight's block is the whole weight at every point. -/
theorem iblk2_1_eq (c : Dev nD) (t : Fin cfg2.N) :
    (iblk2 V c 1 t : Vec Ideal S128x128 .f32) = (V c (Pipeline.arrRef spec2 1) : Mat 128 128) := by
  obtain ⟨-, -, e0, e1, -⟩ := grid_idx2 t
  funext y
  unfold iblk2
  rw [View.read_apply]
  refine congrArg (V c (Pipeline.arrRef spec2 1) : Mat 128 128) ?_
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The bias's block is the whole one-row bias at every point. -/
theorem iblk2_2_eq (c : Dev nD) (t : Fin cfg2.N) :
    (iblk2 V c 2 t : Vec Ideal S1x128 .f32) = (V c (Pipeline.arrRef spec2 2) : Mat 1 128) := by
  obtain ⟨-, -, -, -, e0, e1, -⟩ := grid_idx2 t
  funext y
  unfold iblk2
  rw [View.read_apply]
  refine congrArg (V c (Pipeline.arrRef spec2 2) : Mat 1 128) ?_
  funext a
  apply Fin.ext
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-- What point `t` writes back to the sums' array is block `t` of the tile sums. -/
theorem flushed2_3 (c : Dev nD) (t : Fin cfg2.N) :
    (dat2 (F := Ideal) V c).flushed 3 t = ((cfg2.win 3).blk t).view.read (Elt Ideal)
      (tileSums 20 5000 rfl (pre (V c (Pipeline.arrRef spec2 0)) (V c (Pipeline.arrRef spec2 1)) (rowVec (V c (Pipeline.arrRef spec2 2))))) := by
  show (cfg2.win 3).cut (grid2.coords t) ((dat2 V c).after 3 t) = _
  rw [after2_3, stats_out3_eq']
  obtain ⟨-, -, -, -, -, -, e0, e1, e2, -⟩ := grid_idx2 t
  funext j
  rw [View.read_apply]
  refine block_sum _ _ _ _ _ _ (tile2 t) (iblk2_0_apply V c t) (iblk2_1_eq V c t) (iblk2_2_eq V c t) j _ ?_ ?_
  · show win2_3.index t (0 : Fin 3) * 1 + 1 * (j 0).val = t.val
    have hj : (j 0).val < 1 := (j 0).isLt
    rw [e0]; omega
  · show win2_3.index t (2 : Fin 3) * 128 + 1 * (j 2).val = (j 2).val
    rw [e2]; omega

/-- What point `t` writes back to the squares' array is block `t` of the tile sums of the squares. -/
theorem flushed2_4 (c : Dev nD) (t : Fin cfg2.N) :
    (dat2 (F := Ideal) V c).flushed 4 t = ((cfg2.win 4).blk t).view.read (Elt Ideal)
      (tileSums 20 5000 rfl (sq (pre (V c (Pipeline.arrRef spec2 0)) (V c (Pipeline.arrRef spec2 1)) (rowVec (V c (Pipeline.arrRef spec2 2)))))) := by
  show (cfg2.win 4).cut (grid2.coords t) ((dat2 V c).after 4 t) = _
  rw [after2_4, stats_out4_eq']
  obtain ⟨-, -, -, -, -, -, -, -, -, e0, e1, e2⟩ := grid_idx2 t
  funext j
  rw [View.read_apply]
  refine block_sumsq _ _ _ _ _ _ (tile2 t) (iblk2_0_apply V c t) (iblk2_1_eq V c t) (iblk2_2_eq V c t) j _ ?_ ?_
  · show win2_4.index t (0 : Fin 3) * 1 + 1 * (j 0).val = t.val
    have hj : (j 0).val < 1 := (j 0).isLt
    rw [e0]; omega
  · show win2_4.index t (2 : Fin 3) * 128 + 1 * (j 2).val = (j 2).val
    rw [e2]; omega

/-- Entry `(t, 0, q)` of the array lies in point `t`'s block. -/
theorem mem_blk2_3 (t : Fin cfg2.N) (i : S20x1x128.Idx) (ht : (i 0).val = t.val) : i ∈ ((cfg2.win 3).blk t).view.set := by
  have h1 : (i 1).val < 1 := (i 1).isLt
  have h2 : (i 2).val < 128 := (i 2).isLt
  obtain ⟨-, -, -, -, -, -, e0, e1, e2, -⟩ := grid_idx2 t
  show i ∈ ((View.whole main_v50_0).slice (win2_3.rect t)).set
  rw [View.set_slice_whole, Rect.mem_set_unit]
  intro a
  match a with
  | ⟨0, _⟩ => show win2_3.index t (0 : Fin 3) * 1 ≤ (i 0).val ∧ (i 0).val < win2_3.index t (0 : Fin 3) * 1 + 1; rw [e0]; omega
  | ⟨1, _⟩ => show win2_3.index t (1 : Fin 3) * 1 ≤ (i 1).val ∧ (i 1).val < win2_3.index t (1 : Fin 3) * 1 + 1; rw [e1]; omega
  | ⟨2, _⟩ => show win2_3.index t (2 : Fin 3) * 128 ≤ (i 2).val ∧ (i 2).val < win2_3.index t (2 : Fin 3) * 128 + 128; rw [e2]; omega

theorem covered2_3 (i : S20x1x128.Idx) : ∃ t : Fin cfg2.N, (cfg2.win 3).flush t = true ∧ i ∈ ((cfg2.win 3).blk t).view.set :=
  ⟨⟨(i 0).val, lt_of_lt_of_eq (i 0).isLt N_2.symm⟩, flush2_3 _, mem_blk2_3 _ i rfl⟩

/-- Entry `(t, 0, q)` of the array lies in point `t`'s block. -/
theorem mem_blk2_4 (t : Fin cfg2.N) (i : S20x1x128.Idx) (ht : (i 0).val = t.val) : i ∈ ((cfg2.win 4).blk t).view.set := by
  have h1 : (i 1).val < 1 := (i 1).isLt
  have h2 : (i 2).val < 128 := (i 2).isLt
  obtain ⟨-, -, -, -, -, -, -, -, -, e0, e1, e2⟩ := grid_idx2 t
  show i ∈ ((View.whole main_v50_1).slice (win2_4.rect t)).set
  rw [View.set_slice_whole, Rect.mem_set_unit]
  intro a
  match a with
  | ⟨0, _⟩ => show win2_4.index t (0 : Fin 3) * 1 ≤ (i 0).val ∧ (i 0).val < win2_4.index t (0 : Fin 3) * 1 + 1; rw [e0]; omega
  | ⟨1, _⟩ => show win2_4.index t (1 : Fin 3) * 1 ≤ (i 1).val ∧ (i 1).val < win2_4.index t (1 : Fin 3) * 1 + 1; rw [e1]; omega
  | ⟨2, _⟩ => show win2_4.index t (2 : Fin 3) * 128 ≤ (i 2).val ∧ (i 2).val < win2_4.index t (2 : Fin 3) * 128 + 128; rw [e2]; omega

theorem covered2_4 (i : S20x1x128.Idx) : ∃ t : Fin cfg2.N, (cfg2.win 4).flush t = true ∧ i ∈ ((cfg2.win 4).blk t).view.set :=
  ⟨⟨(i 0).val, lt_of_lt_of_eq (i 0).isLt N_2.symm⟩, flush2_4 _, mem_blk2_4 _ i rfl⟩

/-- After the second launch the sums' array holds the tile sums of `P · W + b`. -/
theorem stats2_sum (c : Dev nD) : (Gen.dat2 (F := Ideal) V c).arrAt 3 cfg2.N
    = Cert.Sgc.tileSums 20 5000 rfl (Cert.Sgc.pre (V c (Pipeline.arrRef spec2 0)) (V c (Pipeline.arrRef spec2 1)) (Cert.Sage.rowVec (V c (Pipeline.arrRef spec2 2)))) :=
  (dat2 (F := Ideal) V c).arrAt_eq_of_cover 3 _ (fun t _ => flushed2_3 V c t) covered2_3

/-- After the second launch the squares' array holds the tile sums of the squares of `P · W + b`. -/
theorem stats2_sumsq (c : Dev nD) : (Gen.dat2 (F := Ideal) V c).arrAt 4 cfg2.N
    = Cert.Sgc.tileSums 20 5000 rfl (Cert.Sgc.sq (Cert.Sgc.pre (V c (Pipeline.arrRef spec2 0)) (V c (Pipeline.arrRef spec2 1)) (Cert.Sage.rowVec (V c (Pipeline.arrRef spec2 2))))) :=
  (dat2 (F := Ideal) V c).arrAt_eq_of_cover 4 _ (fun t _ => flushed2_4 V c t) covered2_4

end Region2

end Cert.KernelIdeal.RegionValue
end
-- ==== Proof.KerLinear.lean ====
/-
  The plain linear kernel's output array after its launch, as a whole-array function of the arrays the launch finds.

  The grid has 20 points.  Point `t` reads rows `5000·t … 5000·t + 4999` of the `[100000, 128]` array `P`, the whole
  `[128, 64]` weight `W` and the whole one-row bias `b`, and writes `P · W + b` of its block as rows `5000·t …` of the
  `[100000, 64]` output.  A row of `P · W + b` depends on that row of `P` only, so the blocks are the row blocks of the
  whole array's `P · W + b`, and they tile the output.
-/
import proofs.«117873_j69002944578214_2_alg».proof.Proof.Gen.KernelIdeal.Frame
import proofs.«117873_j69002944578214_2_alg».proof.Proof.KerPre

noncomputable section

namespace Cert.KernelIdeal.RegionValue

open Idealize.ShloMosaic Idealize.ShloMosaic.ValueIdx Idealize.ShloMosaic.TcCoe
open Cert.KernelIdeal Cert.KernelIdeal.Gen
open Cert.DenseLib Cert.Sage Cert.Sgc

/-! ## One block -/

theorem linear_dot_plain : dot_S5000x128_S128x64_S5000x64_1_0_0_1_n_n = DotDims.plain 5000 128 64 := rfl

/-- The block's stored value: the casts to the narrower format are the identity on the extended reals, the product
    starts from zero, the bias row is laid down the block. -/
theorem linear_pay1_eq (x0 : Vec Ideal S5000x128 .f32) (x1 : Vec Ideal S128x64 .f32) (x2 : Vec Ideal S1x64 .f32) :
    k4_pay1 (F := Ideal) x0 x1 x2 = pre x0 x1 (rowVec x2) := by
  unfold k4_pay1
  dsimp only
  simp only [shapeCast_self]
  exact affine_block dot_S5000x128_S128x64_S5000x64_1_0_0_1_n_n linear_dot_plain x0 x1 x2 broadcasts_S1x64_S5000x64

/-- The one store is through the whole output buffer and the loads are of the whole input buffers. -/
theorem linear_out3_eq (x0 : Vec Ideal S5000x128 .f32) (x1 : Vec Ideal S128x64 .f32) (x2 : Vec Ideal S1x64 .f32) :
    out4_3 (F := Ideal) x0 x1 x2 = pre x0 x1 (rowVec x2) := by
  unfold out4_3
  rw [View.canon_unit_zero hz2]
  simp only [View.ld_unit_zero (S := S5000x128) hz2, View.ld_unit_zero (S := S128x64) hz2, View.ld_unit_zero (S := S1x64) hz2]
  exact linear_pay1_eq x0 x1 x2

/-- Block `t`'s `P · W + b` — rows `5000·t …` of the array, the whole weight and bias — is rows `5000·t …` of the
    array's `P · W + b`. -/
theorem block_linear (A0 : Mat 100000 128) (A1 : Mat 128 64) (A2 : Mat 1 64)
    (x0 : Vec Ideal S5000x128 .f32) (x1 : Vec Ideal S128x64 .f32) (x2 : Vec Ideal S1x64 .f32) (t : Fin 20)
    (h0 : ∀ (r : Fin 5000) (k : Fin 128), x0 (ix2 r k) = A0 (ix2 (tileRow (B := 20) (T := 5000) rfl t r) k))
    (h1 : x1 = A1) (h2 : x2 = A2) (j : S5000x64.Idx) (i : S100000x64.Idx)
    (hi0 : (i 0).val = t.val * 5000 + (j 0).val) (hi1 : (i 1).val = (j 1).val) :
    pre x0 x1 (rowVec x2) j = pre A0 A1 (rowVec A2) i := by
  subst h1 h2
  obtain ⟨r, q, rfl⟩ : ∃ (r : Fin 5000) (q : Fin 64), j = ix2 r q := ⟨j 0, j 1, eq_ix2 j⟩
  obtain ⟨p, q', rfl⟩ : ∃ (p : Fin 100000) (q' : Fin 64), i = ix2 p q' := ⟨i 0, i 1, eq_ix2 i⟩
  obtain rfl : p = tileRow (B := 20) (T := 5000) rfl t r := Fin.ext hi0
  exact pre_eq_of_row x0 A0 x1 (rowVec x2) (ix2 r q) (ix2 _ q') hi1.symm fun k => h0 r k

/-! ## From blocks to the array -/

section Region4

variable (V : (c : Dev nD) → (b : Ref sig .tc) → Buf (Elt Ideal) ((c : Thread nD τ).loc b))

/-- The windows' block indices over the grid: the row block and the output block move with the point, the weight and the
    bias stay. -/
theorem grid_idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- A grid point as a tile number. -/
def tile4 (t : Fin cfg4.N) : Fin 20 := ⟨t.val, lt_of_lt_of_eq t.isLt N_4⟩

/-- Row `r` of the row block at point `t` is row `5000·t + r` of the array. -/
theorem iblk4_0_apply (c : Dev nD) (t : Fin cfg4.N) (r : Fin 5000) (k : Fin 128) :
    (iblk4 V c 0 t : Vec Ideal S5000x128 .f32) (ix2 r k)
      = (V c (Pipeline.arrRef spec4 0) : Mat 100000 128) (ix2 (tileRow (B := 20) (T := 5000) rfl (tile4 t) r) k) := by
  obtain ⟨e0, e1, -⟩ := grid_idx4 t
  unfold iblk4
  rw [View.read_apply]
  refine congrArg (V c (Pipeline.arrRef spec4 0) : Mat 100000 128) ?_
  funext a
  apply Fin.ext
  match a with
  | ⟨0, _⟩ => show win4_0.index t (0 : Fin 2) * 5000 + 1 * r.val = t.val * 5000 + r.val; rw [e0]; omega
  | ⟨1, _⟩ => show win4_0.index t (1 : Fin 2) * 128 + 1 * k.val = k.val; rw [e1]; omega

/-- The weight's block is the whole weight at every point. -/
theorem iblk4_1_eq (c : Dev nD) (t : Fin cfg4.N) :
    (iblk4 V c 1 t : Vec Ideal S128x64 .f32) = (V c (Pipeline.arrRef spec4 1) : Mat 128 64) := by
  obtain ⟨-, -, e0, e1, -⟩ := grid_idx4 t
  funext y
  unfold iblk4
  rw [View.read_apply]
  refine congrArg (V c (Pipeline.arrRef spec4 1) : Mat 128 64) ?_
  funext a
  apply Fin.ext
  match a with
  | ⟨0, _⟩ => show win4_1.index t (0 : Fin 2) * 128 + 1 * (y 0).val = (y 0).val; rw [e0]; omega
  | ⟨1, _⟩ => show win4_1.index t (1 : Fin 2) * 64 + 1 * (y 1).val = (y 1).val; rw [e1]; omega

/-- The bias's block is the whole one-row bias at every point. -/
theorem iblk4_2_eq (c : Dev nD) (t : Fin cfg4.N) :
    (iblk4 V c 2 t : Vec Ideal S1x64 .f32) = (V c (Pipeline.arrRef spec4 2) : Mat 1 64) := by
  obtain ⟨-, -, -, -, e0, e1, -⟩ := grid_idx4 t
  funext y
  unfold iblk4
  rw [View.read_apply]
  refine congrArg (V c (Pipeline.arrRef spec4 2) : Mat 1 64) ?_
  funext a
  apply Fin.ext
  match a with
  | ⟨0, _⟩ => show win4_2.index t (0 : Fin 2) * 1 + 1 * (y 0).val = (y 0).val; rw [e0]; omega
  | ⟨1, _⟩ => show win4_2.index t (1 : Fin 2) * 64 + 1 * (y 1).val = (y 1).val; rw [e1]; omega

/-- What point `t` writes back is block `t` of the array's `P · W + b`. -/
theorem flushed4_3 (c : Dev nD) (t : Fin cfg4.N) :
    (dat4 (F := Ideal) V c).flushed 3 t = ((cfg4.win 3).blk t).view.read (Elt Ideal)
      (pre (V c (Pipeline.arrRef spec4 0)) (V c (Pipeline.arrRef spec4 1)) (rowVec (V c (Pipeline.arrRef spec4 2)))) := by
  show (cfg4.win 3).cut (grid4.coords t) ((dat4 V c).after 3 t) = _
  rw [after4_3, linear_out3_eq]
  obtain ⟨-, -, -, -, -, -, e0, e1⟩ := grid_idx4 t
  funext j
  rw [View.read_apply]
  refine block_linear _ _ _ _ _ _ (tile4 t) (iblk4_0_apply V c t) (iblk4_1_eq V c t) (iblk4_2_eq V c t) j _ ?_ ?_
  · show win4_3.index t (0 : Fin 2) * 5000 + 1 * (j 0).val = t.val * 5000 + (j 0).val
    rw [e0]; omega
  · show win4_3.index t (1 : Fin 2) * 64 + 1 * (j 1).val = (j 1).val
    rw [e1]; omega

/-- Row `p` of the output lies in the block of point `p / 5000`. -/
theorem mem_blk4_3 (t : Fin cfg4.N) (i : S100000x64.Idx) (ht : (i 0).val / 5000 = t.val) : i ∈ ((cfg4.win 3).blk t).view.set := by
  have h1 : (i 1).val < 64 := (i 1).isLt
  obtain ⟨-, -, -, -, -, -, e0, e1⟩ := grid_idx4 t
  show i ∈ ((View.whole main_v72).slice (win4_3.rect t)).set
  rw [View.set_slice_whole, Rect.mem_set_unit]
  intro a
  match a with
  | ⟨0, _⟩ => show win4_3.index t (0 : Fin 2) * 5000 ≤ (i 0).val ∧ (i 0).val < win4_3.index t (0 : Fin 2) * 5000 + 5000; rw [e0]; omega
  | ⟨1, _⟩ => show win4_3.index t (1 : Fin 2) * 64 ≤ (i 1).val ∧ (i 1).val < win4_3.index t (1 : Fin 2) * 64 + 64; rw [e1]; omega

theorem covered4_3 (i : S100000x64.Idx) : ∃ t : Fin cfg4.N, (cfg4.win 3).flush t = true ∧ i ∈ ((cfg4.win 3).blk t).view.set :=
  have h0 : (i 0).val < 100000 := (i 0).isLt
  ⟨⟨(i 0).val / 5000, lt_of_lt_of_eq (by omega) N_4.symm⟩, flush4_3 _, mem_blk4_3 _ i rfl⟩

/-- After the launch the output array holds `P · W + b`. -/
theorem linear4 (c : Dev nD) : (Gen.dat4 (F := Ideal) V c).arrAt 3 cfg4.N
    = Cert.Sgc.pre (V c (Pipeline.arrRef spec4 0)) (V c (Pipeline.arrRef spec4 1)) (Cert.Sage.rowVec (V c (Pipeline.arrRef spec4 2))) :=
  (dat4 (F := Ideal) V c).arrAt_eq_of_cover 3 _ (fun t _ => flushed4_3 V c t) covered4_3

end Region4

end Cert.KernelIdeal.RegionValue

end
-- ==== Proof.LibRowNorm.lean ====
/-
  General lemmas: a row-wise normalisation on the extended reals, at any number of rows. An array `z` of M rows
  and N columns is built entry by entry as `agg + h · d + b` (a per-row weight `d`, a per-column offset `b`:
  `combine`); each row is then centred at its mean, scaled by the reciprocal square root of its mean squared
  deviation plus a constant, multiplied by a per-column gain, shifted by a per-column offset and cut at zero
  (`normRelu`). Row `p` of the result depends only on row `p` of the operands, which is what lets a result
  computed block of rows by block of rows be read as one function of the whole arrays. The same function is
  recognised in the spelling a vector unit gives it (lane sums kept as a column, columns and rows broadcast over
  the block) and in the spelling a host program gives it (sums from an initial value, two-step broadcasts).
  None mentions a program.
-/
import proofs.«117873_j69002944578214_2_alg».proof.Proof.LibRowBlocks

noncomputable section

namespace Cert.RowNorm

open Idealize.ShloMosaic Idealize.ShloMosaic.ValueIdx Cert.LayoutLib Cert.DenseLib Cert.RowBlocks

variable {M N : ℕ}

/-- `agg + h · d + b`: the weight `d` of the row, the offset `b` of the column. -/
def combine (agg h : (⟨2, ![M, N]⟩ : Shape).Idx → EReal) (d : Fin M → EReal) (b : Fin N → EReal) :
    (⟨2, ![M, N]⟩ : Shape).Idx → EReal := fun i => agg i + h i * d (i 0) + b (i 1)

/-- The mean of row `p`: the row's sum divided by `n`. -/
def mean (n : EReal) (z : (⟨2, ![M, N]⟩ : Shape).Idx → EReal) (p : Fin M) : EReal :=
  Ideal.div (∑ k : Fin N, z (ix2 p k)) n

/-- The mean squared deviation of row `p` from its mean. -/
def spread (n : EReal) (z : (⟨2, ![M, N]⟩ : Shape).Idx → EReal) (p : Fin M) : EReal :=
  Ideal.div (∑ k : Fin N, (z (ix2 p k) - mean n z p) * (z (ix2 p k) - mean n z p)) n

/-- Each row centred, scaled by `(spread + ε)^(-1/2)`, times the column's gain, plus the column's offset, cut at zero. -/
def normRelu (n ε : EReal) (z : (⟨2, ![M, N]⟩ : Shape).Idx → EReal) (g be : Fin N → EReal) :
    (⟨2, ![M, N]⟩ : Shape).Idx → EReal := fun i =>
  max ((z i - mean n z (i 0)) * Ideal.rsqrt (spread n z (i 0) + ε) * g (i 1) + be (i 1)) 0

/-- The two together. -/
def post (n ε : EReal) (agg h : (⟨2, ![M, N]⟩ : Shape).Idx → EReal) (d : Fin M → EReal) (b g be : Fin N → EReal) :
    (⟨2, ![M, N]⟩ : Shape).Idx → EReal := normRelu n ε (combine agg h d b) g be

theorem combine_apply (agg h : (⟨2, ![M, N]⟩ : Shape).Idx → EReal) (d : Fin M → EReal) (b : Fin N → EReal) (p : Fin M) (q : Fin N) :
    combine agg h d b (ix2 p q) = agg (ix2 p q) + h (ix2 p q) * d p + b q := rfl

theorem normRelu_apply (n ε : EReal) (z : (⟨2, ![M, N]⟩ : Shape).Idx → EReal) (g be : Fin N → EReal) (p : Fin M) (q : Fin N) :
    normRelu n ε z g be (ix2 p q) = max ((z (ix2 p q) - mean n z p) * Ideal.rsqrt (spread n z p + ε) * g q + be q) 0 := rfl

/-! ## Row locality -/

theorem mean_congr {M' : ℕ} (n : EReal) (z' : (⟨2, ![M', N]⟩ : Shape).Idx → EReal) (z : (⟨2, ![M, N]⟩ : Shape).Idx → EReal)
    (p' : Fin M') (p : Fin M) (hz : ∀ k : Fin N, z' (ix2 p' k) = z (ix2 p k)) : mean n z' p' = mean n z p := by
  unfold mean
  exact congrArg (Ideal.div · n) (Finset.sum_congr rfl fun k _ => hz k)

theorem spread_congr {M' : ℕ} (n : EReal) (z' : (⟨2, ![M', N]⟩ : Shape).Idx → EReal) (z : (⟨2, ![M, N]⟩ : Shape).Idx → EReal)
    (p' : Fin M') (p : Fin M) (hz : ∀ k : Fin N, z' (ix2 p' k) = z (ix2 p k)) : spread n z' p' = spread n z p := by
  unfold spread
  rw [mean_congr n z' z p' p hz]
  exact congrArg (Ideal.div · n) (Finset.sum_congr rfl fun k _ => by rw [hz k])

/-- Two arrays, of any heights, that agree on a row of each are normalised alike on those rows. -/
theorem normRelu_row {M' : ℕ} (n ε : EReal) (z' : (⟨2, ![M', N]⟩ : Shape).Idx → EReal) (z : (⟨2, ![M, N]⟩ : Shape).Idx → EReal)
    (g be : Fin N → EReal) (p' : Fin M') (p : Fin M) (hz : ∀ k : Fin N, z' (ix2 p' k) = z (ix2 p k)) (q : Fin N) :
    normRelu n ε z' g be (ix2 p' q) = normRelu n ε z g be (ix2 p q) := by
  rw [normRelu_apply, normRelu_apply, mean_congr n z' z p' p hz, spread_congr n z' z p' p hz, hz q]

/-- The same for the whole step: rows of `agg` and `h` that agree, and equal row weights, give equal rows. -/
theorem post_row {M' : ℕ} (n ε : EReal) (agg' h' : (⟨2, ![M', N]⟩ : Shape).Idx → EReal) (d' : Fin M' → EReal)
    (agg h : (⟨2, ![M, N]⟩ : Shape).Idx → EReal) (d : Fin M → EReal) (b g be : Fin N → EReal) (p' : Fin M') (p : Fin M)
    (ha : ∀ k : Fin N, agg' (ix2 p' k) = agg (ix2 p k)) (hh : ∀ k : Fin N, h' (ix2 p' k) = h (ix2 p k)) (hd : d' p' = d p)
    (q : Fin N) : post n ε agg' h' d' b g be (ix2 p' q) = post n ε agg h d b g be (ix2 p q) :=
  normRelu_row n ε _ _ g be p' p (fun k => by rw [combine_apply, combine_apply, ha k, hh k, hd]) q

/-- The same with any two indices: equal columns, rows of `agg` and `h` that agree, equal row weights. -/
theorem post_eq_of_row {M' : ℕ} (n ε : EReal) (agg' h' : (⟨2, ![M', N]⟩ : Shape).Idx → EReal) (d' : Fin M' → EReal)
    (agg h : (⟨2, ![M, N]⟩ : Shape).Idx → EReal) (d : Fin M → EReal) (b g be : Fin N → EReal)
    (j : (⟨2, ![M', N]⟩ : Shape).Idx) (i : (⟨2, ![M, N]⟩ : Shape).Idx) (hq : (j 1).val = (i 1).val)
    (ha : ∀ k : Fin N, agg' (ix2 (n0 := M') (j 0) k) = agg (ix2 (n0 := M) (i 0) k))
    (hh : ∀ k : Fin N, h' (ix2 (n0 := M') (j 0) k) = h (ix2 (n0 := M) (i 0) k)) (hd : d' (j 0) = d (i 0)) :
    post n ε agg' h' d' b g be j = post n ε agg h d b g be i := by
  obtain ⟨p', q', rfl⟩ : ∃ (p' : Fin M') (q' : Fin N), j = ix2 p' q' := ⟨j 0, j 1, eq_ix2 j⟩
  obtain ⟨p, q, rfl⟩ : ∃ (p : Fin M) (q : Fin N), i = ix2 p q := ⟨i 0, i 1, eq_ix2 i⟩
  have e : q' = q := Fin.ext hq
  subst e
  exact post_row n ε agg' h' d' agg h d b g be p' p ha hh hd q'

/-! ## Two dense layers -/

/-- An array times a matrix, plus a bias, cut at zero, times a second matrix, plus a second bias. -/
def mlp {M A B C : ℕ} (cat : (⟨2, ![M, A]⟩ : Shape).Idx → EReal) (W₁ : (⟨2, ![A, B]⟩ : Shape).Idx → EReal) (b₁ : Fin B → EReal)
    (W₂ : (⟨2, ![B, C]⟩ : Shape).Idx → EReal) (b₂ : Fin C → EReal) : (⟨2, ![M, C]⟩ : Shape).Idx → EReal :=
  biased (layer (mm cat W₁) b₁ W₂) b₂

/-- Row `p` of the two layers' result depends on row `p` of the first operand only. -/
theorem mlp_eq_of_row {M M' A B C : ℕ} (cat' : (⟨2, ![M', A]⟩ : Shape).Idx → EReal) (cat : (⟨2, ![M, A]⟩ : Shape).Idx → EReal)
    (W₁ : (⟨2, ![A, B]⟩ : Shape).Idx → EReal) (b₁ : Fin B → EReal) (W₂ : (⟨2, ![B, C]⟩ : Shape).Idx → EReal) (b₂ : Fin C → EReal)
    (j : (⟨2, ![M', C]⟩ : Shape).Idx) (i : (⟨2, ![M, C]⟩ : Shape).Idx) (hq : (j 1).val = (i 1).val)
    (hx : ∀ k : Fin A, cat' (ix2 (n0 := M') (j 0) k) = cat (ix2 (n0 := M) (i 0) k)) :
    mlp cat' W₁ b₁ W₂ b₂ j = mlp cat W₁ b₁ W₂ b₂ i :=
  biased_eq_of_entry _ _ _ _ j i rfl hq
    (layer_eq_of_row _ _ _ _ _ _ j i rfl rfl hq fun k =>
      mm_eq_of_row cat' W₁ cat W₁ (ix2 (n0 := M') (j 0) k) (ix2 (n0 := M) (i 0) k) rfl rfl fun k' => hx k')

/-! ## Layout operations as whole-array functions -/

/-- A column broadcast over the columns of a block reads the column at the row. -/
theorem broadcastTo_col (v : (⟨2, ![M, 1]⟩ : Shape).Idx → EReal) (h : (⟨2, ![M, 1]⟩ : Shape).Broadcasts ⟨2, ![M, N]⟩) :
    broadcastTo ⟨2, ![M, N]⟩ v h = fun i => v (ix2 (n0 := M) (i 0) (0 : Fin 1)) := by
  funext i
  obtain ⟨p, q, rfl⟩ : ∃ (p : Fin M) (q : Fin N), i = ix2 p q := ⟨i 0, i 1, eq_ix2 i⟩
  exact broadcastTo_col_apply v h p q

/-- A lane sum kept as a column: the row's sum, whatever the column's one coordinate. -/
theorem rowsum_vector (Z : FVec Ideal ⟨2, ![M, N]⟩ .f32) (acc : BitVec 32)
    (r : (⟨2, ![M, N]⟩ : Shape).Reduces [(1 : Fin 2)] ⟨1, ![M]⟩) (hφ : FKind.Formats FTy.f32)
    (hacc : acc = FKind.add.neutral FTy.f32 hφ) (c : (⟨1, ![M]⟩ : Shape).ShapeCasts ⟨2, ![M, 1]⟩) :
    shapeCast ⟨2, ![M, 1]⟩ (multiReduction .add [(1 : Fin 2)] ⟨1, ![M]⟩ Z acc r hφ hacc) c
      = fun i => ∑ k : Fin N, Z (ix2 (n0 := M) (i 0) k) := by
  funext i
  obtain ⟨p, u, rfl⟩ : ∃ (p : Fin M) (u : Fin 1), i = ix2 p u := ⟨i 0, i 1, eq_ix2 i⟩
  rw [shapeCast_col_apply]
  refine (Ideal.multiReduction_add_single Z acc r hφ hacc (ix1 p)).trans ?_
  exact Finset.sum_congr rfl fun k _ => congrArg Z (lift_row r p k)

/-- The host's broadcast of a column over the columns. -/
theorem broadcastInDim_col (h : (⟨2, ![M, 1]⟩ : Shape).BroadcastsInDim ⟨2, ![M, N]⟩ (![0, 1] : Fin 2 → Fin 2))
    (x : (⟨2, ![M, 1]⟩ : Shape).Idx → EReal) :
    broadcastInDim ⟨2, ![M, N]⟩ ![0, 1] h x = fun i => x (ix2 (n0 := M) (i 0) (0 : Fin 1)) := by
  funext i
  obtain ⟨p, q, rfl⟩ : ∃ (p : Fin M) (q : Fin N), i = ix2 p q := ⟨i 0, i 1, eq_ix2 i⟩
  exact broadcastInDim_col_apply h x p q

/-- The host's sum along the rows kept as a column: the initial value plus the row's sum. -/
theorem rowsum_host (Z : FVec Ideal ⟨2, ![M, N]⟩ .f32) {u : Shape} (init : u.Idx → EReal) (hu : 0 < u.numel)
    (rt : (⟨2, ![M, N]⟩ : Shape).ReducesTo [(1 : Fin 2)] ⟨1, ![M]⟩) (r : (⟨2, ![M, N]⟩ : Shape).Reduces [(1 : Fin 2)] ⟨1, ![M]⟩)
    (hb : (⟨1, ![M]⟩ : Shape).BroadcastsInDim ⟨2, ![M, 1]⟩ (![0] : Fin 1 → Fin 2)) :
    broadcastInDim ⟨2, ![M, 1]⟩ ![0] hb (Host.reduceAdd (F := Ideal) Z init rt hu)
      = fun i => init (Shape.Idx.first hu) + ∑ k : Fin N, Z (ix2 (n0 := M) (i 0) k) := by
  funext i
  obtain ⟨p, v, rfl⟩ : ∃ (p : Fin M) (v : Fin 1), i = ix2 p v := ⟨i 0, i 1, eq_ix2 i⟩
  rw [broadcastInDim_vecCol_apply]
  exact hostReduceAdd_row_apply rt r Z _ p

/-- The host's broadcast of a scalar. -/
theorem broadcastInDim_scalar {t : Shape} (h : (⟨0, ![]⟩ : Shape).BroadcastsInDim t (![] : Fin 0 → Fin t.rank))
    (x : (⟨0, ![]⟩ : Shape).Idx → EReal) : broadcastInDim t ![] h x = fun _ => x ix0 :=
  funext fun j => broadcastInDim_scalar_apply h x j

/-- The same from the zero word: the row's sum. -/
theorem rowsum_host_zero (Z : FVec Ideal ⟨2, ![M, N]⟩ .f32) (hu : 0 < (⟨0, ![]⟩ : Shape).numel)
    (rt : (⟨2, ![M, N]⟩ : Shape).ReducesTo [(1 : Fin 2)] ⟨1, ![M]⟩) (r : (⟨2, ![M, N]⟩ : Shape).Reduces [(1 : Fin 2)] ⟨1, ![M]⟩)
    (hb : (⟨1, ![M]⟩ : Shape).BroadcastsInDim ⟨2, ![M, 1]⟩ (![0] : Fin 1 → Fin 2)) :
    broadcastInDim ⟨2, ![M, 1]⟩ ![0] hb (Host.reduceAdd (F := Ideal) Z (constant (F := Ideal) ⟨0, ![]⟩ .f32 0x00000000#32) rt hu)
      = fun i => ∑ k : Fin N, Z (ix2 (n0 := M) (i 0) k) := by
  rw [rowsum_host Z _ hu rt r hb]
  funext i
  show Ideal.ofBits .f32 0x00000000#32 + _ = _
  rw [Ideal.ofBits_zero_f32, zero_add]

/-! ## The two spellings of the row normalisation -/

/-- The vector unit's spelling, on a block of any height: the lane sums kept as columns, the columns and the one-row
    operands broadcast over the block, the divisor and the constant splat. -/
theorem post_vector (nb εb : BitVec FTy.f32.bits)
    (c1 : (⟨2, ![M, N]⟩ : Shape).ShapeCasts ⟨2, ![M, N]⟩) (c2 : (⟨2, ![M, 1]⟩ : Shape).ShapeCasts ⟨2, ![M, 1]⟩)
    (c3 : (⟨2, ![1, N]⟩ : Shape).ShapeCasts ⟨2, ![1, N]⟩) (c4 : (⟨1, ![M]⟩ : Shape).ShapeCasts ⟨2, ![M, 1]⟩)
    (b1 : (⟨2, ![M, 1]⟩ : Shape).Broadcasts ⟨2, ![M, N]⟩) (b2 : (⟨2, ![1, N]⟩ : Shape).Broadcasts ⟨2, ![M, N]⟩)
    (r : (⟨2, ![M, N]⟩ : Shape).Reduces [(1 : Fin 2)] ⟨1, ![M]⟩) (hφ : FKind.Formats FTy.f32)
    (hacc : (0x00000000#32 : BitVec FTy.f32.bits) = FKind.add.neutral FTy.f32 hφ)
    (agg h : FVec Ideal ⟨2, ![M, N]⟩ .f32) (d : FVec Ideal ⟨2, ![M, 1]⟩ .f32) (b g be : FVec Ideal ⟨2, ![1, N]⟩ .f32) :
    let Z : FVec Ideal ⟨2, ![M, N]⟩ .f32 :=
      addf (addf (shapeCast ⟨2, ![M, N]⟩ agg c1) (mulf (shapeCast ⟨2, ![M, N]⟩ h c1) (broadcastTo ⟨2, ![M, N]⟩ (shapeCast ⟨2, ![M, 1]⟩ d c2) b1)))
        (broadcastTo ⟨2, ![M, N]⟩ (shapeCast ⟨2, ![1, N]⟩ b c3) b2)
    let μ : FVec Ideal ⟨2, ![M, 1]⟩ .f32 :=
      divf (shapeCast ⟨2, ![M, 1]⟩ (multiReduction .add [(1 : Fin 2)] ⟨1, ![M]⟩ Z 0x00000000#32 r hφ hacc) c4)
        (broadcast ⟨2, ![M, 1]⟩ (Scalar.ofBits (F := Ideal) .f32 nb))
    let D : FVec Ideal ⟨2, ![M, N]⟩ .f32 := subf Z (broadcastTo ⟨2, ![M, N]⟩ μ b1)
    let σ : FVec Ideal ⟨2, ![M, 1]⟩ .f32 :=
      divf (shapeCast ⟨2, ![M, 1]⟩ (multiReduction .add [(1 : Fin 2)] ⟨1, ![M]⟩ (mulf D D) 0x00000000#32 r hφ hacc) c4)
        (broadcast ⟨2, ![M, 1]⟩ (Scalar.ofBits (F := Ideal) .f32 nb))
    maximumf (addf (mulf (mulf D (broadcastTo ⟨2, ![M, N]⟩ (rsqrt (addf σ (broadcast ⟨2, ![M, 1]⟩ (Scalar.ofBits (F := Ideal) .f32 εb)))) b1))
        (broadcastTo ⟨2, ![M, N]⟩ (shapeCast ⟨2, ![1, N]⟩ g c3) b2)) (broadcastTo ⟨2, ![M, N]⟩ (shapeCast ⟨2, ![1, N]⟩ be c3) b2))
      (broadcast ⟨2, ![M, N]⟩ (Scalar.ofBits (F := Ideal) .f32 0x00000000#32))
    = post (Ideal.ofBits .f32 nb) (Ideal.ofBits .f32 εb) agg h (fun p => d (ix2 p (0 : Fin 1))) (fun q => b (ix2 (0 : Fin 1) q))
        (fun q => g (ix2 (0 : Fin 1) q)) (fun q => be (ix2 (0 : Fin 1) q)) := by
  intro Z μ D σ
  simp only [Z, μ, D, σ, shapeCast_self, broadcastTo_col, broadcastTo_eq_rows, maximumf_splat_zero]
  rw [rowsum_vector _ _ r hφ hacc c4, rowsum_vector _ _ r hφ hacc c4]
  rfl

/-- The host's spelling, on arrays of any height: sums from the zero word, two-step broadcasts, scalars broadcast. -/
theorem post_host (nb εb : BitVec FTy.f32.bits) (hu : 0 < (⟨0, ![]⟩ : Shape).numel)
    (hcb : (⟨2, ![M, 1]⟩ : Shape).BroadcastsInDim ⟨2, ![M, N]⟩ (![0, 1] : Fin 2 → Fin 2))
    (hrb : (⟨2, ![1, N]⟩ : Shape).BroadcastsInDim ⟨2, ![M, N]⟩ (![0, 1] : Fin 2 → Fin 2))
    (hvr : (⟨1, ![N]⟩ : Shape).BroadcastsInDim ⟨2, ![1, N]⟩ (![1] : Fin 1 → Fin 2))
    (hvc : (⟨1, ![M]⟩ : Shape).BroadcastsInDim ⟨2, ![M, 1]⟩ (![0] : Fin 1 → Fin 2))
    (hsc : (⟨0, ![]⟩ : Shape).BroadcastsInDim ⟨2, ![M, 1]⟩ (![] : Fin 0 → Fin 2))
    (hs0 : (⟨0, ![]⟩ : Shape).BroadcastsInDim ⟨2, ![M, N]⟩ (![] : Fin 0 → Fin 2))
    (rt : (⟨2, ![M, N]⟩ : Shape).ReducesTo [(1 : Fin 2)] ⟨1, ![M]⟩) (r : (⟨2, ![M, N]⟩ : Shape).Reduces [(1 : Fin 2)] ⟨1, ![M]⟩)
    (agg h : FVec Ideal ⟨2, ![M, N]⟩ .f32) (d : FVec Ideal ⟨2, ![M, 1]⟩ .f32) (b g be : FVec Ideal ⟨1, ![N]⟩ .f32) :
    let Z : FVec Ideal ⟨2, ![M, N]⟩ .f32 :=
      addf (addf agg (mulf h (broadcastInDim ⟨2, ![M, N]⟩ ![0, 1] hcb d)))
        (broadcastInDim ⟨2, ![M, N]⟩ ![0, 1] hrb (broadcastInDim ⟨2, ![1, N]⟩ ![1] hvr b))
    let μ : FVec Ideal ⟨2, ![M, 1]⟩ .f32 :=
      Host.divf (broadcastInDim ⟨2, ![M, 1]⟩ ![0] hvc (Host.reduceAdd (F := Ideal) Z (constant (F := Ideal) ⟨0, ![]⟩ .f32 0x00000000#32) rt hu))
        (broadcastInDim ⟨2, ![M, 1]⟩ ![] hsc (constant (F := Ideal) ⟨0, ![]⟩ .f32 nb))
    let D : FVec Ideal ⟨2, ![M, N]⟩ .f32 := subf Z (broadcastInDim ⟨2, ![M, N]⟩ ![0, 1] hcb μ)
    let σ : FVec Ideal ⟨2, ![M, 1]⟩ .f32 :=
      Host.divf (broadcastInDim ⟨2, ![M, 1]⟩ ![0] hvc (Host.reduceAdd (F := Ideal) (mulf D D) (constant (F := Ideal) ⟨0, ![]⟩ .f32 0x00000000#32) rt hu))
        (broadcastInDim ⟨2, ![M, 1]⟩ ![] hsc (constant (F := Ideal) ⟨0, ![]⟩ .f32 nb))
    maximumf (addf (mulf (mulf D (broadcastInDim ⟨2, ![M, N]⟩ ![0, 1] hcb
          (Host.rsqrt (addf σ (broadcastInDim ⟨2, ![M, 1]⟩ ![] hsc (constant (F := Ideal) ⟨0, ![]⟩ .f32 εb))))))
        (broadcastInDim ⟨2, ![M, N]⟩ ![0, 1] hrb (broadcastInDim ⟨2, ![1, N]⟩ ![1] hvr g)))
        (broadcastInDim ⟨2, ![M, N]⟩ ![0, 1] hrb (broadcastInDim ⟨2, ![1, N]⟩ ![1] hvr be)))
      (broadcastInDim ⟨2, ![M, N]⟩ ![] hs0 (constant (F := Ideal) ⟨0, ![]⟩ .f32 0x00000000#32))
    = post (Ideal.ofBits .f32 nb) (Ideal.ofBits .f32 εb) agg h (fun p => d (ix2 p (0 : Fin 1))) (fun q => b (ix1 q))
        (fun q => g (ix1 q)) (fun q => be (ix1 q)) := by
  intro Z μ D σ
  simp only [Z, μ, D, σ]
  rw [maximumf_bcast_zero, broadcastInDim_eq_rows b hvr hrb, broadcastInDim_eq_rows g hvr hrb, broadcastInDim_eq_rows be hvr hrb,
    rowsum_host_zero _ hu rt r hvc, rowsum_host_zero _ hu rt r hvc, broadcastInDim_scalar hsc, broadcastInDim_scalar hsc,
    broadcastInDim_col hcb d, broadcastInDim_col hcb, broadcastInDim_col hcb]
  rfl

/-- The host's spelling of the two dense layers. -/
theorem mlp_host {A B C : ℕ} (D₁ : DotDims ⟨2, ![M, A]⟩ ⟨2, ![A, B]⟩ ⟨2, ![M, B]⟩) (hD₁ : D₁ = DotDims.plain M A B)
    (D₂ : DotDims ⟨2, ![M, B]⟩ ⟨2, ![B, C]⟩ ⟨2, ![M, C]⟩) (hD₂ : D₂ = DotDims.plain M B C)
    (h1 : (⟨1, ![B]⟩ : Shape).BroadcastsInDim ⟨2, ![1, B]⟩ (![1] : Fin 1 → Fin 2))
    (h2 : (⟨2, ![1, B]⟩ : Shape).BroadcastsInDim ⟨2, ![M, B]⟩ (![0, 1] : Fin 2 → Fin 2))
    (h3 : (⟨1, ![C]⟩ : Shape).BroadcastsInDim ⟨2, ![1, C]⟩ (![1] : Fin 1 → Fin 2))
    (h4 : (⟨2, ![1, C]⟩ : Shape).BroadcastsInDim ⟨2, ![M, C]⟩ (![0, 1] : Fin 2 → Fin 2))
    (h0 : (⟨0, ![]⟩ : Shape).BroadcastsInDim ⟨2, ![M, B]⟩ (![] : Fin 0 → Fin 2))
    (cat : FVec Ideal ⟨2, ![M, A]⟩ .f32) (W₁ : FVec Ideal ⟨2, ![A, B]⟩ .f32) (b₁ : FVec Ideal ⟨1, ![B]⟩ .f32)
    (W₂ : FVec Ideal ⟨2, ![B, C]⟩ .f32) (b₂ : FVec Ideal ⟨1, ![C]⟩ .f32) :
    addf (Host.dotGeneral D₂ none
        (maximumf (addf (Host.dotGeneral D₁ none cat W₁) (broadcastInDim ⟨2, ![M, B]⟩ ![0, 1] h2 (broadcastInDim ⟨2, ![1, B]⟩ ![1] h1 b₁)))
          (broadcastInDim ⟨2, ![M, B]⟩ ![] h0 (constant (F := Ideal) ⟨0, ![]⟩ .f32 0x00000000#32))) W₂)
      (broadcastInDim ⟨2, ![M, C]⟩ ![0, 1] h4 (broadcastInDim ⟨2, ![1, C]⟩ ![1] h3 b₂))
    = mlp cat W₁ (fun q => b₁ (ix1 q)) W₂ (fun q => b₂ (ix1 q)) := by
  rw [dotGeneral_eq_mm D₁ hD₁, dotGeneral_eq_mm D₂ hD₂, broadcastInDim_eq_rows b₁ h1 h2, broadcastInDim_eq_rows b₂ h3 h4,
    maximumf_bcast_zero]
  rfl

/-- The vector unit's spelling of the two dense layers, on a block of any height. -/
theorem mlp_vector {A B C : ℕ} (D₁ : DotDims ⟨2, ![M, A]⟩ ⟨2, ![A, B]⟩ ⟨2, ![M, B]⟩) (hD₁ : D₁ = DotDims.plain M A B)
    (D₂ : DotDims ⟨2, ![M, B]⟩ ⟨2, ![B, C]⟩ ⟨2, ![M, C]⟩) (hD₂ : D₂ = DotDims.plain M B C)
    (c1 : (⟨2, ![1, B]⟩ : Shape).ShapeCasts ⟨2, ![1, B]⟩) (c2 : (⟨2, ![1, C]⟩ : Shape).ShapeCasts ⟨2, ![1, C]⟩)
    (h1 : (⟨2, ![1, B]⟩ : Shape).Broadcasts ⟨2, ![M, B]⟩) (h2 : (⟨2, ![1, C]⟩ : Shape).Broadcasts ⟨2, ![M, C]⟩)
    (cat : FVec Ideal ⟨2, ![M, A]⟩ .f32) (W₁ : FVec Ideal ⟨2, ![A, B]⟩ .f32) (b₁ : FVec Ideal ⟨2, ![1, B]⟩ .f32)
    (W₂ : FVec Ideal ⟨2, ![B, C]⟩ .f32) (b₂ : FVec Ideal ⟨2, ![1, C]⟩ .f32) :
    addf (matmul D₂ none
        (maximumf (addf (matmul D₁ none cat W₁ (constant ⟨2, ![M, B]⟩ .f32 0x00000000#32)) (broadcastTo ⟨2, ![M, B]⟩ (shapeCast ⟨2, ![1, B]⟩ b₁ c1) h1))
          (broadcast ⟨2, ![M, B]⟩ (Scalar.ofBits (F := Ideal) .f32 0x00000000#32))) W₂ (constant ⟨2, ![M, C]⟩ .f32 0x00000000#32))
      (broadcastTo ⟨2, ![M, C]⟩ (shapeCast ⟨2, ![1, C]⟩ b₂ c2) h2)
    = mlp cat W₁ (fun q => b₁ (ix2 (0 : Fin 1) q)) W₂ (fun q => b₂ (ix2 (0 : Fin 1) q)) := by
  simp only [shapeCast_self, matmul_eq_mm D₁ hD₁, matmul_eq_mm D₂ hD₂, broadcastTo_eq_rows, maximumf_splat_zero]
  rfl

end Cert.RowNorm

end
-- ==== Proof.KerNormBlock.lean ====
/-
  One layer of the network on a block of rows, over the extended reals.

  A layer takes an array `X` of rows, multiplies it by a weight matrix, adds a bias row along every row, centres
  every column at a given mean row, scales it by the reciprocal root of a given variance row plus a constant, by a
  gain row, shifts it by an offset row and cuts at zero (`layerFn`). The head applies two dense layers to the
  result, the first cut at zero. Everything after the first product acts entry by entry within a row, and a row of a
  product depends only on that row of its left operand: so row `p` of a layer (or of the head) depends only on row
  `p` of `X`. That is what lets the layer computed on a block of consecutive rows be read as the same rows of the
  layer of the whole array.

  The vector unit spells the layer with a product accumulated into a zero splat, one-row arrays broadcast down
  the block and a maximum against a splat zero; on the extended reals a change of float format is the identity, so
  those spellings are the functions above.
-/
import proofs.«117873_j69002944578214_2_alg».proof.Proof.Gen.KernelIdeal.Skeleton
import proofs.«117873_j69002944578214_2_alg».proof.Proof.LibSgcSpec
import proofs.«117873_j69002944578214_2_alg».proof.Proof.LibRowNorm

noncomputable section

namespace Cert.KernelIdeal.RegionValue

open Idealize.ShloMosaic Idealize.ShloMosaic.ValueIdx
open Cert.KernelIdeal Cert.KernelIdeal.Gen
open Cert.DenseLib Cert.Sage Cert.Sgc

/-- The product's dimension record is the plain `[M, K] × [K, N]` one. -/
theorem dot_plain : dot_S5000x128_S128x128_S5000x128_1_0_0_1_n_n = DotDims.plain 5000 128 128 := rfl

/-- The zero offsets of a whole-buffer access. -/
theorem hz : (![0, 0] : Fin 2 → Nat) = fun _ => 0 := funext fun a => by fin_cases a <;> rfl

/-- The layer on an array of any height: `X · W + b`, every column centred at `mu`, scaled by
    `(var + eps)^(-1/2)` and by `g`, shifted by `be`, cut at zero; the parameters given as one-row arrays. -/
def layerFn {M : ℕ} (X : Mat M 128) (W : Mat 128 128) (b mu var g be : Mat 1 128) : Mat M 128 :=
  bnRelu eps (pre X W (rowVec b)) (rowVec mu) (rowVec var) (rowVec g) (rowVec be)

/-- The head on an array of any height: two dense layers, the first cut at zero; the biases given as one-row arrays. -/
def headFn {M : ℕ} (H : Mat M 128) (W₁ : Mat 128 128) (b₁ : Mat 1 128) (W₂ : Mat 128 128) (b₂ : Mat 1 128) : Mat M 128 :=
  proj H W₁ (rowVec b₁) W₂ (rowVec b₂)

/-- The vector unit's spelling of the layer on a block of 5000 rows (`x3` the mean row, `x4` the variance row). -/
theorem pay1_eq (x0 : Vec Ideal S5000x128 .f32) (x1 : Vec Ideal S128x128 .f32) (x2 x3 x4 x5 x6 : Vec Ideal S1x128 .f32) :
    k1_pay1 (F := Ideal) x0 x1 x2 x4 x3 x5 x6 = layerFn (M := 5000) x0 x1 x2 x3 x4 x5 x6 := by
  unfold k1_pay1
  simp only [shapeCast_self, truncf_eq, matmul_eq_mm _ dot_plain, broadcastTo_eq_rows, maximumf_splat_zero]
  rfl

/-- The same spelling in the fused body. -/
theorem pay2_eq (x0 : Vec Ideal S5000x128 .f32) (x1 : Vec Ideal S128x128 .f32) (x2 x3 x4 x5 x6 : Vec Ideal S1x128 .f32) :
    k3_pay2 (F := Ideal) x0 x1 x2 x4 x3 x5 x6 = layerFn (M := 5000) x0 x1 x2 x3 x4 x5 x6 := by
  unfold k3_pay2
  simp only [shapeCast_self, truncf_eq, matmul_eq_mm _ dot_plain, broadcastTo_eq_rows, maximumf_splat_zero]
  rfl

/-- The vector unit's spelling of the head applied to the layer, on a block of 5000 rows. -/
theorem payHead_eq (x0 : Vec Ideal S5000x128 .f32) (x1 : Vec Ideal S128x128 .f32) (x2 x3 x4 x5 x6 : Vec Ideal S1x128 .f32)
    (x7 : Vec Ideal S128x128 .f32) (x8 : Vec Ideal S1x128 .f32) (x9 : Vec Ideal S128x128 .f32) (x10 : Vec Ideal S1x128 .f32) :
    k3_pay1 (F := Ideal) (k3_pay3 x0 x1 x2 x4 x3 x5 x6) (k3_pay4 x7) x8 x9 x10
      = headFn (M := 5000) (layerFn (M := 5000) x0 x1 x2 x3 x4 x5 x6) x7 x8 x9 x10 := by
  unfold k3_pay1 k3_pay3 k3_pay4
  simp only [shapeCast_self, truncf_eq, matmul_eq_mm _ dot_plain, broadcastTo_eq_rows, maximumf_splat_zero, pay2_eq]
  rfl

/-- An entry of the layer depends on its row of the array only: two arrays, of any heights, that agree on a row of
    each (and equal parameters) give layers that agree on those rows, column by column. -/
theorem layerFn_entry {M M' : ℕ} (X' : Mat M' 128) (W' : Mat 128 128) (b' mu' var' g' be' : Mat 1 128)
    (X : Mat M 128) (W : Mat 128 128) (b mu var g be : Mat 1 128)
    (j : (⟨2, ![M', 128]⟩ : Shape).Idx) (i : (⟨2, ![M, 128]⟩ : Shape).Idx)
    (hq : (j 1).val = (i 1).val) (hx : ∀ k : Fin 128, X' (ix2 (n0 := M') (j 0) k) = X (ix2 (n0 := M) (i 0) k))
    (hW : W' = W) (hb : b' = b) (hmu : mu' = mu) (hvar : var' = var) (hg : g' = g) (hbe : be' = be) :
    layerFn X' W' b' mu' var' g' be' j = layerFn X W b mu var g be i := by
  subst hW hb hmu hvar hg hbe
  obtain ⟨p', q', rfl⟩ : ∃ (p' : Fin M') (q' : Fin 128), j = ix2 p' q' := ⟨j 0, j 1, eq_ix2 j⟩
  obtain ⟨p, q, rfl⟩ : ∃ (p : Fin M) (q : Fin 128), i = ix2 p q := ⟨i 0, i 1, eq_ix2 i⟩
  obtain rfl : q' = q := Fin.ext hq
  have hp : pre X' W' (rowVec b') (ix2 p' q') = pre X W' (rowVec b') (ix2 p q') :=
    Cert.RowBlocks.biased_eq_of_entry (mm X' W') _ (mm X W') _ (ix2 p' q') (ix2 p q') rfl rfl
      (Cert.RowBlocks.mm_eq_of_row X' W' X W' (ix2 p' q') (ix2 p q') rfl rfl hx)
  show max (((pre X' W' (rowVec b') (ix2 p' q') - rowVec mu' (ix1 q')) * Ideal.rsqrt (rowVec var' (ix1 q') + eps)) * rowVec g' (ix1 q') + rowVec be' (ix1 q')) 0
    = max (((pre X W' (rowVec b') (ix2 p q') - rowVec mu' (ix1 q')) * Ideal.rsqrt (rowVec var' (ix1 q') + eps)) * rowVec g' (ix1 q') + rowVec be' (ix1 q')) 0
  rw [hp]

/-- The same for the head: an entry depends on its row of the hidden array only. -/
theorem headFn_entry {M M' : ℕ} (H' : Mat M' 128) (W₁' : Mat 128 128) (b₁' : Mat 1 128) (W₂' : Mat 128 128) (b₂' : Mat 1 128)
    (H : Mat M 128) (W₁ : Mat 128 128) (b₁ : Mat 1 128) (W₂ : Mat 128 128) (b₂ : Mat 1 128)
    (j : (⟨2, ![M', 128]⟩ : Shape).Idx) (i : (⟨2, ![M, 128]⟩ : Shape).Idx)
    (hq : (j 1).val = (i 1).val) (hx : ∀ k : Fin 128, H' (ix2 (n0 := M') (j 0) k) = H (ix2 (n0 := M) (i 0) k))
    (hW₁ : W₁' = W₁) (hb₁ : b₁' = b₁) (hW₂ : W₂' = W₂) (hb₂ : b₂' = b₂) :
    headFn H' W₁' b₁' W₂' b₂' j = headFn H W₁ b₁ W₂ b₂ i := by
  subst hW₁ hb₁ hW₂ hb₂
  exact Cert.RowNorm.mlp_eq_of_row H' H W₁' (fun c => rowVec b₁' (ix1 c)) W₂' (fun c => rowVec b₂' (ix1 c)) j i hq hx

end Cert.KernelIdeal.RegionValue

end
-- ==== Proof.KerNorm.lean ====
/-
  The first normalised layer, computed block by block, as one function of the arrays the region is entered with.

  The grid has 20 points. At point `t` the body reads rows `5000 t, …, 5000 t + 4999` of the feature array and the
  whole of every parameter array (the weight matrix; the bias, mean, variance, gain and offset rows), and writes the
  layer of that block into rows `5000 t, …` of the output array. A row of the layer depends only on that row of the
  features, so what point `t` writes is block `t` of the layer of the WHOLE feature array; the 20 blocks tile the
  output array, so after the region it holds that layer.
-/
import proofs.«117873_j69002944578214_2_alg».proof.Proof.Gen.KernelIdeal.Frame
import proofs.«117873_j69002944578214_2_alg».proof.Proof.KerNormBlock
import Idealize.ShloMosaic.Lib.Pipeline.Value

set_option maxRecDepth 16384

noncomputable section

namespace Cert.KernelIdeal.RegionValue

open Idealize.ShloMosaic Idealize.ShloMosaic.ValueIdx Idealize.ShloMosaic.TcCoe
open Idealize.ShloMosaic.Pipeline (Dat)
open Cert.KernelIdeal Cert.KernelIdeal.Gen
open Cert.DenseLib Cert.Sage Cert.Sgc

variable (V : (c : Dev nD) → (b : Ref sig .tc) → Buf (Elt Ideal) ((c : Thread nD τ).loc b))

/-! ## The windows' blocks as parts of their arrays -/

/-- The printed index maps over the grid: the row-block windows move with the point, the parameter windows stay. -/
theorem idx1 : ∀ t : Fin cfg1.N, win1_0.index t (0 : Fin 2) = t.val ∧ win1_0.index t (1 : Fin 2) = 0
    ∧ win1_7.index t (0 : Fin 2) = t.val ∧ win1_7.index t (1 : Fin 2) = 0
    ∧ (∀ a : Fin 2, win1_1.index t a = 0) ∧ (∀ a : Fin 2, win1_2.index t a = 0) ∧ (∀ a : Fin 2, win1_3.index t a = 0)
    ∧ (∀ a : Fin 2, win1_4.index t a = 0) ∧ (∀ a : Fin 2, win1_5.index t a = 0) ∧ (∀ a : Fin 2, win1_6.index t a = 0) :=
  (by decide +kernel : ∀ t : Fin grid1.N, _)

/-- The feature window's block at point `t` is rows `5000 t, …, 5000 t + 4999` of its array. -/
theorem rows1_0 (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c (Pipeline.arrRef spec1 0) : S100000x128.Idx → EReal) k := by
  obtain ⟨e0, e1, -⟩ := idx1 t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- A parameter window's block is its whole array at every point. -/
theorem whole1_1 (c : Dev nD) (t : Fin cfg1.N) :
    (iblk1 V c 1 t : Vec Ideal S128x128 .f32) = (V c (Pipeline.arrRef spec1 1) : S128x128.Idx → EReal) := by
  obtain ⟨-, -, -, -, e, -⟩ := idx1 t
  funext x
  unfold iblk1
  rw [View.read_apply]
  show V c (Pipeline.arrRef spec1 1) _ = V c (Pipeline.arrRef spec1 1) _
  congr 1
  funext a
  apply Fin.ext
  match a with
  | ⟨0, _⟩ => show win1_1.index t 0 * 128 + 1 * (x 0).val = (x 0).val; rw [e 0]; omega
  | ⟨1, _⟩ => show win1_1.index t 1 * 128 + 1 * (x 1).val = (x 1).val; rw [e 1]; omega

theorem whole1_2 (c : Dev nD) (t : Fin cfg1.N) :
    (iblk1 V c 2 t : Vec Ideal S1x128 .f32) = (V c (Pipeline.arrRef spec1 2) : S1x128.Idx → EReal) := by
  obtain ⟨-, -, -, -, -, e, -⟩ := idx1 t
  funext x
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (x 0).val = (x 0).val; rw [e 0]; omega
  | ⟨1, _⟩ => show win1_2.index t 1 * 128 + 1 * (x 1).val = (x 1).val; rw [e 1]; omega

theorem whole1_3 (c : Dev nD) (t : Fin cfg1.N) :
    (iblk1 V c 3 t : Vec Ideal S1x128 .f32) = (V c (Pipeline.arrRef spec1 3) : S1x128.Idx → EReal) := by
  obtain ⟨-, -, -, -, -, -, e, -⟩ := idx1 t
  funext x
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * (x 0).val = (x 0).val; rw [e 0]; omega
  | ⟨1, _⟩ => show win1_3.index t 1 * 128 + 1 * (x 1).val = (x 1).val; rw [e 1]; omega

theorem whole1_4 (c : Dev nD) (t : Fin cfg1.N) :
    (iblk1 V c 4 t : Vec Ideal S1x128 .f32) = (V c (Pipeline.arrRef spec1 4) : S1x128.Idx → EReal) := by
  obtain ⟨-, -, -, -, -, -, -, e, -⟩ := idx1 t
  funext x
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (x 0).val = (x 0).val; rw [e 0]; omega
  | ⟨1, _⟩ => show win1_4.index t 1 * 128 + 1 * (x 1).val = (x 1).val; rw [e 1]; omega

theorem whole1_5 (c : Dev nD) (t : Fin cfg1.N) :
    (iblk1 V c 5 t : Vec Ideal S1x128 .f32) = (V c (Pipeline.arrRef spec1 5) : S1x128.Idx → EReal) := by
  obtain ⟨-, -, -, -, -, -, -, -, e, -⟩ := idx1 t
  funext x
  unfold iblk1
  rw [View.read_apply]
  show V c (Pipeline.arrRef spec1 5) _ = V c (Pipeline.arrRef spec1 5) _
  congr 1
  funext a
  apply Fin.ext
  match a with
  | ⟨0, _⟩ => show win1_5.index t 0 * 1 + 1 * (x 0).val = (x 0).val; rw [e 0]; omega
  | ⟨1, _⟩ => show win1_5.index t 1 * 128 + 1 * (x 1).val = (x 1).val; rw [e 1]; omega

theorem whole1_6 (c : Dev nD) (t : Fin cfg1.N) :
    (iblk1 V c 6 t : Vec Ideal S1x128 .f32) = (V c (Pipeline.arrRef spec1 6) : S1x128.Idx → EReal) := by
  obtain ⟨-, -, -, -, -, -, -, -, -, e⟩ := idx1 t
  funext x
  unfold iblk1
  rw [View.read_apply]
  show V c (Pipeline.arrRef spec1 6) _ = V c (Pipeline.arrRef spec1 6) _
  congr 1
  funext a
  apply Fin.ext
  match a with
  | ⟨0, _⟩ => show win1_6.index t 0 * 1 + 1 * (x 0).val = (x 0).val; rw [e 0]; omega
  | ⟨1, _⟩ => show win1_6.index t 1 * 128 + 1 * (x 1).val = (x 1).val; rw [e 1]; omega

/-! ## The output array -/

/-- The layer of the arrays as the region finds them. -/
def G1 (c : Dev nD) : S100000x128.Idx → EReal :=
  layerFn (M := 100000) (V c (Pipeline.arrRef spec1 0) : S100000x128.Idx → EReal) (V c (Pipeline.arrRef spec1 1) : S128x128.Idx → EReal)
    (V c (Pipeline.arrRef spec1 2) : S1x128.Idx → EReal) (V c (Pipeline.arrRef spec1 3) : S1x128.Idx → EReal)
    (V c (Pipeline.arrRef spec1 4) : S1x128.Idx → EReal) (V c (Pipeline.arrRef spec1 5) : S1x128.Idx → EReal)
    (V c (Pipeline.arrRef spec1 6) : S1x128.Idx → EReal)

/-- What point `t` writes back is block `t` of the layer of the whole arrays. -/
theorem flushed1_7 (c : Dev nD) (t : Fin cfg1.N) :
    (dat1 (F := Ideal) V c).flushed 7 t = ((cfg1.win 7).blk t).view.read (Elt Ideal) (G1 V c) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S128x128) hz, View.ld_unit_zero (S := S1x128) hz]
  rw [pay1_eq]
  obtain ⟨-, -, e0, e1, -⟩ := idx1 t
  funext j
  rw [View.read_apply]
  show layerFn (M := 5000) (iblk1 V c 0 t) (iblk1 V c 1 t) (iblk1 V c 2 t) (iblk1 V c 3 t) (iblk1 V c 4 t) (iblk1 V c 5 t) (iblk1 V c 6 t) j
    = G1 V c (((cfg1.win 7).blk t).view.emb j)
  unfold G1
  have h0 : ((((cfg1.win 7).blk t).view.emb j) 0).val = t.val * 5000 + (j 0).val := by
    show win1_7.index t 0 * 5000 + 1 * (j 0).val = _; rw [e0]; omega
  have h1 : ((((cfg1.win 7).blk t).view.emb j) 1).val = (j 1).val := by
    show win1_7.index t 1 * 128 + 1 * (j 1).val = _; rw [e1]; omega
  refine layerFn_entry _ _ _ _ _ _ _ _ _ _ _ _ _ _ j _ h1.symm (fun k => ?_) (whole1_1 V c t) (whole1_2 V c t) (whole1_3 V c t)
    (whole1_4 V c t) (whole1_5 V c t) (whole1_6 V c t)
  exact rows1_0 V c t _ _ h0 rfl

/-- An index of the output array is in point `t`'s block iff each coordinate is in the block's range on its axis. -/
theorem mem_blk1_7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v34).slice (win1_7.rect t)).set ↔ _
  rw [View.set_slice_whole, Rect.mem_set_unit]
  exact Iff.rfl

/-- The blocks tile the output array: row `r` is in the block of point `r / 5000`. -/
theorem tiles1_7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, e0, e1, -⟩ := idx1 ⟨(i 0).val / 5000, ht⟩
  refine ⟨⟨(i 0).val / 5000, ht⟩, flush1_7 _, ?_⟩
  rw [mem_blk1_7]
  intro a
  match a with
  | ⟨0, _⟩ =>
    show win1_7.index ⟨(i 0).val / 5000, ht⟩ 0 * 5000 ≤ (i 0).val ∧ (i 0).val < win1_7.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_7.index ⟨(i 0).val / 5000, ht⟩ 1 * 128 ≤ (i 1).val ∧ (i 1).val < win1_7.index ⟨(i 0).val / 5000, ht⟩ 1 * 128 + 128
    rw [e1]
    omega

/-- After the region the output array holds the layer of the arrays the region was entered with: window 0 the
    features, 1 the weight matrix, 2 the bias row, 3 the mean row, 4 the variance row, 5 the gain row, 6 the offset row. -/
theorem norm1 (c : Dev nD) :
    (dat1 (F := Ideal) V c).arrAt 7 cfg1.N
      = bnRelu eps (pre (V c (Pipeline.arrRef spec1 0) : S100000x128.Idx → EReal) (V c (Pipeline.arrRef spec1 1) : S128x128.Idx → EReal) (rowVec (V c (Pipeline.arrRef spec1 2) : S1x128.Idx → EReal)))
          (rowVec (V c (Pipeline.arrRef spec1 3) : S1x128.Idx → EReal)) (rowVec (V c (Pipeline.arrRef spec1 4) : S1x128.Idx → EReal))
          (rowVec (V c (Pipeline.arrRef spec1 5) : S1x128.Idx → EReal)) (rowVec (V c (Pipeline.arrRef spec1 6) : S1x128.Idx → EReal)) :=
  (dat1 (F := Ideal) V c).arrAt_eq_of_cover 7 (G1 V c) (fun t _ => flushed1_7 V c t) tiles1_7

end Cert.KernelIdeal.RegionValue

end
-- ==== Proof.KerNormProj.lean ====
/-
  The second normalised layer fused with the two-layer head, computed block by block, as functions of the arrays
  the region is entered with.

  The grid has 20 points. At point `t` the body reads rows `5000 t, …, 5000 t + 4999` of the feature array and the
  whole of every parameter array (the layer's weight matrix, bias, mean, variance, gain and offset rows; the head's
  two weight matrices and two bias rows), writes the layer of that block into rows `5000 t, …` of the first output
  array and the head of that layer into the same rows of the second. A row of the layer depends only on that row of
  the features, and a row of the head only on that row of the layer: so what point `t` writes is block `t` of the
  layer, and of the head of the layer, of the WHOLE feature array; the 20 blocks tile each output array.
-/
import proofs.«117873_j69002944578214_2_alg».proof.Proof.Gen.KernelIdeal.Frame
import proofs.«117873_j69002944578214_2_alg».proof.Proof.KerNormBlock
import Idealize.ShloMosaic.Lib.Pipeline.Value

set_option maxRecDepth 16384

noncomputable section

namespace Cert.KernelIdeal.RegionValue

open Idealize.ShloMosaic Idealize.ShloMosaic.ValueIdx Idealize.ShloMosaic.TcCoe
open Idealize.ShloMosaic.Pipeline (Dat)
open Cert.KernelIdeal Cert.KernelIdeal.Gen
open Cert.DenseLib Cert.Sage Cert.Sgc

variable (V : (c : Dev nD) → (b : Ref sig .tc) → Buf (Elt Ideal) ((c : Thread nD τ).loc b))

/-! ## The windows' blocks as parts of their arrays -/

/-- The printed index maps over the grid: the row-block windows move with the point, the parameter windows stay. -/
theorem idx3 : ∀ t : Fin cfg3.N, win3_0.index t (0 : Fin 2) = t.val ∧ win3_0.index t (1 : Fin 2) = 0
    ∧ win3_11.index t (0 : Fin 2) = t.val ∧ win3_11.index t (1 : Fin 2) = 0
    ∧ win3_12.index t (0 : Fin 2) = t.val ∧ win3_12.index t (1 : Fin 2) = 0
    ∧ (∀ a : Fin 2, win3_1.index t a = 0) ∧ (∀ a : Fin 2, win3_2.index t a = 0) ∧ (∀ a : Fin 2, win3_3.index t a = 0)
    ∧ (∀ a : Fin 2, win3_4.index t a = 0) ∧ (∀ a : Fin 2, win3_5.index t a = 0) ∧ (∀ a : Fin 2, win3_6.index t a = 0)
    ∧ (∀ a : Fin 2, win3_7.index t a = 0) ∧ (∀ a : Fin 2, win3_8.index t a = 0) ∧ (∀ a : Fin 2, win3_9.index t a = 0)
    ∧ (∀ a : Fin 2, win3_10.index t a = 0) :=
  (by decide +kernel : ∀ t : Fin grid3.N, _)

/-- The feature window's block at point `t` is rows `5000 t, …, 5000 t + 4999` of its array. -/
theorem rows3_0 (c : Dev nD) (t : Fin cfg3.N) (x : S5000x128.Idx) (k : S100000x128.Idx)
    (hk0 : (k 0).val = t.val * 5000 + (x 0).val) (hk1 : (k 1).val = (x 1).val) :
    (iblk3 V c 0 t : Vec Ideal S5000x128 .f32) x = (V c (Pipeline.arrRef spec3 0) : S100000x128.Idx → EReal) k := by
  obtain ⟨e0, e1, -⟩ := idx3 t
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- A parameter window's block is its whole array at every point. -/
theorem whole3_1 (c : Dev nD) (t : Fin cfg3.N) :
    (iblk3 V c 1 t : Vec Ideal S128x128 .f32) = (V c (Pipeline.arrRef spec3 1) : S128x128.Idx → EReal) := by
  obtain ⟨-, -, -, -, -, -, e, -⟩ := idx3 t
  funext x
  unfold iblk3
  rw [View.read_apply]
  show V c (Pipeline.arrRef spec3 1) _ = V c (Pipeline.arrRef spec3 1) _
  congr 1
  funext a
  apply Fin.ext
  match a with
  | ⟨0, _⟩ => show win3_1.index t 0 * 128 + 1 * (x 0).val = (x 0).val; rw [e 0]; omega
  | ⟨1, _⟩ => show win3_1.index t 1 * 128 + 1 * (x 1).val = (x 1).val; rw [e 1]; omega

theorem whole3_2 (c : Dev nD) (t : Fin cfg3.N) :
    (iblk3 V c 2 t : Vec Ideal S1x128 .f32) = (V c (Pipeline.arrRef spec3 2) : S1x128.Idx → EReal) := by
  obtain ⟨-, -, -, -, -, -, -, e, -⟩ := idx3 t
  funext x
  unfold iblk3
  rw [View.read_apply]
  show V c (Pipeline.arrRef spec3 2) _ = V c (Pipeline.arrRef spec3 2) _
  congr 1
  funext a
  apply Fin.ext
  match a with
  | ⟨0, _⟩ => show win3_2.index t 0 * 1 + 1 * (x 0).val = (x 0).val; rw [e 0]; omega
  | ⟨1, _⟩ => show win3_2.index t 1 * 128 + 1 * (x 1).val = (x 1).val; rw [e 1]; omega

theorem whole3_3 (c : Dev nD) (t : Fin cfg3.N) :
    (iblk3 V c 3 t : Vec Ideal S1x128 .f32) = (V c (Pipeline.arrRef spec3 3) : S1x128.Idx → EReal) := by
  obtain ⟨-, -, -, -, -, -, -, -, e, -⟩ := idx3 t
  funext x
  unfold iblk3
  rw [View.read_apply]
  show V c (Pipeline.arrRef spec3 3) _ = V c (Pipeline.arrRef spec3 3) _
  congr 1
  funext a
  apply Fin.ext
  match a with
  | ⟨0, _⟩ => show win3_3.index t 0 * 1 + 1 * (x 0).val = (x 0).val; rw [e 0]; omega
  | ⟨1, _⟩ => show win3_3.index t 1 * 128 + 1 * (x 1).val = (x 1).val; rw [e 1]; omega

theorem whole3_4 (c : Dev nD) (t : Fin cfg3.N) :
    (iblk3 V c 4 t : Vec Ideal S1x128 .f32) = (V c (Pipeline.arrRef spec3 4) : S1x128.Idx → EReal) := by
  obtain ⟨-, -, -, -, -, -, -, -, -, e, -⟩ := idx3 t
  funext x
  unfold iblk3
  rw [View.read_apply]
  show V c (Pipeline.arrRef spec3 4) _ = V c (Pipeline.arrRef spec3 4) _
  congr 1
  funext a
  apply Fin.ext
  match a with
  | ⟨0, _⟩ => show win3_4.index t 0 * 1 + 1 * (x 0).val = (x 0).val; rw [e 0]; omega
  | ⟨1, _⟩ => show win3_4.index t 1 * 128 + 1 * (x 1).val = (x 1).val; rw [e 1]; omega

theorem whole3_5 (c : Dev nD) (t : Fin cfg3.N) :
    (iblk3 V c 5 t : Vec Ideal S1x128 .f32) = (V c (Pipeline.arrRef spec3 5) : S1x128.Idx → EReal) := by
  obtain ⟨-, -, -, -, -, -, -, -, -, -, e, -⟩ := idx3 t
  funext x
  unfold iblk3
  rw [View.read_apply]
  show V c (Pipeline.arrRef spec3 5) _ = V c (Pipeline.arrRef spec3 5) _
  congr 1
  funext a
  apply Fin.ext
  match a with
  | ⟨0, _⟩ => show win3_5.index t 0 * 1 + 1 * (x 0).val = (x 0).val; rw [e 0]; omega
  | ⟨1, _⟩ => show win3_5.index t 1 * 128 + 1 * (x 1).val = (x 1).val; rw [e 1]; omega

theorem whole3_6 (c : Dev nD) (t : Fin cfg3.N) :
    (iblk3 V c 6 t : Vec Ideal S1x128 .f32) = (V c (Pipeline.arrRef spec3 6) : S1x128.Idx → EReal) := by
  obtain ⟨-, -, -, -, -, -, -, -, -, -, -, e, -⟩ := idx3 t
  funext x
  unfold iblk3
  rw [View.read_apply]
  show V c (Pipeline.arrRef spec3 6) _ = V c (Pipeline.arrRef spec3 6) _
  congr 1
  funext a
  apply Fin.ext
  match a with
  | ⟨0, _⟩ => show win3_6.index t 0 * 1 + 1 * (x 0).val = (x 0).val; rw [e 0]; omega
  | ⟨1, _⟩ => show win3_6.index t 1 * 128 + 1 * (x 1).val = (x 1).val; rw [e 1]; omega

theorem whole3_7 (c : Dev nD) (t : Fin cfg3.N) :
    (iblk3 V c 7 t : Vec Ideal S128x128 .f32) = (V c (Pipeline.arrRef spec3 7) : S128x128.Idx → EReal) := by
  obtain ⟨-, -, -, -, -, -, -, -, -, -, -, -, e, -⟩ := idx3 t
  funext x
  unfold iblk3
  rw [View.read_apply]
  show V c (Pipeline.arrRef spec3 7) _ = V c (Pipeline.arrRef spec3 7) _
  congr 1
  funext a
  apply Fin.ext
  match a with
  | ⟨0, _⟩ => show win3_7.index t 0 * 128 + 1 * (x 0).val = (x 0).val; rw [e 0]; omega
  | ⟨1, _⟩ => show win3_7.index t 1 * 128 + 1 * (x 1).val = (x 1).val; rw [e 1]; omega

theorem whole3_8 (c : Dev nD) (t : Fin cfg3.N) :
    (iblk3 V c 8 t : Vec Ideal S1x128 .f32) = (V c (Pipeline.arrRef spec3 8) : S1x128.Idx → EReal) := by
  obtain ⟨-, -, -, -, -, -, -, -, -, -, -, -, -, e, -⟩ := idx3 t
  funext x
  unfold iblk3
  rw [View.read_apply]
  show V c (Pipeline.arrRef spec3 8) _ = V c (Pipeline.arrRef spec3 8) _
  congr 1
  funext a
  apply Fin.ext
  match a with
  | ⟨0, _⟩ => show win3_8.index t 0 * 1 + 1 * (x 0).val = (x 0).val; rw [e 0]; omega
  | ⟨1, _⟩ => show win3_8.index t 1 * 128 + 1 * (x 1).val = (x 1).val; rw [e 1]; omega

theorem whole3_9 (c : Dev nD) (t : Fin cfg3.N) :
    (iblk3 V c 9 t : Vec Ideal S128x128 .f32) = (V c (Pipeline.arrRef spec3 9) : S128x128.Idx → EReal) := by
  obtain ⟨-, -, -, -, -, -, -, -, -, -, -, -, -, -, e, -⟩ := idx3 t
  funext x
  unfold iblk3
  rw [View.read_apply]
  show V c (Pipeline.arrRef spec3 9) _ = V c (Pipeline.arrRef spec3 9) _
  congr 1
  funext a
  apply Fin.ext
  match a with
  | ⟨0, _⟩ => show win3_9.index t 0 * 128 + 1 * (x 0).val = (x 0).val; rw [e 0]; omega
  | ⟨1, _⟩ => show win3_9.index t 1 * 128 + 1 * (x 1).val = (x 1).val; rw [e 1]; omega

theorem whole3_10 (c : Dev nD) (t : Fin cfg3.N) :
    (iblk3 V c 10 t : Vec Ideal S1x128 .f32) = (V c (Pipeline.arrRef spec3 10) : S1x128.Idx → EReal) := by
  obtain ⟨-, -, -, -, -, -, -, -, -, -, -, -, -, -, -, e⟩ := idx3 t
  funext x
  unfold iblk3
  rw [View.read_apply]
  show V c (Pipeline.arrRef spec3 10) _ = V c (Pipeline.arrRef spec3 10) _
  congr 1
  funext a
  apply Fin.ext
  match a with
  | ⟨0, _⟩ => show win3_10.index t 0 * 1 + 1 * (x 0).val = (x 0).val; rw [e 0]; omega
  | ⟨1, _⟩ => show win3_10.index t 1 * 128 + 1 * (x 1).val = (x 1).val; rw [e 1]; omega

/-! ## The output arrays -/

/-- The layer of the arrays as the region finds them. -/
def G3h (c : Dev nD) : S100000x128.Idx → EReal :=
  layerFn (M := 100000) (V c (Pipeline.arrRef spec3 0) : S100000x128.Idx → EReal) (V c (Pipeline.arrRef spec3 1) : S128x128.Idx → EReal)
    (V c (Pipeline.arrRef spec3 2) : S1x128.Idx → EReal) (V c (Pipeline.arrRef spec3 3) : S1x128.Idx → EReal)
    (V c (Pipeline.arrRef spec3 4) : S1x128.Idx → EReal) (V c (Pipeline.arrRef spec3 5) : S1x128.Idx → EReal)
    (V c (Pipeline.arrRef spec3 6) : S1x128.Idx → EReal)

/-- The head of that layer. -/
def G3z (c : Dev nD) : S100000x128.Idx → EReal :=
  headFn (M := 100000) (G3h V c) (V c (Pipeline.arrRef spec3 7) : S128x128.Idx → EReal) (V c (Pipeline.arrRef spec3 8) : S1x128.Idx → EReal)
    (V c (Pipeline.arrRef spec3 9) : S128x128.Idx → EReal) (V c (Pipeline.arrRef spec3 10) : S1x128.Idx → EReal)

/-- A row of the layer of point `t`'s block is the row `5000 t + …` of the layer of the whole arrays. -/
theorem layer_block (c : Dev nD) (t : Fin cfg3.N) (j : S5000x128.Idx) (i : S100000x128.Idx)
    (h0 : (i 0).val = t.val * 5000 + (j 0).val) (h1 : (j 1).val = (i 1).val) :
    layerFn (M := 5000) (iblk3 V c 0 t) (iblk3 V c 1 t) (iblk3 V c 2 t) (iblk3 V c 3 t) (iblk3 V c 4 t) (iblk3 V c 5 t) (iblk3 V c 6 t) j
      = G3h V c i := by
  unfold G3h
  refine layerFn_entry _ _ _ _ _ _ _ _ _ _ _ _ _ _ j i h1 (fun k => ?_) (whole3_1 V c t) (whole3_2 V c t) (whole3_3 V c t)
    (whole3_4 V c t) (whole3_5 V c t) (whole3_6 V c t)
  exact rows3_0 V c t _ _ h0 rfl

/-- What point `t` writes back to the first output is block `t` of the layer of the whole arrays. -/
theorem flushed3_11 (c : Dev nD) (t : Fin cfg3.N) :
    (dat3 (F := Ideal) V c).flushed 11 t = ((cfg3.win 11).blk t).view.read (Elt Ideal) (G3h V c) := by
  show (cfg3.win 11).cut (grid3.coords t) ((dat3 (F := Ideal) V c).after 11 t) = _
  rw [after3_11]
  unfold out3_11
  rw [View.canon_unit_zero hz]
  simp only [View.ld_unit_zero (S := S5000x128) hz, View.ld_unit_zero (S := S128x128) hz, View.ld_unit_zero (S := S1x128) hz]
  rw [pay2_eq]
  obtain ⟨-, -, e0, e1, -⟩ := idx3 t
  funext j
  rw [View.read_apply]
  show layerFn (M := 5000) (iblk3 V c 0 t) (iblk3 V c 1 t) (iblk3 V c 2 t) (iblk3 V c 3 t) (iblk3 V c 4 t) (iblk3 V c 5 t) (iblk3 V c 6 t) j
    = G3h V c (((cfg3.win 11).blk t).view.emb j)
  have h0 : ((((cfg3.win 11).blk t).view.emb j) 0).val = t.val * 5000 + (j 0).val := by
    show win3_11.index t 0 * 5000 + 1 * (j 0).val = _; rw [e0]; omega
  have h1 : ((((cfg3.win 11).blk t).view.emb j) 1).val = (j 1).val := by
    show win3_11.index t 1 * 128 + 1 * (j 1).val = _; rw [e1]; omega
  exact layer_block V c t j _ h0 h1.symm

/-- What point `t` writes back to the second output is block `t` of the head of the layer of the whole arrays. -/
theorem flushed3_12 (c : Dev nD) (t : Fin cfg3.N) :
    (dat3 (F := Ideal) V c).flushed 12 t = ((cfg3.win 12).blk t).view.read (Elt Ideal) (G3z V c) := by
  show (cfg3.win 12).cut (grid3.coords t) ((dat3 (F := Ideal) V c).after 12 t) = _
  rw [after3_12]
  unfold out3_12
  rw [View.canon_unit_zero hz]
  simp only [View.ld_unit_zero (S := S5000x128) hz, View.ld_unit_zero (S := S128x128) hz, View.ld_unit_zero (S := S1x128) hz]
  rw [payHead_eq]
  obtain ⟨-, -, -, -, e0, e1, -⟩ := idx3 t
  funext j
  rw [View.read_apply]
  show headFn (M := 5000) (layerFn (M := 5000) (iblk3 V c 0 t) (iblk3 V c 1 t) (iblk3 V c 2 t) (iblk3 V c 3 t) (iblk3 V c 4 t) (iblk3 V c 5 t) (iblk3 V c 6 t))
      (iblk3 V c 7 t) (iblk3 V c 8 t) (iblk3 V c 9 t) (iblk3 V c 10 t) j
    = G3z V c (((cfg3.win 12).blk t).view.emb j)
  unfold G3z
  have h0 : ((((cfg3.win 12).blk t).view.emb j) 0).val = t.val * 5000 + (j 0).val := by
    show win3_12.index t 0 * 5000 + 1 * (j 0).val = _; rw [e0]; omega
  have h1 : ((((cfg3.win 12).blk t).view.emb j) 1).val = (j 1).val := by
    show win3_12.index t 1 * 128 + 1 * (j 1).val = _; rw [e1]; omega
  refine headFn_entry _ _ _ _ _ _ _ _ _ _ j _ h1.symm (fun k => ?_) (whole3_7 V c t) (whole3_8 V c t) (whole3_9 V c t) (whole3_10 V c t)
  exact layer_block V c t _ _ h0 rfl

/-- An index of the output array is in point `t`'s block iff each coordinate is in the block's range on its axis. -/
theorem mem_blk3_11 (t : Fin cfg3.N) (i : S100000x128.Idx) :
    i ∈ ((cfg3.win 11).blk t).view.set ↔ ∀ a : Fin 2, win3_11.index t a * S5000x128.size a ≤ (i a).val ∧ (i a).val < win3_11.index t a * S5000x128.size a + S5000x128.size a := by
  show i ∈ ((View.whole main_v69_0).slice (win3_11.rect t)).set ↔ _
  rw [View.set_slice_whole, Rect.mem_set_unit]
  exact Iff.rfl

/-- The blocks tile the output array: row `r` is in the block of point `r / 5000`. -/
theorem tiles3_11 (i : S100000x128.Idx) :
    ∃ t : Fin cfg3.N, (cfg3.win 11).flush t = true ∧ i ∈ ((cfg3.win 11).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, e0, e1, -⟩ := idx3 ⟨(i 0).val / 5000, ht⟩
  refine ⟨⟨(i 0).val / 5000, ht⟩, flush3_11 _, ?_⟩
  rw [mem_blk3_11]
  intro a
  match a with
  | ⟨0, _⟩ =>
    show win3_11.index ⟨(i 0).val / 5000, ht⟩ 0 * 5000 ≤ (i 0).val ∧ (i 0).val < win3_11.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win3_11.index ⟨(i 0).val / 5000, ht⟩ 1 * 128 ≤ (i 1).val ∧ (i 1).val < win3_11.index ⟨(i 0).val / 5000, ht⟩ 1 * 128 + 128
    rw [e1]
    omega

/-- An index of the output array is in point `t`'s block iff each coordinate is in the block's range on its axis. -/
theorem mem_blk3_12 (t : Fin cfg3.N) (i : S100000x128.Idx) :
    i ∈ ((cfg3.win 12).blk t).view.set ↔ ∀ a : Fin 2, win3_12.index t a * S5000x128.size a ≤ (i a).val ∧ (i a).val < win3_12.index t a * S5000x128.size a + S5000x128.size a := by
  show i ∈ ((View.whole main_v69_1).slice (win3_12.rect t)).set ↔ _
  rw [View.set_slice_whole, Rect.mem_set_unit]
  exact Iff.rfl

/-- The blocks tile the output array: row `r` is in the block of point `r / 5000`. -/
theorem tiles3_12 (i : S100000x128.Idx) :
    ∃ t : Fin cfg3.N, (cfg3.win 12).flush t = true ∧ i ∈ ((cfg3.win 12).blk t).view.set := by
  have hi0 : (i 0).val < 100000 := (i 0).isLt
  have hi1 : (i 1).val < 128 := (i 1).isLt
  have hN : cfg3.N = 20 := N_3
  have ht : (i 0).val / 5000 < cfg3.N := by rw [hN]; omega
  obtain ⟨-, -, -, -, e0, e1, -⟩ := idx3 ⟨(i 0).val / 5000, ht⟩
  refine ⟨⟨(i 0).val / 5000, ht⟩, flush3_12 _, ?_⟩
  rw [mem_blk3_12]
  intro a
  match a with
  | ⟨0, _⟩ =>
    show win3_12.index ⟨(i 0).val / 5000, ht⟩ 0 * 5000 ≤ (i 0).val ∧ (i 0).val < win3_12.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win3_12.index ⟨(i 0).val / 5000, ht⟩ 1 * 128 ≤ (i 1).val ∧ (i 1).val < win3_12.index ⟨(i 0).val / 5000, ht⟩ 1 * 128 + 128
    rw [e1]
    omega

/-- After the region the first output array holds the layer of the arrays the region was entered with: window 0 the
    features, 1 the weight matrix, 2 the bias row, 3 the mean row, 4 the variance row, 5 the gain row, 6 the offset row. -/
theorem norm3_h (c : Dev nD) :
    (dat3 (F := Ideal) V c).arrAt 11 cfg3.N
      = bnRelu eps (pre (V c (Pipeline.arrRef spec3 0) : S100000x128.Idx → EReal) (V c (Pipeline.arrRef spec3 1) : S128x128.Idx → EReal) (rowVec (V c (Pipeline.arrRef spec3 2) : S1x128.Idx → EReal)))
          (rowVec (V c (Pipeline.arrRef spec3 3) : S1x128.Idx → EReal)) (rowVec (V c (Pipeline.arrRef spec3 4) : S1x128.Idx → EReal))
          (rowVec (V c (Pipeline.arrRef spec3 5) : S1x128.Idx → EReal)) (rowVec (V c (Pipeline.arrRef spec3 6) : S1x128.Idx → EReal)) :=
  (dat3 (F := Ideal) V c).arrAt_eq_of_cover 11 (G3h V c) (fun t _ => flushed3_11 V c t) tiles3_11

/-- and the second the head of that layer: windows 7 and 9 the head's weight matrices, 8 and 10 its bias rows. -/
theorem norm3_z (c : Dev nD) :
    (dat3 (F := Ideal) V c).arrAt 12 cfg3.N
      = proj (bnRelu eps (pre (V c (Pipeline.arrRef spec3 0) : S100000x128.Idx → EReal) (V c (Pipeline.arrRef spec3 1) : S128x128.Idx → EReal) (rowVec (V c (Pipeline.arrRef spec3 2) : S1x128.Idx → EReal)))
          (rowVec (V c (Pipeline.arrRef spec3 3) : S1x128.Idx → EReal)) (rowVec (V c (Pipeline.arrRef spec3 4) : S1x128.Idx → EReal))
          (rowVec (V c (Pipeline.arrRef spec3 5) : S1x128.Idx → EReal)) (rowVec (V c (Pipeline.arrRef spec3 6) : S1x128.Idx → EReal)))
          (V c (Pipeline.arrRef spec3 7) : S128x128.Idx → EReal) (rowVec (V c (Pipeline.arrRef spec3 8) : S1x128.Idx → EReal))
          (V c (Pipeline.arrRef spec3 9) : S128x128.Idx → EReal) (rowVec (V c (Pipeline.arrRef spec3 10) : S1x128.Idx → EReal)) :=
  (dat3 (F := Ideal) V c).arrAt_eq_of_cover 12 (G3z V c) (fun t _ => flushed3_12 V c t) tiles3_12

end Cert.KernelIdeal.RegionValue

end
-- ==== Proof.KerChain.lean ====
/-
  The three results of the idealized kernel program, read out of the last boundary's contents back to the
  arguments: each host stretch is read as the specification's function of the buffers it reads, each region's output
  array as that region's whole-array function of its input arrays, and a buffer no stretch and no region writes is
  followed back to where it was made.
-/
import proofs.«117873_j69002944578214_2_alg».proof.Proof.KerRun
import proofs.«117873_j69002944578214_2_alg».proof.Proof.LibSgcHost
import proofs.«117873_j69002944578214_2_alg».proof.Proof.LibSgcPropHost
import proofs.«117873_j69002944578214_2_alg».proof.Proof.KerStats
import proofs.«117873_j69002944578214_2_alg».proof.Proof.KerLinear
import proofs.«117873_j69002944578214_2_alg».proof.Proof.KerNorm
import proofs.«117873_j69002944578214_2_alg».proof.Proof.KerNormProj
import Idealize.ShloMosaic.PureOps.Ideal

set_option maxRecDepth 16384

noncomputable section

namespace Cert.KernelIdeal.KerValue

open Idealize.ShloMosaic Idealize.ShloMosaic.TcCoe Idealize.ShloMosaic.ValueIdx Idealize.SL.Sem
open Cert.KernelIdeal Cert.KernelIdeal.Gen
open Cert.DenseLib Cert.RowsLib Cert.ScatterLib Cert.LayoutLib Cert.Sage Cert.Gcn

/-- A buffer none of a stretch's operations writes holds after the stretch what it held before. -/
local macro "unwritten " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg) (c : Dev nD)

/-- The edges' source ends: row 0 of the edge index. -/
def srcVec : IVec S1600000 32 :=
  shapeCast S1600000 (extractStridedSlice S1x1600000 ![0, 0] (m ((c : Thread nD τ).loc main_arg1))
    slices_S2x1600000_S1x1600000_0_0) shapeCasts_S1x1600000_S1600000

/-- The edges' destination ends: row 1 of the edge index. -/
def dstVec : IVec S1600000 32 :=
  shapeCast S1600000 (extractStridedSlice S1x1600000 ![1, 0] (m ((c : Thread nD τ).loc main_arg1))
    slices_S2x1600000_S1x1600000_1_0) shapeCasts_S1x1600000_S1600000

/-- The network's arguments as the program's launch memory holds them: the source column with negative entries
    wrapped by the node count, the destination column as it is. -/
def args : Cert.Sgc.Args where
  x := m ((c : Thread nD τ).loc main_arg0)
  src := wrapCol bcast_S1600000_S1600000x1_0 bcast_S_S1600000 100000#32 (srcVec m c)
  dst := rawCol bcast_S1600000_S1600000x1_0 (dstVec m c)
  ew := m ((c : Thread nD τ).loc main_arg2)
  W1 := m ((c : Thread nD τ).loc main_arg3)
  b1 := m ((c : Thread nD τ).loc main_arg4)
  W2 := m ((c : Thread nD τ).loc main_arg5)
  b2 := m ((c : Thread nD τ).loc main_arg6)
  W3 := m ((c : Thread nD τ).loc main_arg7)
  b3 := m ((c : Thread nD τ).loc main_arg8)
  g1 := m ((c : Thread nD τ).loc main_arg9)
  be1 := m ((c : Thread nD τ).loc main_arg10)
  g2 := m ((c : Thread nD τ).loc main_arg11)
  be2 := m ((c : Thread nD τ).loc main_arg12)
  pW1 := m ((c : Thread nD τ).loc main_arg13)
  pb1 := m ((c : Thread nD τ).loc main_arg14)
  pW2 := m ((c : Thread nD τ).loc main_arg15)
  pb2 := m ((c : Thread nD τ).loc main_arg16)

/-! ## After the first host stretch -/

theorem w1_v1 : W1 m ρ c (Proc.devRef .tc main_v1) = srcVec m c := by
  show StableHlo.after hostOps0 (W0 m ρ c) (Proc.devRef .tc main_v1) = _
  after_results
  rfl

theorem w1_v3 : W1 m ρ c (Proc.devRef .tc main_v3) = dstVec m c := by
  show StableHlo.after hostOps0 (W0 m ρ c) (Proc.devRef .tc main_v3) = _
  after_results
  rfl

theorem w1_v17 : W1 m ρ c (Proc.devRef .tc main_v17) = Cert.Sgc.tr (args m c).W1 := by
  show StableHlo.after hostOps0 (W0 m ρ c) (Proc.devRef .tc main_v17) = _
  after_results
  exact Cert.Sgc.transpose_eq_tr _ _

theorem w1_v18 : rowVec (W1 m ρ c (Proc.devRef .tc main_v18)) = (args m c).b1 := by
  show rowVec (StableHlo.after hostOps0 (W0 m ρ c) (Proc.devRef .tc main_v18)) = _
  after_results
  exact Cert.Sgc.rowVec_shapeCast _ _

theorem w1_v16 : W1 m ρ c (Proc.devRef .tc main_v16) = Cert.Sgc.step (args m c) (args m c).x := by
  show StableHlo.after hostOps0 (W0 m ρ c) (Proc.devRef .tc main_v16) = _
  after_results_simp
  exact Cert.Sgc.hostProp_eq Cert.Sgc.nodes_pos gather_S100000x128_S1600000x1_S1600000x128_1_0_n_n_0_1_1128_wf _ rfl
    scatter_S100000x128_S1600000x1_S1600000x128_1_0_0_1_wf _ rfl _ _ _ _ _ _ _

theorem walk_v1_10_1 : W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := unwritten hostOps4 main_v1
    _ = W7 m ρ c (Proc.devRef .tc main_v1) := W8_of_ne m ρ c main_v1 (by decide)
    _ = W6 m ρ c (Proc.devRef .tc main_v1) := unwritten hostOps3 main_v1
    _ = W5 m ρ c (Proc.devRef .tc main_v1) := W6_of_ne m ρ c main_v1 (by decide)
    _ = W4 m ρ c (Proc.devRef .tc main_v1) := unwritten hostOps2 main_v1
    _ = W3 m ρ c (Proc.devRef .tc main_v1) := W4_of_ne m ρ c main_v1 (by decide)
    _ = W2 m ρ c (Proc.devRef .tc main_v1) := unwritten hostOps1 main_v1
    _ = W1 m ρ c (Proc.devRef .tc main_v1) := W2_of_ne m ρ c main_v1 (by decide)

/-! ## Buffers followed back to where they were made -/

theorem walk_v1_4_1 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := unwritten hostOps1 main_v1
    _ = W1 m ρ c (Proc.devRef .tc main_v1) := W2_of_ne m ρ c main_v1 (by decide)
theorem walk_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := unwritten hostOps1 main_v3
    _ = W1 m ρ c (Proc.devRef .tc main_v3) := W2_of_ne m ρ c main_v3 (by decide)
theorem walk_v3_10_1 : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := unwritten hostOps4 main_v3
    _ = W7 m ρ c (Proc.devRef .tc main_v3) := W8_of_ne m ρ c main_v3 (by decide)
    _ = W6 m ρ c (Proc.devRef .tc main_v3) := unwritten hostOps3 main_v3
    _ = W5 m ρ c (Proc.devRef .tc main_v3) := W6_of_ne m ρ c main_v3 (by decide)
    _ = W4 m ρ c (Proc.devRef .tc main_v3) := unwritten hostOps2 main_v3
    _ = W3 m ρ c (Proc.devRef .tc main_v3) := W4_of_ne m ρ c main_v3 (by decide)
    _ = W2 m ρ c (Proc.devRef .tc main_v3) := unwritten hostOps1 main_v3
    _ = W1 m ρ c (Proc.devRef .tc main_v3) := W2_of_ne m ρ c main_v3 (by decide)
theorem walk_arg3_2_0 : W2 m ρ c (Proc.devRef .tc main_arg3) = W0 m ρ c (Proc.devRef .tc main_arg3) :=
  calc W2 m ρ c (Proc.devRef .tc main_arg3)
    _ = W1 m ρ c (Proc.devRef .tc main_arg3) := W2_of_ne m ρ c main_arg3 (by decide)
    _ = W0 m ρ c (Proc.devRef .tc main_arg3) := unwritten hostOps0 main_arg3
theorem arg3_at_2 : W2 m ρ c (Proc.devRef .tc main_arg3) = m ((c : Thread nD τ).loc main_arg3) :=
  (walk_arg3_2_0 m ρ c).trans rfl
theorem walk_arg4_2_0 : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := unwritten hostOps0 main_arg4
theorem arg4_at_2 : W2 m ρ c (Proc.devRef .tc main_arg4) = m ((c : Thread nD τ).loc main_arg4) :=
  (walk_arg4_2_0 m ρ c).trans rfl
theorem walk_arg9_2_0 : W2 m ρ c (Proc.devRef .tc main_arg9) = W0 m ρ c (Proc.devRef .tc main_arg9) :=
  calc W2 m ρ c (Proc.devRef .tc main_arg9)
    _ = W1 m ρ c (Proc.devRef .tc main_arg9) := W2_of_ne m ρ c main_arg9 (by decide)
    _ = W0 m ρ c (Proc.devRef .tc main_arg9) := unwritten hostOps0 main_arg9
theorem arg9_at_2 : W2 m ρ c (Proc.devRef .tc main_arg9) = m ((c : Thread nD τ).loc main_arg9) :=
  (walk_arg9_2_0 m ρ c).trans rfl
theorem walk_arg10_2_0 : W2 m ρ c (Proc.devRef .tc main_arg10) = W0 m ρ c (Proc.devRef .tc main_arg10) :=
  calc W2 m ρ c (Proc.devRef .tc main_arg10)
    _ = W1 m ρ c (Proc.devRef .tc main_arg10) := W2_of_ne m ρ c main_arg10 (by decide)
    _ = W0 m ρ c (Proc.devRef .tc main_arg10) := unwritten hostOps0 main_arg10
theorem arg10_at_2 : W2 m ρ c (Proc.devRef .tc main_arg10) = m ((c : Thread nD τ).loc main_arg10) :=
  (walk_arg10_2_0 m ρ c).trans rfl
theorem walk_arg2_4_0 : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := unwritten hostOps1 main_arg2
    _ = W1 m ρ c (Proc.devRef .tc main_arg2) := W2_of_ne m ρ c main_arg2 (by decide)
    _ = W0 m ρ c (Proc.devRef .tc main_arg2) := unwritten hostOps0 main_arg2
theorem arg2_at_4 : W4 m ρ c (Proc.devRef .tc main_arg2) = m ((c : Thread nD τ).loc main_arg2) :=
  (walk_arg2_4_0 m ρ c).trans rfl
theorem walk_arg5_4_0 : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := unwritten hostOps1 main_arg5
    _ = W1 m ρ c (Proc.devRef .tc main_arg5) := W2_of_ne m ρ c main_arg5 (by decide)
    _ = W0 m ρ c (Proc.devRef .tc main_arg5) := unwritten hostOps0 main_arg5
theorem arg5_at_4 : W4 m ρ c (Proc.devRef .tc main_arg5) = m ((c : Thread nD τ).loc main_arg5) :=
  (walk_arg5_4_0 m ρ c).trans rfl
theorem walk_arg6_4_0 : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := unwritten hostOps1 main_arg6
    _ = W1 m ρ c (Proc.devRef .tc main_arg6) := W2_of_ne m ρ c main_arg6 (by decide)
    _ = W0 m ρ c (Proc.devRef .tc main_arg6) := unwritten hostOps0 main_arg6
theorem arg6_at_4 : W4 m ρ c (Proc.devRef .tc main_arg6) = m ((c : Thread nD τ).loc main_arg6) :=
  (walk_arg6_4_0 m ρ c).trans rfl
theorem walk_arg5_6_0 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := unwritten hostOps2 main_arg5
    _ = W3 m ρ c (Proc.devRef .tc main_arg5) := W4_of_ne m ρ c main_arg5 (by decide)
    _ = W2 m ρ c (Proc.devRef .tc main_arg5) := unwritten hostOps1 main_arg5
    _ = W1 m ρ c (Proc.devRef .tc main_arg5) := W2_of_ne m ρ c main_arg5 (by decide)
    _ = W0 m ρ c (Proc.devRef .tc main_arg5) := unwritten hostOps0 main_arg5
theorem arg5_at_6 : W6 m ρ c (Proc.devRef .tc main_arg5) = m ((c : Thread nD τ).loc main_arg5) :=
  (walk_arg5_6_0 m ρ c).trans rfl
theorem walk_arg6_6_0 : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := unwritten hostOps2 main_arg6
    _ = W3 m ρ c (Proc.devRef .tc main_arg6) := W4_of_ne m ρ c main_arg6 (by decide)
    _ = W2 m ρ c (Proc.devRef .tc main_arg6) := unwritten hostOps1 main_arg6
    _ = W1 m ρ c (Proc.devRef .tc main_arg6) := W2_of_ne m ρ c main_arg6 (by decide)
    _ = W0 m ρ c (Proc.devRef .tc main_arg6) := unwritten hostOps0 main_arg6
theorem arg6_at_6 : W6 m ρ c (Proc.devRef .tc main_arg6) = m ((c : Thread nD τ).loc main_arg6) :=
  (walk_arg6_6_0 m ρ c).trans rfl
theorem walk_arg11_6_0 : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := unwritten hostOps2 main_arg11
    _ = W3 m ρ c (Proc.devRef .tc main_arg11) := W4_of_ne m ρ c main_arg11 (by decide)
    _ = W2 m ρ c (Proc.devRef .tc main_arg11) := unwritten hostOps1 main_arg11
    _ = W1 m ρ c (Proc.devRef .tc main_arg11) := W2_of_ne m ρ c main_arg11 (by decide)
    _ = W0 m ρ c (Proc.devRef .tc main_arg11) := unwritten hostOps0 main_arg11
theorem arg11_at_6 : W6 m ρ c (Proc.devRef .tc main_arg11) = m ((c : Thread nD τ).loc main_arg11) :=
  (walk_arg11_6_0 m ρ c).trans rfl
theorem walk_arg12_6_0 : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := unwritten hostOps2 main_arg12
    _ = W3 m ρ c (Proc.devRef .tc main_arg12) := W4_of_ne m ρ c main_arg12 (by decide)
    _ = W2 m ρ c (Proc.devRef .tc main_arg12) := unwritten hostOps1 main_arg12
    _ = W1 m ρ c (Proc.devRef .tc main_arg12) := W2_of_ne m ρ c main_arg12 (by decide)
    _ = W0 m ρ c (Proc.devRef .tc main_arg12) := unwritten hostOps0 main_arg12
theorem arg12_at_6 : W6 m ρ c (Proc.devRef .tc main_arg12) = m ((c : Thread nD τ).loc main_arg12) :=
  (walk_arg12_6_0 m ρ c).trans rfl
theorem walk_arg13_6_0 : W6 m ρ c (Proc.devRef .tc main_arg13) = W0 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := unwritten hostOps2 main_arg13
    _ = W3 m ρ c (Proc.devRef .tc main_arg13) := W4_of_ne m ρ c main_arg13 (by decide)
    _ = W2 m ρ c (Proc.devRef .tc main_arg13) := unwritten hostOps1 main_arg13
    _ = W1 m ρ c (Proc.devRef .tc main_arg13) := W2_of_ne m ρ c main_arg13 (by decide)
    _ = W0 m ρ c (Proc.devRef .tc main_arg13) := unwritten hostOps0 main_arg13
theorem arg13_at_6 : W6 m ρ c (Proc.devRef .tc main_arg13) = m ((c : Thread nD τ).loc main_arg13) :=
  (walk_arg13_6_0 m ρ c).trans rfl
theorem walk_arg14_6_0 : W6 m ρ c (Proc.devRef .tc main_arg14) = W0 m ρ c (Proc.devRef .tc main_arg14) :=
  calc W6 m ρ c (Proc.devRef .tc main_arg14)
    _ = W5 m ρ c (Proc.devRef .tc main_arg14) := W6_of_ne m ρ c main_arg14 (by decide)
    _ = W4 m ρ c (Proc.devRef .tc main_arg14) := unwritten hostOps2 main_arg14
    _ = W3 m ρ c (Proc.devRef .tc main_arg14) := W4_of_ne m ρ c main_arg14 (by decide)
    _ = W2 m ρ c (Proc.devRef .tc main_arg14) := unwritten hostOps1 main_arg14
    _ = W1 m ρ c (Proc.devRef .tc main_arg14) := W2_of_ne m ρ c main_arg14 (by decide)
    _ = W0 m ρ c (Proc.devRef .tc main_arg14) := unwritten hostOps0 main_arg14
theorem arg14_at_6 : W6 m ρ c (Proc.devRef .tc main_arg14) = m ((c : Thread nD τ).loc main_arg14) :=
  (walk_arg14_6_0 m ρ c).trans rfl
theorem walk_arg15_6_0 : W6 m ρ c (Proc.devRef .tc main_arg15) = W0 m ρ c (Proc.devRef .tc main_arg15) :=
  calc W6 m ρ c (Proc.devRef .tc main_arg15)
    _ = W5 m ρ c (Proc.devRef .tc main_arg15) := W6_of_ne m ρ c main_arg15 (by decide)
    _ = W4 m ρ c (Proc.devRef .tc main_arg15) := unwritten hostOps2 main_arg15
    _ = W3 m ρ c (Proc.devRef .tc main_arg15) := W4_of_ne m ρ c main_arg15 (by decide)
    _ = W2 m ρ c (Proc.devRef .tc main_arg15) := unwritten hostOps1 main_arg15
    _ = W1 m ρ c (Proc.devRef .tc main_arg15) := W2_of_ne m ρ c main_arg15 (by decide)
    _ = W0 m ρ c (Proc.devRef .tc main_arg15) := unwritten hostOps0 main_arg15
theorem arg15_at_6 : W6 m ρ c (Proc.devRef .tc main_arg15) = m ((c : Thread nD τ).loc main_arg15) :=
  (walk_arg15_6_0 m ρ c).trans rfl
theorem walk_arg16_6_0 : W6 m ρ c (Proc.devRef .tc main_arg16) = W0 m ρ c (Proc.devRef .tc main_arg16) :=
  calc W6 m ρ c (Proc.devRef .tc main_arg16)
    _ = W5 m ρ c (Proc.devRef .tc main_arg16) := W6_of_ne m ρ c main_arg16 (by decide)
    _ = W4 m ρ c (Proc.devRef .tc main_arg16) := unwritten hostOps2 main_arg16
    _ = W3 m ρ c (Proc.devRef .tc main_arg16) := W4_of_ne m ρ c main_arg16 (by decide)
    _ = W2 m ρ c (Proc.devRef .tc main_arg16) := unwritten hostOps1 main_arg16
    _ = W1 m ρ c (Proc.devRef .tc main_arg16) := W2_of_ne m ρ c main_arg16 (by decide)
    _ = W0 m ρ c (Proc.devRef .tc main_arg16) := unwritten hostOps0 main_arg16
theorem arg16_at_6 : W6 m ρ c (Proc.devRef .tc main_arg16) = m ((c : Thread nD τ).loc main_arg16) :=
  (walk_arg16_6_0 m ρ c).trans rfl
theorem walk_arg7_8_0 : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := unwritten hostOps3 main_arg7
    _ = W5 m ρ c (Proc.devRef .tc main_arg7) := W6_of_ne m ρ c main_arg7 (by decide)
    _ = W4 m ρ c (Proc.devRef .tc main_arg7) := unwritten hostOps2 main_arg7
    _ = W3 m ρ c (Proc.devRef .tc main_arg7) := W4_of_ne m ρ c main_arg7 (by decide)
    _ = W2 m ρ c (Proc.devRef .tc main_arg7) := unwritten hostOps1 main_arg7
    _ = W1 m ρ c (Proc.devRef .tc main_arg7) := W2_of_ne m ρ c main_arg7 (by decide)
    _ = W0 m ρ c (Proc.devRef .tc main_arg7) := unwritten hostOps0 main_arg7
theorem arg7_at_8 : W8 m ρ c (Proc.devRef .tc main_arg7) = m ((c : Thread nD τ).loc main_arg7) :=
  (walk_arg7_8_0 m ρ c).trans rfl
theorem walk_arg2_10_0 : W10 m ρ c (Proc.devRef .tc main_arg2) = W0 m ρ c (Proc.devRef .tc main_arg2) :=
  calc W10 m ρ c (Proc.devRef .tc main_arg2)
    _ = W9 m ρ c (Proc.devRef .tc main_arg2) := W10_of_ne m ρ c main_arg2 (by decide)
    _ = W8 m ρ c (Proc.devRef .tc main_arg2) := unwritten hostOps4 main_arg2
    _ = W7 m ρ c (Proc.devRef .tc main_arg2) := W8_of_ne m ρ c main_arg2 (by decide)
    _ = W6 m ρ c (Proc.devRef .tc main_arg2) := unwritten hostOps3 main_arg2
    _ = W5 m ρ c (Proc.devRef .tc main_arg2) := W6_of_ne m ρ c main_arg2 (by decide)
    _ = W4 m ρ c (Proc.devRef .tc main_arg2) := unwritten hostOps2 main_arg2
    _ = W3 m ρ c (Proc.devRef .tc main_arg2) := W4_of_ne m ρ c main_arg2 (by decide)
    _ = W2 m ρ c (Proc.devRef .tc main_arg2) := unwritten hostOps1 main_arg2
    _ = W1 m ρ c (Proc.devRef .tc main_arg2) := W2_of_ne m ρ c main_arg2 (by decide)
    _ = W0 m ρ c (Proc.devRef .tc main_arg2) := unwritten hostOps0 main_arg2
theorem arg2_at_10 : W10 m ρ c (Proc.devRef .tc main_arg2) = m ((c : Thread nD τ).loc main_arg2) :=
  (walk_arg2_10_0 m ρ c).trans rfl
theorem walk_arg8_10_0 : W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := unwritten hostOps4 main_arg8
    _ = W7 m ρ c (Proc.devRef .tc main_arg8) := W8_of_ne m ρ c main_arg8 (by decide)
    _ = W6 m ρ c (Proc.devRef .tc main_arg8) := unwritten hostOps3 main_arg8
    _ = W5 m ρ c (Proc.devRef .tc main_arg8) := W6_of_ne m ρ c main_arg8 (by decide)
    _ = W4 m ρ c (Proc.devRef .tc main_arg8) := unwritten hostOps2 main_arg8
    _ = W3 m ρ c (Proc.devRef .tc main_arg8) := W4_of_ne m ρ c main_arg8 (by decide)
    _ = W2 m ρ c (Proc.devRef .tc main_arg8) := unwritten hostOps1 main_arg8
    _ = W1 m ρ c (Proc.devRef .tc main_arg8) := W2_of_ne m ρ c main_arg8 (by decide)
    _ = W0 m ρ c (Proc.devRef .tc main_arg8) := unwritten hostOps0 main_arg8
theorem arg8_at_10 : W10 m ρ c (Proc.devRef .tc main_arg8) = m ((c : Thread nD τ).loc main_arg8) :=
  (walk_arg8_10_0 m ρ c).trans rfl

/-! ## The first layer -/

theorem w2_v19_0 : W2 m ρ c (Proc.devRef .tc main_v19_0) = (Cert.Sgc.tileSums 20 5000 rfl (Cert.Sgc.pre (Cert.Sgc.step (args m c) (args m c).x) (Cert.Sgc.tr (args m c).W1) (args m c).b1)) := by
  refine ((W2_arr m ρ c 3).trans (Cert.KernelIdeal.RegionValue.stats0_sum (V1 m ρ) c)).trans ?_
  show Cert.Sgc.tileSums 20 5000 rfl (Cert.Sgc.pre (N := 100000) (K := 128) (C := 128) (W1 m ρ c (Proc.devRef .tc main_v16)) (W1 m ρ c (Proc.devRef .tc main_v17)) (rowVec (W1 m ρ c (Proc.devRef .tc main_v18)))) = _
  rw [w1_v16, w1_v17, w1_v18]

theorem w2_v19_1 : W2 m ρ c (Proc.devRef .tc main_v19_1) = (Cert.Sgc.tileSums 20 5000 rfl (Cert.Sgc.sq (Cert.Sgc.pre (Cert.Sgc.step (args m c) (args m c).x) (Cert.Sgc.tr (args m c).W1) (args m c).b1))) := by
  refine ((W2_arr m ρ c 4).trans (Cert.KernelIdeal.RegionValue.stats0_sumsq (V1 m ρ) c)).trans ?_
  show Cert.Sgc.tileSums 20 5000 rfl (Cert.Sgc.sq (Cert.Sgc.pre (N := 100000) (K := 128) (C := 128) (W1 m ρ c (Proc.devRef .tc main_v16)) (W1 m ρ c (Proc.devRef .tc main_v17)) (rowVec (W1 m ρ c (Proc.devRef .tc main_v18))))) = _
  rw [w1_v16, w1_v17, w1_v18]

theorem w3_v23 : W3 m ρ c (Proc.devRef .tc main_v23) = Cert.Sgc.meanT Cert.Sgc.cN (Cert.Sgc.tileSums 20 5000 rfl (Cert.Sgc.pre (Cert.Sgc.step (args m c) (args m c).x) (Cert.Sgc.tr (args m c).W1) (args m c).b1)) := by
  show StableHlo.after hostOps1 (W2 m ρ c) (Proc.devRef .tc main_v23) = _
  after_results
  rw [w2_v19_0]
  exact Cert.Sgc.hostMeanT_eq reducesTo_S20x1x128_S1x128_d0 (by decide) h_S_ bcast_S_S1x128 _ _

theorem w3_v29 : W3 m ρ c (Proc.devRef .tc main_v29) = Cert.Sgc.varT Cert.Sgc.cN (Cert.Sgc.tileSums 20 5000 rfl (Cert.Sgc.pre (Cert.Sgc.step (args m c) (args m c).x) (Cert.Sgc.tr (args m c).W1) (args m c).b1)) (Cert.Sgc.tileSums 20 5000 rfl (Cert.Sgc.sq (Cert.Sgc.pre (Cert.Sgc.step (args m c) (args m c).x) (Cert.Sgc.tr (args m c).W1) (args m c).b1))) := by
  show StableHlo.after hostOps1 (W2 m ρ c) (Proc.devRef .tc main_v29) = _
  after_results
  rw [w2_v19_0, w2_v19_1]
  rw [Cert.Sgc.hostMeanT_eq reducesTo_S20x1x128_S1x128_d0 (by decide) h_S_ bcast_S_S1x128 _ (Cert.Sgc.tileSums 20 5000 rfl (Cert.Sgc.sq (Cert.Sgc.pre (Cert.Sgc.step (args m c) (args m c).x) (Cert.Sgc.tr (args m c).W1) (args m c).b1))),
    Cert.Sgc.hostMeanT_eq reducesTo_S20x1x128_S1x128_d0 (by decide) h_S_ bcast_S_S1x128 _ (Cert.Sgc.tileSums 20 5000 rfl (Cert.Sgc.pre (Cert.Sgc.step (args m c) (args m c).x) (Cert.Sgc.tr (args m c).W1) (args m c).b1))]
  exact Cert.Sgc.hostVarT_eq _ _ _ _

theorem w3_v30 : W3 m ρ c (Proc.devRef .tc main_v30) = Cert.Sgc.tr (args m c).W1 := by
  show StableHlo.after hostOps1 (W2 m ρ c) (Proc.devRef .tc main_v30) = _
  after_results
  rw [arg3_at_2]
  exact Cert.Sgc.transpose_eq_tr _ _

theorem w3_v31 : rowVec (W3 m ρ c (Proc.devRef .tc main_v31)) = (args m c).b1 := by
  show rowVec (StableHlo.after hostOps1 (W2 m ρ c) (Proc.devRef .tc main_v31)) = _
  after_results
  rw [arg4_at_2]
  exact Cert.Sgc.rowVec_shapeCast _ _

theorem w3_v32 : rowVec (W3 m ρ c (Proc.devRef .tc main_v32)) = (args m c).g1 := by
  show rowVec (StableHlo.after hostOps1 (W2 m ρ c) (Proc.devRef .tc main_v32)) = _
  after_results
  rw [arg9_at_2]
  exact Cert.Sgc.rowVec_shapeCast _ _

theorem w3_v33 : rowVec (W3 m ρ c (Proc.devRef .tc main_v33)) = (args m c).be1 := by
  show rowVec (StableHlo.after hostOps1 (W2 m ρ c) (Proc.devRef .tc main_v33)) = _
  after_results
  rw [arg10_at_2]
  exact Cert.Sgc.rowVec_shapeCast _ _

theorem w3_v16 : W3 m ρ c (Proc.devRef .tc main_v16) = Cert.Sgc.step (args m c) (args m c).x :=
  calc W3 m ρ c (Proc.devRef .tc main_v16)
    _ = W2 m ρ c (Proc.devRef .tc main_v16) := unwritten hostOps1 main_v16
    _ = (dat0 (V1 m ρ) c).arrAt 0 cfg0.N := W2_arr m ρ c 0
    _ = (dat0 (V1 m ρ) c).A 0 := (dat0 (V1 m ρ) c).arrAt_in 0 rfl cfg0.N
    _ = V1 m ρ c (Pipeline.arrRef spec0 0) := A_eq0 (V1 m ρ) c 0
    _ = Cert.Sgc.step (args m c) (args m c).x := w1_v16 m ρ c

theorem w4_v34 : W4 m ρ c (Proc.devRef .tc main_v34) = Cert.Sgc.kerH1 (args m c) := by
  refine ((W4_arr m ρ c 7).trans (Cert.KernelIdeal.RegionValue.norm1 (V3 m ρ) c)).trans ?_
  show bnRelu Cert.Sgc.eps (Cert.Sgc.pre (N := 100000) (K := 128) (C := 128) (W3 m ρ c (Proc.devRef .tc main_v16)) (W3 m ρ c (Proc.devRef .tc main_v30)) (rowVec (W3 m ρ c (Proc.devRef .tc main_v31))))
      (rowVec (W3 m ρ c (Proc.devRef .tc main_v23))) (rowVec (W3 m ρ c (Proc.devRef .tc main_v29))) (rowVec (W3 m ρ c (Proc.devRef .tc main_v32))) (rowVec (W3 m ρ c (Proc.devRef .tc main_v33))) = _
  rw [w3_v16, w3_v30, w3_v31, w3_v23, w3_v29, w3_v32, w3_v33]
  rfl

/-! ## The second layer and the head -/

theorem w5_v47 : W5 m ρ c (Proc.devRef .tc main_v47) = Cert.Sgc.step (args m c) (Cert.Sgc.kerH1 (args m c)) := by
  show StableHlo.after hostOps2 (W4 m ρ c) (Proc.devRef .tc main_v47) = _
  after_results_simp
  rw [w4_v34, walk_v1_4_1, w1_v1, walk_v3_4_1, w1_v3, arg2_at_4]
  exact Cert.Sgc.hostProp_eq Cert.Sgc.nodes_pos gather_S100000x128_S1600000x1_S1600000x128_1_0_n_n_0_1_1128_wf _ rfl
    scatter_S100000x128_S1600000x1_S1600000x128_1_0_0_1_wf _ rfl _ _ _ _ _ _ _

theorem w5_v48 : W5 m ρ c (Proc.devRef .tc main_v48) = Cert.Sgc.tr (args m c).W2 := by
  show StableHlo.after hostOps2 (W4 m ρ c) (Proc.devRef .tc main_v48) = _
  after_results
  rw [arg5_at_4]
  exact Cert.Sgc.transpose_eq_tr _ _

theorem w5_v49 : rowVec (W5 m ρ c (Proc.devRef .tc main_v49)) = (args m c).b2 := by
  show rowVec (StableHlo.after hostOps2 (W4 m ρ c) (Proc.devRef .tc main_v49)) = _
  after_results
  rw [arg6_at_4]
  exact Cert.Sgc.rowVec_shapeCast _ _

theorem w6_v50_0 : W6 m ρ c (Proc.devRef .tc main_v50_0) = (Cert.Sgc.tileSums 20 5000 rfl (Cert.Sgc.pre (Cert.Sgc.step (args m c) (Cert.Sgc.kerH1 (args m c))) (Cert.Sgc.tr (args m c).W2) (args m c).b2)) := by
  refine ((W6_arr m ρ c 3).trans (Cert.KernelIdeal.RegionValue.stats2_sum (V5 m ρ) c)).trans ?_
  show Cert.Sgc.tileSums 20 5000 rfl (Cert.Sgc.pre (N := 100000) (K := 128) (C := 128) (W5 m ρ c (Proc.devRef .tc main_v47)) (W5 m ρ c (Proc.devRef .tc main_v48)) (rowVec (W5 m ρ c (Proc.devRef .tc main_v49)))) = _
  rw [w5_v47, w5_v48, w5_v49]

theorem w6_v50_1 : W6 m ρ c (Proc.devRef .tc main_v50_1) = (Cert.Sgc.tileSums 20 5000 rfl (Cert.Sgc.sq (Cert.Sgc.pre (Cert.Sgc.step (args m c) (Cert.Sgc.kerH1 (args m c))) (Cert.Sgc.tr (args m c).W2) (args m c).b2))) := by
  refine ((W6_arr m ρ c 4).trans (Cert.KernelIdeal.RegionValue.stats2_sumsq (V5 m ρ) c)).trans ?_
  show Cert.Sgc.tileSums 20 5000 rfl (Cert.Sgc.sq (Cert.Sgc.pre (N := 100000) (K := 128) (C := 128) (W5 m ρ c (Proc.devRef .tc main_v47)) (W5 m ρ c (Proc.devRef .tc main_v48)) (rowVec (W5 m ρ c (Proc.devRef .tc main_v49))))) = _
  rw [w5_v47, w5_v48, w5_v49]

theorem w7_v54 : W7 m ρ c (Proc.devRef .tc main_v54) = Cert.Sgc.meanT Cert.Sgc.cN (Cert.Sgc.tileSums 20 5000 rfl (Cert.Sgc.pre (Cert.Sgc.step (args m c) (Cert.Sgc.kerH1 (args m c))) (Cert.Sgc.tr (args m c).W2) (args m c).b2)) := by
  show StableHlo.after hostOps3 (W6 m ρ c) (Proc.devRef .tc main_v54) = _
  after_results
  rw [w6_v50_0]
  exact Cert.Sgc.hostMeanT_eq reducesTo_S20x1x128_S1x128_d0 (by decide) h_S_ bcast_S_S1x128 _ _

theorem w7_v60 : W7 m ρ c (Proc.devRef .tc main_v60) = Cert.Sgc.varT Cert.Sgc.cN (Cert.Sgc.tileSums 20 5000 rfl (Cert.Sgc.pre (Cert.Sgc.step (args m c) (Cert.Sgc.kerH1 (args m c))) (Cert.Sgc.tr (args m c).W2) (args m c).b2)) (Cert.Sgc.tileSums 20 5000 rfl (Cert.Sgc.sq (Cert.Sgc.pre (Cert.Sgc.step (args m c) (Cert.Sgc.kerH1 (args m c))) (Cert.Sgc.tr (args m c).W2) (args m c).b2))) := by
  show StableHlo.after hostOps3 (W6 m ρ c) (Proc.devRef .tc main_v60) = _
  after_results
  rw [w6_v50_0, w6_v50_1]
  rw [Cert.Sgc.hostMeanT_eq reducesTo_S20x1x128_S1x128_d0 (by decide) h_S_ bcast_S_S1x128 _ (Cert.Sgc.tileSums 20 5000 rfl (Cert.Sgc.sq (Cert.Sgc.pre (Cert.Sgc.step (args m c) (Cert.Sgc.kerH1 (args m c))) (Cert.Sgc.tr (args m c).W2) (args m c).b2))),
    Cert.Sgc.hostMeanT_eq reducesTo_S20x1x128_S1x128_d0 (by decide) h_S_ bcast_S_S1x128 _ (Cert.Sgc.tileSums 20 5000 rfl (Cert.Sgc.pre (Cert.Sgc.step (args m c) (Cert.Sgc.kerH1 (args m c))) (Cert.Sgc.tr (args m c).W2) (args m c).b2))]
  exact Cert.Sgc.hostVarT_eq _ _ _ _

theorem w7_v61 : W7 m ρ c (Proc.devRef .tc main_v61) = Cert.Sgc.tr (args m c).W2 := by
  show StableHlo.after hostOps3 (W6 m ρ c) (Proc.devRef .tc main_v61) = _
  after_results
  rw [arg5_at_6]
  exact Cert.Sgc.transpose_eq_tr _ _

theorem w7_v62 : rowVec (W7 m ρ c (Proc.devRef .tc main_v62)) = (args m c).b2 := by
  show rowVec (StableHlo.after hostOps3 (W6 m ρ c) (Proc.devRef .tc main_v62)) = _
  after_results
  rw [arg6_at_6]
  exact Cert.Sgc.rowVec_shapeCast _ _

theorem w7_v63 : rowVec (W7 m ρ c (Proc.devRef .tc main_v63)) = (args m c).g2 := by
  show rowVec (StableHlo.after hostOps3 (W6 m ρ c) (Proc.devRef .tc main_v63)) = _
  after_results
  rw [arg11_at_6]
  exact Cert.Sgc.rowVec_shapeCast _ _

theorem w7_v64 : rowVec (W7 m ρ c (Proc.devRef .tc main_v64)) = (args m c).be2 := by
  show rowVec (StableHlo.after hostOps3 (W6 m ρ c) (Proc.devRef .tc main_v64)) = _
  after_results
  rw [arg12_at_6]
  exact Cert.Sgc.rowVec_shapeCast _ _

theorem w7_v65 : W7 m ρ c (Proc.devRef .tc main_v65) = Cert.Sgc.tr (args m c).pW1 := by
  show StableHlo.after hostOps3 (W6 m ρ c) (Proc.devRef .tc main_v65) = _
  after_results
  rw [arg13_at_6]
  exact Cert.Sgc.transpose_eq_tr _ _

theorem w7_v66 : rowVec (W7 m ρ c (Proc.devRef .tc main_v66)) = (args m c).pb1 := by
  show rowVec (StableHlo.after hostOps3 (W6 m ρ c) (Proc.devRef .tc main_v66)) = _
  after_results
  rw [arg14_at_6]
  exact Cert.Sgc.rowVec_shapeCast _ _

theorem w7_v67 : W7 m ρ c (Proc.devRef .tc main_v67) = Cert.Sgc.tr (args m c).pW2 := by
  show StableHlo.after hostOps3 (W6 m ρ c) (Proc.devRef .tc main_v67) = _
  after_results
  rw [arg15_at_6]
  exact Cert.Sgc.transpose_eq_tr _ _

theorem w7_v68 : rowVec (W7 m ρ c (Proc.devRef .tc main_v68)) = (args m c).pb2 := by
  show rowVec (StableHlo.after hostOps3 (W6 m ρ c) (Proc.devRef .tc main_v68)) = _
  after_results
  rw [arg16_at_6]
  exact Cert.Sgc.rowVec_shapeCast _ _

theorem w7_v47 : W7 m ρ c (Proc.devRef .tc main_v47) = Cert.Sgc.step (args m c) (Cert.Sgc.kerH1 (args m c)) :=
  calc W7 m ρ c (Proc.devRef .tc main_v47)
    _ = W6 m ρ c (Proc.devRef .tc main_v47) := unwritten hostOps3 main_v47
    _ = (dat2 (V5 m ρ) c).arrAt 0 cfg2.N := W6_arr m ρ c 0
    _ = (dat2 (V5 m ρ) c).A 0 := (dat2 (V5 m ρ) c).arrAt_in 0 rfl cfg2.N
    _ = V5 m ρ c (Pipeline.arrRef spec2 0) := A_eq2 (V5 m ρ) c 0
    _ = Cert.Sgc.step (args m c) (Cert.Sgc.kerH1 (args m c)) := w5_v47 m ρ c

theorem w8_v69_0 : W8 m ρ c (Proc.devRef .tc main_v69_0) = Cert.Sgc.kerH2 (args m c) := by
  refine ((W8_arr m ρ c 11).trans (Cert.KernelIdeal.RegionValue.norm3_h (V7 m ρ) c)).trans ?_
  show bnRelu Cert.Sgc.eps (Cert.Sgc.pre (N := 100000) (K := 128) (C := 128) (W7 m ρ c (Proc.devRef .tc main_v47)) (W7 m ρ c (Proc.devRef .tc main_v61)) (rowVec (W7 m ρ c (Proc.devRef .tc main_v62))))
      (rowVec (W7 m ρ c (Proc.devRef .tc main_v54))) (rowVec (W7 m ρ c (Proc.devRef .tc main_v60))) (rowVec (W7 m ρ c (Proc.devRef .tc main_v63))) (rowVec (W7 m ρ c (Proc.devRef .tc main_v64))) = _
  rw [w7_v47, w7_v61, w7_v62, w7_v54, w7_v60, w7_v63, w7_v64]
  rfl

theorem w8_v69_1 : W8 m ρ c (Proc.devRef .tc main_v69_1) = Cert.Sgc.kerZ (args m c) := by
  refine ((W8_arr m ρ c 12).trans (Cert.KernelIdeal.RegionValue.norm3_z (V7 m ρ) c)).trans ?_
  show Cert.Sgc.proj (N := 100000) (K := 128) (A := 128) (B := 128) (bnRelu Cert.Sgc.eps (Cert.Sgc.pre (N := 100000) (K := 128) (C := 128) (W7 m ρ c (Proc.devRef .tc main_v47)) (W7 m ρ c (Proc.devRef .tc main_v61)) (rowVec (W7 m ρ c (Proc.devRef .tc main_v62))))
      (rowVec (W7 m ρ c (Proc.devRef .tc main_v54))) (rowVec (W7 m ρ c (Proc.devRef .tc main_v60))) (rowVec (W7 m ρ c (Proc.devRef .tc main_v63))) (rowVec (W7 m ρ c (Proc.devRef .tc main_v64))))
      (W7 m ρ c (Proc.devRef .tc main_v65)) (rowVec (W7 m ρ c (Proc.devRef .tc main_v66))) (W7 m ρ c (Proc.devRef .tc main_v67)) (rowVec (W7 m ρ c (Proc.devRef .tc main_v68))) = _
  rw [w7_v47, w7_v61, w7_v62, w7_v54, w7_v60, w7_v63, w7_v64, w7_v65, w7_v66, w7_v67, w7_v68]
  rfl

/-! ## The last layer -/

theorem w9_v69_0 : W9 m ρ c (Proc.devRef .tc main_v69_0) = Cert.Sgc.kerH2 (args m c) :=
  (show W9 m ρ c (Proc.devRef .tc main_v69_0) = W8 m ρ c (Proc.devRef .tc main_v69_0) from unwritten hostOps4 main_v69_0).trans (w8_v69_0 m ρ c)

theorem w9_v70 : rowVec (W9 m ρ c (Proc.devRef .tc main_v70)) = Cert.Sgc.zeros64 := by
  show rowVec (StableHlo.after hostOps4 (W8 m ρ c) (Proc.devRef .tc main_v70)) = _
  after_results
  exact Cert.Sgc.rowVec_zero _

theorem w9_v71 : W9 m ρ c (Proc.devRef .tc main_v71) = Cert.Sgc.tr (args m c).W3 := by
  show StableHlo.after hostOps4 (W8 m ρ c) (Proc.devRef .tc main_v71) = _
  after_results
  rw [arg7_at_8]
  exact Cert.Sgc.transpose_eq_tr _ _

theorem w10_v72 : W10 m ρ c (Proc.devRef .tc main_v72) = Cert.Sgc.pre (Cert.Sgc.kerH2 (args m c)) (Cert.Sgc.tr (args m c).W3) Cert.Sgc.zeros64 := by
  refine ((W10_arr m ρ c 3).trans (Cert.KernelIdeal.RegionValue.linear4 (V9 m ρ) c)).trans ?_
  show Cert.Sgc.pre (N := 100000) (K := 128) (C := 64) (W9 m ρ c (Proc.devRef .tc main_v69_0)) (W9 m ρ c (Proc.devRef .tc main_v71)) (rowVec (W9 m ρ c (Proc.devRef .tc main_v70))) = _
  rw [w9_v69_0, w9_v71, w9_v70]

/-! ## The three results -/

theorem w11_logits : W11 m ρ c (Proc.devRef .tc main_v88) = Cert.Sgc.kerLogits (args m c) := by
  show StableHlo.after hostOps5 (W10 m ρ c) (Proc.devRef .tc main_v88) = _
  after_results_simp
  rw [w10_v72, walk_v1_10_1, w1_v1, walk_v3_10_1, w1_v3, arg2_at_10, arg8_at_10]
  exact (congrArg (fun t => addf (F := Ideal) (φ := .f32) t _) (Cert.Sgc.hostProp_eq Cert.Sgc.nodes_pos
    gather_S100000x64_S1600000x1_S1600000x64_1_0_n_n_0_1_164_wf _ rfl
    scatter_S100000x64_S1600000x1_S1600000x64_1_0_0_1_wf _ rfl _ _ _ _ _ _ _)).trans (Cert.Sgc.addf_bias_eq _ _ _ _)

theorem w10_v69_0 : W10 m ρ c (Proc.devRef .tc main_v69_0) = Cert.Sgc.kerH2 (args m c) :=
  calc W10 m ρ c (Proc.devRef .tc main_v69_0)
    _ = (dat4 (V9 m ρ) c).arrAt 0 cfg4.N := W10_arr m ρ c 0
    _ = (dat4 (V9 m ρ) c).A 0 := (dat4 (V9 m ρ) c).arrAt_in 0 rfl cfg4.N
    _ = V9 m ρ c (Pipeline.arrRef spec4 0) := A_eq4 (V9 m ρ) c 0
    _ = Cert.Sgc.kerH2 (args m c) := w9_v69_0 m ρ c

set_option maxHeartbeats 1000000 in
theorem w11_v69_0_skip : W11 m ρ c (Proc.devRef .tc main_v69_0) = W10 m ρ c (Proc.devRef .tc main_v69_0) := unwritten hostOps5 main_v69_0

theorem w11_h2 : W11 m ρ c (Proc.devRef .tc main_v69_0) = Cert.Sgc.kerH2 (args m c) :=
  (w11_v69_0_skip m ρ c).trans (w10_v69_0 m ρ c)

set_option maxHeartbeats 1000000 in
theorem w11_v69_1_skip : W11 m ρ c (Proc.devRef .tc main_v69_1) = W10 m ρ c (Proc.devRef .tc main_v69_1) := unwritten hostOps5 main_v69_1

theorem w11_z : W11 m ρ c (Proc.devRef .tc main_v69_1) = Cert.Sgc.kerZ (args m c) :=
  calc W11 m ρ c (Proc.devRef .tc main_v69_1)
    _ = W10 m ρ c (Proc.devRef .tc main_v69_1) := w11_v69_1_skip m ρ c
    _ = W9 m ρ c (Proc.devRef .tc main_v69_1) := W10_of_ne m ρ c main_v69_1 (by decide)
    _ = W8 m ρ c (Proc.devRef .tc main_v69_1) := unwritten hostOps4 main_v69_1
    _ = Cert.Sgc.kerZ (args m c) := w8_v69_1 m ρ c

end Cert.KernelIdeal.KerValue

end
-- ==== Proof.RefRun.lean ====
/-
  The host program as a straight line of operations, and its run read back stage by stage.

  The program is five stages: the two rows of the index table; two normalised layers (a propagation step along the
  edges, a product with a transposed weight plus a bias, the column mean, the column variance, the normalisation and
  the cut at zero); a two-layer head; and a last propagation step with its product and bias. Each stage's result is
  one function of whole arrays (the definitions `h…` below), and the run ends with every result buffer at the
  composition of those functions over the arguments' contents at launch, the arguments unchanged.
-/
import proofs.«117873_j69002944578214_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of whole arrays

Each definition composes the operations of one stage of the program, in the program's order and spelling. -/

/-- Row `k` of the two-row index table, as a vector. -/
def hRow0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000
@[inherit_doc hRow0]
def hRow1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

/-- An index vector with every negative entry increased by the row count, laid as a column. -/
def hWrap (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- An index vector laid as a column. -/
def hRaw (v : (⟨S1600000, .i32⟩ : BufTy).Contents (Elt F)) : (⟨S1600000x1, .i32⟩ : BufTy).Contents (Elt F) :=
  broadcastInDim S1600000x1 ![0] bcast_S1600000_S1600000x1_0 v

/-- Rows taken at the wrapped source column, scaled by the edge weights, added into a zero table at the destination column. -/
def hProp (X : (⟨S100000x128, .f32⟩ : BufTy).Contents (Elt F)) (s d : (⟨S1600000, .i32⟩ : BufTy).Contents (Elt F)) (ew : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (hRaw d)
    (mulf (Host.gather gather_S100000x128_S1600000x1_S1600000x128_1_0_n_n_0_1_1128 X (hWrap s))
      (broadcastInDim S1600000x128 ![0, 1] bcast_S1600000x1_S1600000x128_0_1 (broadcastInDim S1600000x1 ![0] bcast_S1600000_S1600000x1_0 ew)))

/-- The product with the transposed weight, plus the bias laid along the rows. -/
def hPre (P : (⟨S100000x128, .f32⟩ : BufTy).Contents (Elt F)) (Wt : (⟨S128x128, .f32⟩ : BufTy).Contents (Elt F)) (b : (⟨S128, .f32⟩ : BufTy).Contents (Elt F)) : (⟨S100000x128, .f32⟩ : BufTy).Contents (Elt F) :=
  addf (Host.dotGeneral dot_S100000x128_S128x128_S100000x128_1_0_0_1_n_n none P (transpose S128x128 [1, 0] Wt transposes_S128x128_S128x128_1_0)) (broadcastInDim S100000x128 ![0, 1] bcast_S1x128_S100000x128_0_1 (broadcastInDim S1x128 ![1] bcast_S128_S1x128_1 b))

/-- The column sums divided by the row count. -/
def hMean (Z : (⟨S100000x128, .f32⟩ : BufTy).Contents (Elt F)) : (⟨S128, .f32⟩ : BufTy).Contents (Elt F) :=
  Host.divf (Host.reduceAdd Z (constant S_ .f32 0x00000000#32) reducesTo_S100000x128_S128_d0 h_S_) (broadcastInDim S128 ![] bcast_S_S128 (constant S_ .f32 0x47C35000#32))

/-- Every entry less its column's mean, the mean kept as one row. -/
def hDev (Z : (⟨S100000x128, .f32⟩ : BufTy).Contents (Elt F)) : (⟨S100000x128, .f32⟩ : BufTy).Contents (Elt F) :=
  subf Z (broadcastInDim S100000x128 ![0, 1] bcast_S1x128_S100000x128_0_1
    (Host.divf (broadcastInDim S1x128 ![1] bcast_S128_S1x128_1 (Host.reduceAdd Z (constant S_ .f32 0x00000000#32) reducesTo_S100000x128_S128_d0 h_S_))
      (broadcastInDim S1x128 ![] bcast_S_S1x128 (constant S_ .f32 0x47C35000#32))))

/-- The divisor of the variance: the row count less the correction. -/
def hDivisor (c : (⟨S_, .i32⟩ : BufTy).Contents (Elt F)) : (⟨S_, .f32⟩ : BufTy).Contents (Elt F) := subf (constant S_ .f32 0x47C35000#32) (sitofp .f32 c)

/-- The column sums of the squared deviations over the divisor, where the divisor is positive. -/
def hVar (Z : (⟨S100000x128, .f32⟩ : BufTy).Contents (Elt F)) (c : (⟨S_, .i32⟩ : BufTy).Contents (Elt F)) : (⟨S128, .f32⟩ : BufTy).Contents (Elt F) :=
  select (broadcastInDim S128 ![] bcast_S_S128 (cmpf .ogt (hDivisor c) (constant S_ .f32 0x00000000#32)))
    (Host.divf (Host.reduceAdd (mulf (hDev Z) (hDev Z)) (constant S_ .f32 0x00000000#32) reducesTo_S100000x128_S128_d0 h_S_)
      (broadcastInDim S128 ![] bcast_S_S128 (hDivisor c)))
    (broadcastInDim S128 ![] bcast_S_S128 (id (constant S_ .f32 0x7FC00000#32)))

/-- Centred, scaled by the reciprocal root of the variance plus the stabiliser and by the gain, shifted, cut at zero. -/
def hBn (Z : (⟨S100000x128, .f32⟩ : BufTy).Contents (Elt F)) (mu var g be : (⟨S128, .f32⟩ : BufTy).Contents (Elt F)) : (⟨S100000x128, .f32⟩ : BufTy).Contents (Elt F) :=
  maximumf
    (addf
      (mulf
        (mulf (subf Z (broadcastInDim S100000x128 ![0, 1] bcast_S1x128_S100000x128_0_1 (broadcastInDim S1x128 ![1] bcast_S128_S1x128_1 mu)))
          (broadcastInDim S100000x128 ![0, 1] bcast_S1x128_S100000x128_0_1 (broadcastInDim S1x128 ![1] bcast_S128_S1x128_1 (Host.rsqrt (addf var (broadcastInDim S128 ![] bcast_S_S128 (constant S_ .f32 0x3727C5AC#32)))))))
        (broadcastInDim S100000x128 ![0, 1] bcast_S1x128_S100000x128_0_1 (broadcastInDim S1x128 ![1] bcast_S128_S1x128_1 g)))
      (broadcastInDim S100000x128 ![0, 1] bcast_S1x128_S100000x128_0_1 (broadcastInDim S1x128 ![1] bcast_S128_S1x128_1 be)))
    (broadcastInDim S100000x128 ![] bcast_S_S100000x128 (constant S_ .f32 0x00000000#32))

/-- One normalised layer. -/
def hLayer (X : (⟨S100000x128, .f32⟩ : BufTy).Contents (Elt F)) (s d : (⟨S1600000, .i32⟩ : BufTy).Contents (Elt F)) (ew : (⟨S1600000, .f32⟩ : BufTy).Contents (Elt F)) (Wt : (⟨S128x128, .f32⟩ : BufTy).Contents (Elt F)) (b g be : (⟨S128, .f32⟩ : BufTy).Contents (Elt F)) : (⟨S100000x128, .f32⟩ : BufTy).Contents (Elt F) :=
  hBn (hPre (hProp X s d ew) Wt b) (hMean (hPre (hProp X s d ew) Wt b))
    (hVar (hPre (hProp X s d ew) Wt b) (constantI S_ 32 0#32)) g be

/-- The two-layer head. -/
def hHead (H : (⟨S100000x128, .f32⟩ : BufTy).Contents (Elt F)) (W1 : (⟨S128x128, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) : (⟨S100000x128, .f32⟩ : BufTy).Contents (Elt F) :=
  hPre (maximumf (hPre H W1 b1) (broadcastInDim S100000x128 ![] bcast_S_S100000x128 (constant S_ .f32 0x00000000#32))) W2 b2

/-- The last layer: propagated, multiplied by the transposed weight, plus the bias. -/
def hOut (H : (⟨S100000x128, .f32⟩ : BufTy).Contents (Elt F)) (s d : (⟨S1600000, .i32⟩ : BufTy).Contents (Elt F)) (ew : (⟨S1600000, .f32⟩ : BufTy).Contents (Elt F)) (Wt : (⟨S64x128, .f32⟩ : BufTy).Contents (Elt F)) (b : (⟨S64, .f32⟩ : BufTy).Contents (Elt F)) : (⟨S100000x64, .f32⟩ : BufTy).Contents (Elt F) :=
  addf (Host.dotGeneral dot_S100000x128_S128x64_S100000x64_1_0_0_1_n_n none (hProp H s d ew) (transpose S128x64 [1, 0] Wt transposes_S64x128_S128x64_1_0))
    (broadcastInDim S100000x64 ![0, 1] bcast_S1x64_S100000x64_0_1 (broadcastInDim S1x64 ![1] bcast_S64_S1x64_1 b))

/-! ## The operations, stage by stage -/

/-- The two rows of the index table, each as a vector. -/
abbrev S0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The first layer: propagation, product and bias, column statistics, normalisation, cut at zero. -/
abbrev S1 : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v11 (broadcastInDim S1600000x1 ![0] bcast_S1600000_S1600000x1_0 : (⟨S1600000, .f32⟩ : BufTy).Contents (Elt F) → (⟨S1600000x1, .f32⟩ : BufTy).Contents (Elt F)),
    unary main_v11 main_v12 (broadcastInDim S1600000x128 ![0, 1] bcast_S1600000x1_S1600000x128_0_1 : (⟨S1600000x1, .f32⟩ : BufTy).Contents (Elt F) → (⟨S1600000x128, .f32⟩ : BufTy).Contents (Elt F)),
    binary main_v10 main_v12 main_v13 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v14 (broadcastInDim S100000x128 ![] bcast_S_S100000x128 : (⟨S_, .f32⟩ : BufTy).Contents (Elt F) → (⟨S100000x128, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v17 ((transpose S128x128 [1, 0] · transposes_S128x128_S128x128_1_0) : (⟨S128x128, .f32⟩ : BufTy).Contents (Elt F) → (⟨S128x128, .f32⟩ : BufTy).Contents (Elt F)),
    binary main_v16 main_v17 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v19 (broadcastInDim S1x128 ![1] bcast_S128_S1x128_1 : (⟨S128, .f32⟩ : BufTy).Contents (Elt F) → (⟨S1x128, .f32⟩ : BufTy).Contents (Elt F)),
    unary main_v19 main_v20 (broadcastInDim S100000x128 ![0, 1] bcast_S1x128_S100000x128_0_1 : (⟨S1x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v21 main_cst_1 main_v22 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call0.cst (constant S_ .f32 0x00000000#32),
    TRef.binary (TRef.of main_v21 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (TRef.of main_v21 : TRef sig ⟨S100000x128, .f32⟩) main_call0.v4 main_call0.v5 subf,
    TRef.binary main_call0.v5 main_call0.v5 main_call0.v6 mulf,
    TRef.unary (TRef.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v24 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v21 main_v27 main_v28 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v29 (broadcastInDim S128 ![] bcast_S_S128 : (⟨S_, .f32⟩ : BufTy).Contents (Elt F) → (⟨S128, .f32⟩ : BufTy).Contents (Elt F)),
    binary main_v25 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v28 main_v33 main_v34 (mulf : (⟨S100000x128, .f32⟩ : BufTy).Contents (Elt F) → (⟨S100000x128, .f32⟩ : BufTy).Contents (Elt F) → (⟨S100000x128, .f32⟩ : BufTy).Contents (Elt F)),
    unary main_arg9 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (mulf : (⟨S100000x128, .f32⟩ : BufTy).Contents (Elt F) → (⟨S100000x128, .f32⟩ : BufTy).Contents (Elt F) → (⟨S100000x128, .f32⟩ : BufTy).Contents (Elt F)),
    unary main_arg10 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (TRef.of main_v40 : TRef sig ⟨S100000x128, .f32⟩) main_call1.v0 main_call1.v1 maximumf ]

/-- The second layer, of the same shape. -/
abbrev S2 : List (HloOp τ sig (Elt F)) :=
  [ nullary main_c_5 (constantI S_ 32 0#32),
    unary main_c_5 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v49 (broadcastInDim S1600000x1 ![0] bcast_S1600000_S1600000x1_0 : (⟨S1600000, .f32⟩ : BufTy).Contents (Elt F) → (⟨S1600000x1, .f32⟩ : BufTy).Contents (Elt F)),
    unary main_v49 main_v50 (broadcastInDim S1600000x128 ![0, 1] bcast_S1600000x1_S1600000x128_0_1 : (⟨S1600000x1, .f32⟩ : BufTy).Contents (Elt F) → (⟨S1600000x128, .f32⟩ : BufTy).Contents (Elt F)),
    binary main_v48 main_v50 main_v51 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v52 (broadcastInDim S100000x128 ![] bcast_S_S100000x128 : (⟨S_, .f32⟩ : BufTy).Contents (Elt F) → (⟨S100000x128, .f32⟩ : BufTy).Contents (Elt F)),
    unary main_v3 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v55 ((transpose S128x128 [1, 0] · transposes_S128x128_S128x128_1_0) : (⟨S128x128, .f32⟩ : BufTy).Contents (Elt F) → (⟨S128x128, .f32⟩ : BufTy).Contents (Elt F)),
    binary main_v54 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v59 main_cst_8 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call2.cst (constant S_ .f32 0x00000000#32),
    TRef.binary (TRef.of main_v59 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (TRef.of main_v59 : TRef sig ⟨S100000x128, .f32⟩) main_call2.v4 main_call2.v5 subf,
    TRef.binary main_call2.v5 main_call2.v5 main_call2.v6 mulf,
    TRef.unary (TRef.of main_c_10 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v62 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v59 main_v65 main_v66 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v66 main_v71 main_v72 (mulf : (⟨S100000x128, .f32⟩ : BufTy).Contents (Elt F) → (⟨S100000x128, .f32⟩ : BufTy).Contents (Elt F) → (⟨S100000x128, .f32⟩ : BufTy).Contents (Elt F)),
    unary main_arg11 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (mulf : (⟨S100000x128, .f32⟩ : BufTy).Contents (Elt F) → (⟨S100000x128, .f32⟩ : BufTy).Contents (Elt F) → (⟨S100000x128, .f32⟩ : BufTy).Contents (Elt F)),
    unary main_arg12 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (TRef.of main_v78 : TRef sig ⟨S100000x128, .f32⟩) main_call3.v0 main_call3.v1 maximumf ]

/-- The two-layer head. -/
abbrev S3 : List (HloOp τ sig (Elt F)) :=
  [ unary main_arg13 main_v80 ((transpose S128x128 [1, 0] · transposes_S128x128_S128x128_1_0) : (⟨S128x128, .f32⟩ : BufTy).Contents (Elt F) → (⟨S128x128, .f32⟩ : BufTy).Contents (Elt F)),
    binary main_v79 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg14 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (TRef.of main_v84 : TRef sig ⟨S100000x128, .f32⟩) main_call4.v0 main_call4.v1 maximumf,
    unary main_arg15 main_v86 ((transpose S128x128 [1, 0] · transposes_S128x128_S128x128_1_0) : (⟨S128x128, .f32⟩ : BufTy).Contents (Elt F) → (⟨S128x128, .f32⟩ : BufTy).Contents (Elt F)),
    binary main_v85 main_v86 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)) ]

/-- The last layer: propagation, product and bias. -/
abbrev S4 : List (HloOp τ sig (Elt F)) :=
  [ nullary main_c_12 (constantI S_ 32 0#32),
    unary main_c_12 main_v91 (broadcastInDim S1600000 ![] bcast_S_S1600000 : (⟨S_, .i32⟩ : BufTy).Contents (Elt F) → (⟨S1600000, .i32⟩ : BufTy).Contents (Elt F)),
    binary main_v1 main_v91 main_v92 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v93 (broadcastInDim S1600000 ![] bcast_S_S1600000 : (⟨S_, .i32⟩ : BufTy).Contents (Elt F) → (⟨S1600000, .i32⟩ : BufTy).Contents (Elt F)),
    binary main_v1 main_v93 main_v94 (addi : (⟨S1600000, .i32⟩ : BufTy).Contents (Elt F) → (⟨S1600000, .i32⟩ : BufTy).Contents (Elt F) → (⟨S1600000, .i32⟩ : BufTy).Contents (Elt F)),
    ternary main_v92 main_v94 main_v1 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v95 main_v96 (broadcastInDim S1600000x1 ![0] bcast_S1600000_S1600000x1_0 : (⟨S1600000, .i32⟩ : BufTy).Contents (Elt F) → (⟨S1600000x1, .i32⟩ : BufTy).Contents (Elt F)),
    binary main_v79 main_v96 main_v97 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v98 (broadcastInDim S1600000x1 ![0] bcast_S1600000_S1600000x1_0 : (⟨S1600000, .f32⟩ : BufTy).Contents (Elt F) → (⟨S1600000x1, .f32⟩ : BufTy).Contents (Elt F)),
    unary main_v98 main_v99 (broadcastInDim S1600000x128 ![0, 1] bcast_S1600000x1_S1600000x128_0_1 : (⟨S1600000x1, .f32⟩ : BufTy).Contents (Elt F) → (⟨S1600000x128, .f32⟩ : BufTy).Contents (Elt F)),
    binary main_v97 main_v99 main_v100 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v101 (broadcastInDim S100000x128 ![] bcast_S_S100000x128 : (⟨S_, .f32⟩ : BufTy).Contents (Elt F) → (⟨S100000x128, .f32⟩ : BufTy).Contents (Elt F)),
    unary main_v3 main_v102 (broadcastInDim S1600000x1 ![0] bcast_S1600000_S1600000x1_0 : (⟨S1600000, .i32⟩ : BufTy).Contents (Elt F) → (⟨S1600000x1, .i32⟩ : BufTy).Contents (Elt F)),
    ternary main_v101 main_v102 main_v100 main_v103 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg7 main_v104 ((transpose S128x64 [1, 0] · transposes_S64x128_S128x64_1_0) : (⟨S64x128, .f32⟩ : BufTy).Contents (Elt F) → (⟨S128x64, .f32⟩ : BufTy).Contents (Elt F)),
    binary main_v103 main_v104 main_v105 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v105 main_v107 main_v108 (addf : (⟨S100000x64, .f32⟩ : BufTy).Contents (Elt F) → (⟨S100000x64, .f32⟩ : BufTy).Contents (Elt F) → (⟨S100000x64, .f32⟩ : BufTy).Contents (Elt F)) ]

/-! ## The operations, in the program's own three windows -/

/-- Window 0 of the program's statements. -/
abbrev P0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v11 (broadcastInDim S1600000x1 ![0] bcast_S1600000_S1600000x1_0 : (⟨S1600000, .f32⟩ : BufTy).Contents (Elt F) → (⟨S1600000x1, .f32⟩ : BufTy).Contents (Elt F)),
    unary main_v11 main_v12 (broadcastInDim S1600000x128 ![0, 1] bcast_S1600000x1_S1600000x128_0_1 : (⟨S1600000x1, .f32⟩ : BufTy).Contents (Elt F) → (⟨S1600000x128, .f32⟩ : BufTy).Contents (Elt F)),
    binary main_v10 main_v12 main_v13 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v14 (broadcastInDim S100000x128 ![] bcast_S_S100000x128 : (⟨S_, .f32⟩ : BufTy).Contents (Elt F) → (⟨S100000x128, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v17 ((transpose S128x128 [1, 0] · transposes_S128x128_S128x128_1_0) : (⟨S128x128, .f32⟩ : BufTy).Contents (Elt F) → (⟨S128x128, .f32⟩ : BufTy).Contents (Elt F)),
    binary main_v16 main_v17 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v19 (broadcastInDim S1x128 ![1] bcast_S128_S1x128_1 : (⟨S128, .f32⟩ : BufTy).Contents (Elt F) → (⟨S1x128, .f32⟩ : BufTy).Contents (Elt F)),
    unary main_v19 main_v20 (broadcastInDim S100000x128 ![0, 1] bcast_S1x128_S100000x128_0_1 : (⟨S1x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v21 main_cst_1 main_v22 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call0.cst (constant S_ .f32 0x00000000#32),
    TRef.binary (TRef.of main_v21 : TRef sig ⟨S100000x128, .f32⟩) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (TRef.of main_v21 : TRef sig ⟨S100000x128, .f32⟩) main_call0.v4 main_call0.v5 subf,
    TRef.binary main_call0.v5 main_call0.v5 main_call0.v6 mulf,
    TRef.unary (TRef.of main_c_3 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v24 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v21 main_v27 main_v28 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v29 (broadcastInDim S128 ![] bcast_S_S128 : (⟨S_, .f32⟩ : BufTy).Contents (Elt F) → (⟨S128, .f32⟩ : BufTy).Contents (Elt F)),
    binary main_v25 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v28 main_v33 main_v34 (mulf : (⟨S100000x128, .f32⟩ : BufTy).Contents (Elt F) → (⟨S100000x128, .f32⟩ : BufTy).Contents (Elt F) → (⟨S100000x128, .f32⟩ : BufTy).Contents (Elt F)),
    unary main_arg9 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (mulf : (⟨S100000x128, .f32⟩ : BufTy).Contents (Elt F) → (⟨S100000x128, .f32⟩ : BufTy).Contents (Elt F) → (⟨S100000x128, .f32⟩ : BufTy).Contents (Elt F)),
    unary main_arg10 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (TRef.of main_v40 : TRef sig ⟨S100000x128, .f32⟩) main_call1.v0 main_call1.v1 maximumf,
    nullary main_c_5 (constantI S_ 32 0#32),
    unary main_c_5 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v49 (broadcastInDim S1600000x1 ![0] bcast_S1600000_S1600000x1_0 : (⟨S1600000, .f32⟩ : BufTy).Contents (Elt F) → (⟨S1600000x1, .f32⟩ : BufTy).Contents (Elt F)),
    unary main_v49 main_v50 (broadcastInDim S1600000x128 ![0, 1] bcast_S1600000x1_S1600000x128_0_1 : (⟨S1600000x1, .f32⟩ : BufTy).Contents (Elt F) → (⟨S1600000x128, .f32⟩ : BufTy).Contents (Elt F)) ]

/-- Window 1 of the program's statements. -/
abbrev P1 : List (HloOp τ sig (Elt F)) :=
  [ binary main_v48 main_v50 main_v51 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v52 (broadcastInDim S100000x128 ![] bcast_S_S100000x128 : (⟨S_, .f32⟩ : BufTy).Contents (Elt F) → (⟨S100000x128, .f32⟩ : BufTy).Contents (Elt F)),
    unary main_v3 main_v53 (broadcastInDim S1600000x1 ![0] bcast_S1600000_S1600000x1_0 : (⟨S1600000, .i32⟩ : BufTy).Contents (Elt F) → (⟨S1600000x1, .i32⟩ : BufTy).Contents (Elt F)),
    ternary main_v52 main_v53 main_v51 main_v54 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v55 ((transpose S128x128 [1, 0] · transposes_S128x128_S128x128_1_0) : (⟨S128x128, .f32⟩ : BufTy).Contents (Elt F) → (⟨S128x128, .f32⟩ : BufTy).Contents (Elt F)),
    binary main_v54 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v57 (broadcastInDim S1x128 ![1] bcast_S128_S1x128_1 : (⟨S128, .f32⟩ : BufTy).Contents (Elt F) → (⟨S1x128, .f32⟩ : BufTy).Contents (Elt F)),
    unary main_v57 main_v58 (broadcastInDim S100000x128 ![0, 1] bcast_S1x128_S100000x128_0_1 : (⟨S1x128, .f32⟩ : BufTy).Contents (Elt F) → (⟨S100000x128, .f32⟩ : BufTy).Contents (Elt F)),
    binary main_v56 main_v58 main_v59 (addf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v59 main_cst_8 main_v60 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    nullary main_c_10 (constantI S_ 32 0#32),
    TRef.nullary main_call2.cst (constant S_ .f32 0x00000000#32),
    TRef.binary (TRef.of main_v59 : TRef sig ⟨S100000x128, .f32⟩) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (TRef.of main_v59 : TRef sig ⟨S100000x128, .f32⟩) main_call2.v4 main_call2.v5 subf,
    TRef.binary main_call2.v5 main_call2.v5 main_call2.v6 mulf,
    TRef.unary (TRef.of main_c_10 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v62 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v59 main_v65 main_v66 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v67 (broadcastInDim S128 ![] bcast_S_S128 : (⟨S_, .f32⟩ : BufTy).Contents (Elt F) → (⟨S128, .f32⟩ : BufTy).Contents (Elt F)),
    binary main_v63 main_v67 main_v68 (addf : (⟨S128, .f32⟩ : BufTy).Contents (Elt F) → (⟨S128, .f32⟩ : BufTy).Contents (Elt F) → (⟨S128, .f32⟩ : BufTy).Contents (Elt F)),
    unary main_v68 main_v69 (Host.rsqrt : (⟨S128, .f32⟩ : BufTy).Contents (Elt F) → (⟨S128, .f32⟩ : BufTy).Contents (Elt F)),
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S100000x128 ![0, 1] bcast_S1x128_S100000x128_0_1 : (⟨S1x128, .f32⟩ : BufTy).Contents (Elt F) → (⟨S100000x128, .f32⟩ : BufTy).Contents (Elt F)),
    binary main_v66 main_v71 main_v72 (mulf : (⟨S100000x128, .f32⟩ : BufTy).Contents (Elt F) → (⟨S100000x128, .f32⟩ : BufTy).Contents (Elt F) → (⟨S100000x128, .f32⟩ : BufTy).Contents (Elt F)),
    unary main_arg11 main_v73 (broadcastInDim S1x128 ![1] bcast_S128_S1x128_1 : (⟨S128, .f32⟩ : BufTy).Contents (Elt F) → (⟨S1x128, .f32⟩ : BufTy).Contents (Elt F)),
    unary main_v73 main_v74 (broadcastInDim S100000x128 ![0, 1] bcast_S1x128_S100000x128_0_1 : (⟨S1x128, .f32⟩ : BufTy).Contents (Elt F) → (⟨S100000x128, .f32⟩ : BufTy).Contents (Elt F)),
    binary main_v72 main_v74 main_v75 (mulf : (⟨S100000x128, .f32⟩ : BufTy).Contents (Elt F) → (⟨S100000x128, .f32⟩ : BufTy).Contents (Elt F) → (⟨S100000x128, .f32⟩ : BufTy).Contents (Elt F)),
    unary main_arg12 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (TRef.of main_v78 : TRef sig ⟨S100000x128, .f32⟩) main_call3.v0 main_call3.v1 maximumf,
    unary main_arg13 main_v80 ((transpose S128x128 [1, 0] · transposes_S128x128_S128x128_1_0) : (⟨S128x128, .f32⟩ : BufTy).Contents (Elt F) → (⟨S128x128, .f32⟩ : BufTy).Contents (Elt F)),
    binary main_v79 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg14 main_v82 (broadcastInDim S1x128 ![1] bcast_S128_S1x128_1 : (⟨S128, .f32⟩ : BufTy).Contents (Elt F) → (⟨S1x128, .f32⟩ : BufTy).Contents (Elt F)),
    unary main_v82 main_v83 (broadcastInDim S100000x128 ![0, 1] bcast_S1x128_S100000x128_0_1 : (⟨S1x128, .f32⟩ : BufTy).Contents (Elt F) → (⟨S100000x128, .f32⟩ : BufTy).Contents (Elt F)),
    binary main_v81 main_v83 main_v84 (addf : (⟨S100000x128, .f32⟩ : BufTy).Contents (Elt F) → (⟨S100000x128, .f32⟩ : BufTy).Contents (Elt F) → (⟨S100000x128, .f32⟩ : BufTy).Contents (Elt F)),
    TRef.nullary main_call4.cst (constant S_ .f32 0x00000000#32),
    TRef.unary main_call4.cst main_call4.v0 (broadcastInDim S100000x128 ![] bcast_S_S100000x128),
    TRef.binary (TRef.of main_v84 : TRef sig ⟨S100000x128, .f32⟩) main_call4.v0 main_call4.v1 maximumf,
    unary main_arg15 main_v86 ((transpose S128x128 [1, 0] · transposes_S128x128_S128x128_1_0) : (⟨S128x128, .f32⟩ : BufTy).Contents (Elt F) → (⟨S128x128, .f32⟩ : BufTy).Contents (Elt F)),
    binary main_v85 main_v86 main_v87 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg16 main_v88 (broadcastInDim S1x128 ![1] bcast_S128_S1x128_1 : (⟨S128, .f32⟩ : BufTy).Contents (Elt F) → (⟨S1x128, .f32⟩ : BufTy).Contents (Elt F)),
    unary main_v88 main_v89 (broadcastInDim S100000x128 ![0, 1] bcast_S1x128_S100000x128_0_1 : (⟨S1x128, .f32⟩ : BufTy).Contents (Elt F) → (⟨S100000x128, .f32⟩ : BufTy).Contents (Elt F)),
    binary main_v87 main_v89 main_v90 (addf : (⟨S100000x128, .f32⟩ : BufTy).Contents (Elt F) → (⟨S100000x128, .f32⟩ : BufTy).Contents (Elt F) → (⟨S100000x128, .f32⟩ : BufTy).Contents (Elt F)),
    nullary main_c_12 (constantI S_ 32 0#32),
    unary main_c_12 main_v91 (broadcastInDim S1600000 ![] bcast_S_S1600000 : (⟨S_, .i32⟩ : BufTy).Contents (Elt F) → (⟨S1600000, .i32⟩ : BufTy).Contents (Elt F)),
    binary main_v1 main_v91 main_v92 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v93 (broadcastInDim S1600000 ![] bcast_S_S1600000 : (⟨S_, .i32⟩ : BufTy).Contents (Elt F) → (⟨S1600000, .i32⟩ : BufTy).Contents (Elt F)),
    binary main_v1 main_v93 main_v94 (addi : (⟨S1600000, .i32⟩ : BufTy).Contents (Elt F) → (⟨S1600000, .i32⟩ : BufTy).Contents (Elt F) → (⟨S1600000, .i32⟩ : BufTy).Contents (Elt F)),
    ternary main_v92 main_v94 main_v1 main_v95 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v95 main_v96 (broadcastInDim S1600000x1 ![0] bcast_S1600000_S1600000x1_0 : (⟨S1600000, .i32⟩ : BufTy).Contents (Elt F) → (⟨S1600000x1, .i32⟩ : BufTy).Contents (Elt F)),
    binary main_v79 main_v96 main_v97 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg2 main_v98 (broadcastInDim S1600000x1 ![0] bcast_S1600000_S1600000x1_0 : (⟨S1600000, .f32⟩ : BufTy).Contents (Elt F) → (⟨S1600000x1, .f32⟩ : BufTy).Contents (Elt F)),
    unary main_v98 main_v99 (broadcastInDim S1600000x128 ![0, 1] bcast_S1600000x1_S1600000x128_0_1 : (⟨S1600000x1, .f32⟩ : BufTy).Contents (Elt F) → (⟨S1600000x128, .f32⟩ : BufTy).Contents (Elt F)),
    binary main_v97 main_v99 main_v100 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v101 (broadcastInDim S100000x128 ![] bcast_S_S100000x128 : (⟨S_, .f32⟩ : BufTy).Contents (Elt F) → (⟨S100000x128, .f32⟩ : BufTy).Contents (Elt F)),
    unary main_v3 main_v102 (broadcastInDim S1600000x1 ![0] bcast_S1600000_S1600000x1_0 : (⟨S1600000, .i32⟩ : BufTy).Contents (Elt F) → (⟨S1600000x1, .i32⟩ : BufTy).Contents (Elt F)) ]

/-- Window 2 of the program's statements. -/
abbrev P2 : List (HloOp τ sig (Elt F)) :=
  [ ternary main_v101 main_v102 main_v100 main_v103 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg7 main_v104 ((transpose S128x64 [1, 0] · transposes_S64x128_S128x64_1_0) : (⟨S64x128, .f32⟩ : BufTy).Contents (Elt F) → (⟨S128x64, .f32⟩ : BufTy).Contents (Elt F)),
    binary main_v103 main_v104 main_v105 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg8 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v105 main_v107 main_v108 (addf : (⟨S100000x64, .f32⟩ : BufTy).Contents (Elt F) → (⟨S100000x64, .f32⟩ : BufTy).Contents (Elt F) → (⟨S100000x64, .f32⟩ : BufTy).Contents (Elt F)) ]

/-- The program's 174 operations, in order, the outlined functions' operations in their calls' places. -/
abbrev ops : List (HloOp τ sig (Elt F)) := P0 ++ (P1 ++ P2)

set_option maxRecDepth 8192 in
theorem ops_stages : (ops : List (HloOp τ sig (Elt F))) = S0 ++ (S1 ++ (S2 ++ (S3 ++ S4))) := rfl

set_option maxRecDepth 8192 in
set_option maxHeartbeats 4000000 in
theorem main_part0_eq (c : Dev nD) : main_part0 (F := F) c = seq P0 := rfl
set_option maxRecDepth 8192 in
set_option maxHeartbeats 4000000 in
theorem main_part1_eq (c : Dev nD) : main_part1 (F := F) c = seq P1 := rfl
set_option maxRecDepth 8192 in
theorem main_part2_eq (c : Dev nD) : main_part2 (F := F) c = seq P2 := rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem P0_sub : (P0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩
set_option maxRecDepth 8192 in
theorem P1_sub : (P1 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub ..⟩
set_option maxRecDepth 8192 in
theorem P2_sub : (P2 : List (HloOp τ sig (Elt F))).Forall fun op => op.bufs ⊆ tcRefs τ sig :=
  ⟨ternary_bufs_sub .., unary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp P0_sub op h, List.forall_iff_forall_mem.mp P1_sub op h, List.forall_iff_forall_mem.mp P2_sub op h]

/-! ## What each stage writes, and what it therefore keeps -/

abbrev S0_W : List (Ref sig .tc) := [main_v0, main_v1, main_v2, main_v3]
set_option maxRecDepth 8192 in
theorem S0_writes : (S0 : List (HloOp τ sig (Elt F))).Forall fun op => op.writes ⊆ (S0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev S1_W : List (Ref sig .tc) := [main_c, main_v4, main_v5, main_c_0, main_v6, main_v7, main_v8, main_v9, main_v10, main_v11, main_v12, main_v13, main_cst, main_v14, main_v15, main_v16, main_v17, main_v18, main_v19, main_v20, main_v21, main_cst_1, main_v22, main_cst_2, main_v23, main_v24, main_c_3, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v25, main_v26, main_v27, main_v28, main_cst_4, main_v29, main_v30, main_v31, main_v32, main_v33, main_v34, main_v35, main_v36, main_v37, main_v38, main_v39, main_v40, main_call1_cst, main_call1_v0, main_v41]
set_option maxRecDepth 8192 in
theorem S1_writes : (S1 : List (HloOp τ sig (Elt F))).Forall fun op => op.writes ⊆ (S1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev S2_W : List (Ref sig .tc) := [main_c_5, main_v42, main_v43, main_c_6, main_v44, main_v45, main_v46, main_v47, main_v48, main_v49, main_v50, main_v51, main_cst_7, main_v52, main_v53, main_v54, main_v55, main_v56, main_v57, main_v58, main_v59, main_cst_8, main_v60, main_cst_9, main_v61, main_v62, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v63, main_v64, main_v65, main_v66, main_cst_11, main_v67, main_v68, main_v69, main_v70, main_v71, main_v72, main_v73, main_v74, main_v75, main_v76, main_v77, main_v78, main_call3_cst, main_call3_v0, main_v79]
set_option maxRecDepth 8192 in
theorem S2_writes : (S2 : List (HloOp τ sig (Elt F))).Forall fun op => op.writes ⊆ (S2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev S3_W : List (Ref sig .tc) := [main_v80, main_v81, main_v82, main_v83, main_v84, main_call4_cst, main_call4_v0, main_v85, main_v86, main_v87, main_v88, main_v89, main_v90]
set_option maxRecDepth 8192 in
theorem S3_writes : (S3 : List (HloOp τ sig (Elt F))).Forall fun op => op.writes ⊆ (S3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

abbrev S4_W : List (Ref sig .tc) := [main_c_12, main_v91, main_v92, main_c_13, main_v93, main_v94, main_v95, main_v96, main_v97, main_v98, main_v99, main_v100, main_cst_14, main_v101, main_v102, main_v103, main_v104, main_v105, main_v106, main_v107, main_v108]
set_option maxRecDepth 8192 in
theorem S4_writes : (S4 : List (HloOp τ sig (Elt F))).Forall fun op => op.writes ⊆ (S4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-! ## Each stage's result, from any contents -/

set_option maxRecDepth 8192 in
theorem S0_v1 (W : Valuation τ sig (Elt F)) : after S0 W (Proc.devRef .tc main_v1) = hRow0 (W (Proc.devRef .tc main_arg1)) := by
  simp only [S0]; after_results <;> rfl
set_option maxRecDepth 8192 in
theorem S0_v3 (W : Valuation τ sig (Elt F)) : after S0 W (Proc.devRef .tc main_v3) = hRow1 (W (Proc.devRef .tc main_arg1)) := by
  simp only [S0]; after_results <;> rfl

set_option maxRecDepth 8192 in
set_option maxHeartbeats 4000000 in
theorem S1_v41 (W : Valuation τ sig (Elt F)) : after S1 W (Proc.devRef .tc main_v41)
    = hLayer (W (Proc.devRef .tc main_arg0)) (W (Proc.devRef .tc main_v1)) (W (Proc.devRef .tc main_v3)) (W (Proc.devRef .tc main_arg2)) (W (Proc.devRef .tc main_arg3)) (W (Proc.devRef .tc main_arg4)) (W (Proc.devRef .tc main_arg9)) (W (Proc.devRef .tc main_arg10)) := by
  simp only [S1]; after_results_simp <;> rfl

set_option maxRecDepth 8192 in
set_option maxHeartbeats 4000000 in
theorem S2_v79 (W : Valuation τ sig (Elt F)) : after S2 W (Proc.devRef .tc main_v79)
    = hLayer (W (Proc.devRef .tc main_v41)) (W (Proc.devRef .tc main_v1)) (W (Proc.devRef .tc main_v3)) (W (Proc.devRef .tc main_arg2)) (W (Proc.devRef .tc main_arg5)) (W (Proc.devRef .tc main_arg6)) (W (Proc.devRef .tc main_arg11)) (W (Proc.devRef .tc main_arg12)) := by
  simp only [S2]; after_results_simp <;> rfl

set_option maxRecDepth 8192 in
set_option maxHeartbeats 2000000 in
theorem S3_v90 (W : Valuation τ sig (Elt F)) : after S3 W (Proc.devRef .tc main_v90)
    = hHead (W (Proc.devRef .tc main_v79)) (W (Proc.devRef .tc main_arg13)) (W (Proc.devRef .tc main_arg14)) (W (Proc.devRef .tc main_arg15)) (W (Proc.devRef .tc main_arg16)) := by
  simp only [S3]; after_results_simp <;> rfl

set_option maxRecDepth 8192 in
set_option maxHeartbeats 2000000 in
theorem S4_v108 (W : Valuation τ sig (Elt F)) : after S4 W (Proc.devRef .tc main_v108)
    = hOut (W (Proc.devRef .tc main_v79)) (W (Proc.devRef .tc main_v1)) (W (Proc.devRef .tc main_v3)) (W (Proc.devRef .tc main_arg2)) (W (Proc.devRef .tc main_arg7)) (W (Proc.devRef .tc main_arg8)) := by
  simp only [S4]; after_results_simp <;> rfl

/-! ## The contents after each stage -/

/-- The contents after the first `k` stages, from contents `V`. -/
def val1 (V : Valuation τ sig (Elt F)) : Valuation τ sig (Elt F) := after S0 V
@[inherit_doc val1] def val2 (V : Valuation τ sig (Elt F)) : Valuation τ sig (Elt F) := after S1 (val1 V)
@[inherit_doc val1] def val3 (V : Valuation τ sig (Elt F)) : Valuation τ sig (Elt F) := after S2 (val2 V)
@[inherit_doc val1] def val4 (V : Valuation τ sig (Elt F)) : Valuation τ sig (Elt F) := after S3 (val3 V)
@[inherit_doc val1] def val5 (V : Valuation τ sig (Elt F)) : Valuation τ sig (Elt F) := after S4 (val4 V)

/-- The contents after two lines in a row. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) : after ops V = val5 V := by
  rw [ops_stages, after_app, after_app, after_app, after_app]
  rfl

theorem val1_keep (V : Valuation τ sig (Elt F)) (r : Ref sig .tc) (h : r ∉ S0_W) : val1 V (Proc.devRef .tc r) = V (Proc.devRef .tc r) :=
  after_of_writes_sub S0 _ S0_writes h
theorem val2_keep (V : Valuation τ sig (Elt F)) (r : Ref sig .tc) (h : r ∉ S1_W) : val2 V (Proc.devRef .tc r) = val1 V (Proc.devRef .tc r) :=
  after_of_writes_sub S1 _ S1_writes h
theorem val3_keep (V : Valuation τ sig (Elt F)) (r : Ref sig .tc) (h : r ∉ S2_W) : val3 V (Proc.devRef .tc r) = val2 V (Proc.devRef .tc r) :=
  after_of_writes_sub S2 _ S2_writes h
theorem val4_keep (V : Valuation τ sig (Elt F)) (r : Ref sig .tc) (h : r ∉ S3_W) : val4 V (Proc.devRef .tc r) = val3 V (Proc.devRef .tc r) :=
  after_of_writes_sub S3 _ S3_writes h
theorem val5_keep (V : Valuation τ sig (Elt F)) (r : Ref sig .tc) (h : r ∉ S4_W) : val5 V (Proc.devRef .tc r) = val4 V (Proc.devRef .tc r) :=
  after_of_writes_sub S4 _ S4_writes h

/-- A buffer no stage writes keeps its contents to the end. -/
theorem val5_arg (V : Valuation τ sig (Elt F)) (r : Ref sig .tc) (h0 : r ∉ S0_W) (h1 : r ∉ S1_W) (h2 : r ∉ S2_W) (h3 : r ∉ S3_W) (h4 : r ∉ S4_W) :
    val5 V (Proc.devRef .tc r) = V (Proc.devRef .tc r) :=
  (val5_keep V r h4).trans ((val4_keep V r h3).trans ((val3_keep V r h2).trans ((val2_keep V r h1).trans (val1_keep V r h0))))

/-! ## The results as functions of the arguments' contents -/

/-- The source and destination index vectors. -/
def resSrc (V : Valuation τ sig (Elt F)) : (⟨S1600000, .i32⟩ : BufTy).Contents (Elt F) := hRow0 (V (Proc.devRef .tc main_arg1))
@[inherit_doc resSrc] def resDst (V : Valuation τ sig (Elt F)) : (⟨S1600000, .i32⟩ : BufTy).Contents (Elt F) := hRow1 (V (Proc.devRef .tc main_arg1))
/-- The first layer's features. -/
def resH1 (V : Valuation τ sig (Elt F)) : (⟨S100000x128, .f32⟩ : BufTy).Contents (Elt F) :=
  hLayer (V (Proc.devRef .tc main_arg0)) (resSrc V) (resDst V) (V (Proc.devRef .tc main_arg2)) (V (Proc.devRef .tc main_arg3)) (V (Proc.devRef .tc main_arg4)) (V (Proc.devRef .tc main_arg9)) (V (Proc.devRef .tc main_arg10))
/-- The second layer's features. -/
def resH2 (V : Valuation τ sig (Elt F)) : (⟨S100000x128, .f32⟩ : BufTy).Contents (Elt F) :=
  hLayer (resH1 V) (resSrc V) (resDst V) (V (Proc.devRef .tc main_arg2)) (V (Proc.devRef .tc main_arg5)) (V (Proc.devRef .tc main_arg6)) (V (Proc.devRef .tc main_arg11)) (V (Proc.devRef .tc main_arg12))
/-- The head's output. -/
def resZ (V : Valuation τ sig (Elt F)) : (⟨S100000x128, .f32⟩ : BufTy).Contents (Elt F) := hHead (resH2 V) (V (Proc.devRef .tc main_arg13)) (V (Proc.devRef .tc main_arg14)) (V (Proc.devRef .tc main_arg15)) (V (Proc.devRef .tc main_arg16))
/-- The last layer's output. -/
def resLogits (V : Valuation τ sig (Elt F)) : (⟨S100000x64, .f32⟩ : BufTy).Contents (Elt F) :=
  hOut (resH2 V) (resSrc V) (resDst V) (V (Proc.devRef .tc main_arg2)) (V (Proc.devRef .tc main_arg7)) (V (Proc.devRef .tc main_arg8))

theorem val1_v1 (V : Valuation τ sig (Elt F)) : val1 V (Proc.devRef .tc main_v1) = resSrc V := S0_v1 V
theorem val1_v3 (V : Valuation τ sig (Elt F)) : val1 V (Proc.devRef .tc main_v3) = resDst V := S0_v3 V

theorem val2_v41 (V : Valuation τ sig (Elt F)) : val2 V (Proc.devRef .tc main_v41) = resH1 V := by
  unfold val2 resH1
  rw [S1_v41, val1_v1, val1_v3, val1_keep V main_arg0 (by decide), val1_keep V main_arg2 (by decide), val1_keep V main_arg3 (by decide),
    val1_keep V main_arg4 (by decide), val1_keep V main_arg9 (by decide), val1_keep V main_arg10 (by decide)]

theorem val2_v1 (V : Valuation τ sig (Elt F)) : val2 V (Proc.devRef .tc main_v1) = resSrc V := (val2_keep V main_v1 (by decide)).trans (val1_v1 V)
theorem val2_v3 (V : Valuation τ sig (Elt F)) : val2 V (Proc.devRef .tc main_v3) = resDst V := (val2_keep V main_v3 (by decide)).trans (val1_v3 V)
theorem val2_arg (V : Valuation τ sig (Elt F)) (r : Ref sig .tc) (h0 : r ∉ S0_W) (h1 : r ∉ S1_W) : val2 V (Proc.devRef .tc r) = V (Proc.devRef .tc r) :=
  (val2_keep V r h1).trans (val1_keep V r h0)

theorem val3_v79 (V : Valuation τ sig (Elt F)) : val3 V (Proc.devRef .tc main_v79) = resH2 V := by
  unfold val3 resH2
  rw [S2_v79, val2_v41, val2_v1, val2_v3, val2_arg V main_arg2 (by decide) (by decide), val2_arg V main_arg5 (by decide) (by decide),
    val2_arg V main_arg6 (by decide) (by decide), val2_arg V main_arg11 (by decide) (by decide), val2_arg V main_arg12 (by decide) (by decide)]

theorem val3_v1 (V : Valuation τ sig (Elt F)) : val3 V (Proc.devRef .tc main_v1) = resSrc V := (val3_keep V main_v1 (by decide)).trans (val2_v1 V)
theorem val3_v3 (V : Valuation τ sig (Elt F)) : val3 V (Proc.devRef .tc main_v3) = resDst V := (val3_keep V main_v3 (by decide)).trans (val2_v3 V)
theorem val3_arg (V : Valuation τ sig (Elt F)) (r : Ref sig .tc) (h0 : r ∉ S0_W) (h1 : r ∉ S1_W) (h2 : r ∉ S2_W) : val3 V (Proc.devRef .tc r) = V (Proc.devRef .tc r) :=
  (val3_keep V r h2).trans (val2_arg V r h0 h1)

theorem val4_v90 (V : Valuation τ sig (Elt F)) : val4 V (Proc.devRef .tc main_v90) = resZ V := by
  unfold val4 resZ
  rw [S3_v90, val3_v79, val3_arg V main_arg13 (by decide) (by decide) (by decide), val3_arg V main_arg14 (by decide) (by decide) (by decide),
    val3_arg V main_arg15 (by decide) (by decide) (by decide), val3_arg V main_arg16 (by decide) (by decide) (by decide)]

theorem val4_v79 (V : Valuation τ sig (Elt F)) : val4 V (Proc.devRef .tc main_v79) = resH2 V := (val4_keep V main_v79 (by decide)).trans (val3_v79 V)
theorem val4_v1 (V : Valuation τ sig (Elt F)) : val4 V (Proc.devRef .tc main_v1) = resSrc V := (val4_keep V main_v1 (by decide)).trans (val3_v1 V)
theorem val4_v3 (V : Valuation τ sig (Elt F)) : val4 V (Proc.devRef .tc main_v3) = resDst V := (val4_keep V main_v3 (by decide)).trans (val3_v3 V)
theorem val4_arg (V : Valuation τ sig (Elt F)) (r : Ref sig .tc) (h0 : r ∉ S0_W) (h1 : r ∉ S1_W) (h2 : r ∉ S2_W) (h3 : r ∉ S3_W) : val4 V (Proc.devRef .tc r) = V (Proc.devRef .tc r) :=
  (val4_keep V r h3).trans (val3_arg V r h0 h1 h2)

theorem val5_v108 (V : Valuation τ sig (Elt F)) : val5 V (Proc.devRef .tc main_v108) = resLogits V := by
  unfold val5 resLogits
  rw [S4_v108, val4_v79, val4_v1, val4_v3, val4_arg V main_arg2 (by decide) (by decide) (by decide) (by decide),
    val4_arg V main_arg7 (by decide) (by decide) (by decide) (by decide), val4_arg V main_arg8 (by decide) (by decide) (by decide) (by decide)]

theorem val5_v79 (V : Valuation τ sig (Elt F)) : val5 V (Proc.devRef .tc main_v79) = resH2 V := (val5_keep V main_v79 (by decide)).trans (val4_v79 V)
theorem val5_v90 (V : Valuation τ sig (Elt F)) : val5 V (Proc.devRef .tc main_v90) = resZ V := (val5_keep V main_v90 (by decide)).trans (val4_v90 V)

/-! ## The run -/

/-- On every device, for any float values, from any memory with zero counters: every weakly fair execution of the
    program terminates with the three results at the stages' composition over the arguments' contents at launch, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = resLogits (launchContents m c)
      ∧ r.2.mem ((c.tc : Thread nD τ).loc main_v79) = resH2 (launchContents m c)
      ∧ r.2.mem ((c.tc : Thread nD τ).loc main_v90) = resZ (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v108).trans (by rw [after_ops]; exact val5_v108 _),
      (h c main_v79).trans (by rw [after_ops]; exact val5_v79 _),
      (h c main_v90).trans (by rw [after_ops]; exact val5_v90 _),
      (h c main_arg0).trans (by rw [after_ops]; exact val5_arg _ main_arg0 (by decide) (by decide) (by decide) (by decide) (by decide)),
      (h c main_arg1).trans (by rw [after_ops]; exact val5_arg _ main_arg1 (by decide) (by decide) (by decide) (by decide) (by decide)),
      (h c main_arg2).trans (by rw [after_ops]; exact val5_arg _ main_arg2 (by decide) (by decide) (by decide) (by decide) (by decide)),
      (h c main_arg3).trans (by rw [after_ops]; exact val5_arg _ main_arg3 (by decide) (by decide) (by decide) (by decide) (by decide)),
      (h c main_arg4).trans (by rw [after_ops]; exact val5_arg _ main_arg4 (by decide) (by decide) (by decide) (by decide) (by decide)),
      (h c main_arg5).trans (by rw [after_ops]; exact val5_arg _ main_arg5 (by decide) (by decide) (by decide) (by decide) (by decide)),
      (h c main_arg6).trans (by rw [after_ops]; exact val5_arg _ main_arg6 (by decide) (by decide) (by decide) (by decide) (by decide)),
      (h c main_arg7).trans (by rw [after_ops]; exact val5_arg _ main_arg7 (by decide) (by decide) (by decide) (by decide) (by decide)),
      (h c main_arg8).trans (by rw [after_ops]; exact val5_arg _ main_arg8 (by decide) (by decide) (by decide) (by decide) (by decide)),
      (h c main_arg9).trans (by rw [after_ops]; exact val5_arg _ main_arg9 (by decide) (by decide) (by decide) (by decide) (by decide)),
      (h c main_arg10).trans (by rw [after_ops]; exact val5_arg _ main_arg10 (by decide) (by decide) (by decide) (by decide) (by decide)),
      (h c main_arg11).trans (by rw [after_ops]; exact val5_arg _ main_arg11 (by decide) (by decide) (by decide) (by decide) (by decide)),
      (h c main_arg12).trans (by rw [after_ops]; exact val5_arg _ main_arg12 (by decide) (by decide) (by decide) (by decide) (by decide)),
      (h c main_arg13).trans (by rw [after_ops]; exact val5_arg _ main_arg13 (by decide) (by decide) (by decide) (by decide) (by decide)),
      (h c main_arg14).trans (by rw [after_ops]; exact val5_arg _ main_arg14 (by decide) (by decide) (by decide) (by decide) (by decide)),
      (h c main_arg15).trans (by rw [after_ops]; exact val5_arg _ main_arg15 (by decide) (by decide) (by decide) (by decide) (by decide)),
      (h c main_arg16).trans (by rw [after_ops]; exact val5_arg _ main_arg16 (by decide) (by decide) (by decide) (by decide) (by decide))⟩)
    (run_seq scopedRefs_eq scopedSems_eq defs main (fun _ => ops) main_eq (fun _ => ops_sub) m ρ)

end Cert.ReferenceIdeal.RefRun

end
-- ==== Proof.RefStages.lean ====
/-
  Each stage of the host program, at the extended reals, is the network's function of the same name.

  A propagation step is rows taken along the edges, scaled per edge and summed per destination node. A product with a
  transposed weight plus a bias laid along the rows is `pre`. The column sums over the node count are the column
  mean. The variance stage keeps the mean as one row, squares the deviations, sums them down the columns and divides
  by the node count less a correction of zero; the divisor is the positive real 100000, so the guarded quotient is
  the quotient, and the stage is the column mean of the squared deviations. The normalisation is `bnRelu`.
-/
import proofs.«117873_j69002944578214_2_alg».proof.Proof.RefRun
import proofs.«117873_j69002944578214_2_alg».proof.Proof.LibSgcPropHost
import proofs.«117873_j69002944578214_2_alg».proof.Proof.LibSageHost
import Idealize.ShloMosaic.Lib.ValueLayout
import Idealize.ShloMosaic.Lib.IdealHost

noncomputable section

namespace Cert.ReferenceIdeal.RefStages

open Cert.ReferenceIdeal Cert.ReferenceIdeal.Gen Cert.ReferenceIdeal.RefRun Idealize.ShloMosaic Idealize.ShloMosaic.ValueIdx
  Cert.DenseLib Cert.RowsLib Cert.ScatterLib Cert.LayoutLib Cert.Sage Cert.Gcn

/-! ## The node count -/

/-- The float word `0x47C35000` is 100000: exponent field 143, fraction field 4411392, so
    (2^23 + 4411392) · 2^(143 - 127 - 23) = 12800000 / 128. -/
private theorem lit_cN : Ideal.ofBits .f32 0x47C35000#32 = ((100000 : ℝ) : EReal) := by
  simp [Ideal.ofBits, Ideal.ieee, -EReal.coe_mul]; norm_num

/-- The node count less the float of the zero word is the node count. -/
private theorem divisor_eq : hDivisor (F := Ideal) (constantI S_ 32 0#32) = constant (F := Ideal) S_ .f32 0x47C35000#32 := by
  funext i
  show Ideal.ofBits .f32 0x47C35000#32 - (((0#32 : BitVec 32).toInt : ℝ) : EReal) = Ideal.ofBits .f32 0x47C35000#32
  have h0 : (((0#32 : BitVec 32).toInt : ℝ) : EReal) = 0 := by simp
  rw [h0, sub_zero]

/-- The node count is greater than zero. -/
private theorem divisor_pos (i : S_.Idx) :
    cmpf (F := Ideal) .ogt (constant (F := Ideal) S_ .f32 0x47C35000#32) (constant (F := Ideal) S_ .f32 0x00000000#32) i = 1#1 := by
  show Ideal.cmp .ogt (Ideal.ofBits .f32 0x47C35000#32) (Ideal.ofBits .f32 0x00000000#32) = 1#1
  rw [lit_cN, Ideal.ofBits_zero_f32]
  have h : (0 : EReal) < ((100000 : ℝ) : EReal) := by exact_mod_cast (by norm_num : (0 : ℝ) < 100000)
  simp [Ideal.cmp, h]

/-! ## The transposed weight -/

theorem transpose_eq_tr {a b : ℕ} (W : Mat a b) (h : (⟨2, ![a, b]⟩ : Shape).Transposes [1, 0] ⟨2, ![b, a]⟩) :
    transpose ⟨2, ![b, a]⟩ [1, 0] W h = Cert.Sgc.tr W := by
  funext i
  obtain ⟨p, q, rfl⟩ : ∃ (p : Fin b) (q : Fin a), i = ix2 p q := ⟨i 0, i 1, eq_ix2 i⟩
  rw [transpose_ix2_apply]
  rfl

/-! ## The stages -/

/-- The propagation step. -/
theorem hProp_eq (X : Mat 100000 128) (s d : IVc 1600000) (ew : Vc 1600000) :
    hProp (F := Ideal) X s d ew
      = Cert.Sgc.prop Cert.Sgc.nodes_pos (wrapCol bcast_S1600000_S1600000x1_0 bcast_S_S1600000 100000#32 s)
          (rawCol bcast_S1600000_S1600000x1_0 d) ew X :=
  Cert.Sgc.hostProp_eq Cert.Sgc.nodes_pos gather_S100000x128_S1600000x1_S1600000x128_1_0_n_n_0_1_1128_wf
    gather_S100000x128_S1600000x1_S1600000x128_1_0_n_n_0_1_1128 rfl
    scatter_S100000x128_S1600000x1_S1600000x128_1_0_0_1_wf scatter_S100000x128_S1600000x1_S1600000x128_1_0_0_1 rfl bcast_S_S100000x128 bcast_S1600000_S1600000x1_0
    bcast_S1600000x1_S1600000x128_0_1 X (wrapCol bcast_S1600000_S1600000x1_0 bcast_S_S1600000 100000#32 s)
    (rawCol bcast_S1600000_S1600000x1_0 d) ew

/-- The product with the transposed weight plus the bias, at 128 columns. -/
theorem hPre_eq (P : Mat 100000 128) (Wt : Mat 128 128) (b : Vc 128) :
    hPre (F := Ideal) P Wt b = Cert.Sgc.pre P (Cert.Sgc.tr Wt) b := by
  unfold hPre
  rw [dotGeneral_eq_mm dot_S100000x128_S128x128_S100000x128_1_0_0_1_n_n rfl, transpose_eq_tr, broadcastInDim_eq_rows]
  rfl

/-- The column mean. -/
theorem hMean_eq (Z : Mat 100000 128) (h : S100000x128.Reduces [0] S128 := by decide) :
    hMean (F := Ideal) Z = colMean Cert.Sgc.cN Z :=
  colMean_eq reducesTo_S100000x128_S128_d0 h h_S_ bcast_S_S128 0x47C35000#32 Z

/-- The deviations from the mean kept as one row are the deviations from the column mean. -/
theorem hDev_eq (Z : Mat 100000 128) (h : S100000x128.Reduces [0] S128 := by decide) :
    (mulf (hDev (F := Ideal) Z) (hDev (F := Ideal) Z) : FVec Ideal S100000x128 .f32) = sqDev Z (colMean Cert.Sgc.cN Z) := by
  funext i
  obtain ⟨p, q, rfl⟩ : ∃ (p : Fin 100000) (q : Fin 128), i = ix2 p q := ⟨i 0, i 1, eq_ix2 i⟩
  have hd : hDev (F := Ideal) Z (ix2 p q) = Z (ix2 p q) - colMean Cert.Sgc.cN Z (ix1 q) := by
    show Z (ix2 p q) - broadcastInDim S100000x128 ![0, 1] bcast_S1x128_S100000x128_0_1
        (Host.divf (F := Ideal) (broadcastInDim S1x128 ![1] bcast_S128_S1x128_1
            (Host.reduceAdd (F := Ideal) Z (constant (F := Ideal) S_ .f32 0x00000000#32) reducesTo_S100000x128_S128_d0 h_S_))
          (broadcastInDim S1x128 ![] bcast_S_S1x128 (constant (F := Ideal) S_ .f32 0x47C35000#32))) (ix2 p q) = _
    rw [broadcastInDim_row_apply]
    show Z (ix2 p q) - Ideal.div (broadcastInDim S1x128 ![1] bcast_S128_S1x128_1
            (Host.reduceAdd (F := Ideal) Z (constant (F := Ideal) S_ .f32 0x00000000#32) reducesTo_S100000x128_S128_d0 h_S_) (ix2 0 q))
          (broadcastInDim S1x128 ![] bcast_S_S1x128 (constant (F := Ideal) S_ .f32 0x47C35000#32) (ix2 0 q)) = _
    rw [broadcastInDim_vecRow_apply, Cert.LayoutLib.broadcastInDim_scalar_apply, ← hMean_eq Z h]
    rfl
  show hDev (F := Ideal) Z (ix2 p q) * hDev (F := Ideal) Z (ix2 p q) = _
  rw [hd]
  rfl

/-- The variance stage with a zero correction is the column mean of the squared deviations. -/
theorem hVar_eq (Z : Mat 100000 128) (h : S100000x128.Reduces [0] S128 := by decide) :
    hVar (F := Ideal) Z (constantI S_ 32 0#32) = colMean Cert.Sgc.cN (sqDev Z (colMean Cert.Sgc.cN Z)) := by
  unfold hVar
  rw [divisor_eq, hDev_eq Z h, colMean_eq reducesTo_S100000x128_S128_d0 h h_S_ bcast_S_S128 0x47C35000#32]
  funext j
  show Scalar.select (broadcastInDim S128 ![] bcast_S_S128
      (cmpf (F := Ideal) .ogt (constant (F := Ideal) S_ .f32 0x47C35000#32) (constant (F := Ideal) S_ .f32 0x00000000#32)) j) _ _ = _
  have hc : broadcastInDim S128 ![] bcast_S_S128
      (cmpf (F := Ideal) .ogt (constant (F := Ideal) S_ .f32 0x47C35000#32) (constant (F := Ideal) S_ .f32 0x00000000#32)) j = 1#1 :=
    (Cert.LayoutLib.broadcastInDim_scalar_apply bcast_S_S128 _ j).trans (divisor_pos ix0)
  rw [hc]
  rfl

/-- The normalisation and the cut at zero. -/
theorem hBn_eq (Z : Mat 100000 128) (mu var g be : Vc 128) :
    hBn (F := Ideal) Z mu var g be = bnRelu Cert.Sgc.eps Z mu var g be :=
  bn_eq bcast_S128_S1x128_1 bcast_S1x128_S100000x128_0_1 bcast_S_S128 bcast_S_S100000x128 0x3727C5AC#32 Z mu var g be

/-- One normalised layer. -/
theorem hLayer_eq (X : Mat 100000 128) (s d : IVc 1600000) (ew : Vc 1600000) (Wt : Mat 128 128) (b g be : Vc 128) :
    hLayer (F := Ideal) X s d ew Wt b g be
      = Cert.Sgc.normTwo Cert.Sgc.cN Cert.Sgc.eps
          (Cert.Sgc.pre (Cert.Sgc.prop Cert.Sgc.nodes_pos (wrapCol bcast_S1600000_S1600000x1_0 bcast_S_S1600000 100000#32 s)
            (rawCol bcast_S1600000_S1600000x1_0 d) ew X) (Cert.Sgc.tr Wt) b) g be := by
  unfold hLayer Cert.Sgc.normTwo
  rw [hProp_eq, hPre_eq, hMean_eq, hVar_eq, hBn_eq]

/-- The two-layer head. -/
theorem hHead_eq (H : Mat 100000 128) (W1 : Mat 128 128) (b1 : Vc 128) (W2 : Mat 128 128) (b2 : Vc 128) :
    hHead (F := Ideal) H W1 b1 W2 b2 = Cert.Sgc.proj H (Cert.Sgc.tr W1) b1 (Cert.Sgc.tr W2) b2 := by
  unfold hHead Cert.Sgc.proj
  rw [hPre_eq, hPre_eq, maximumf_bcast_zero]

/-- The last layer. -/
theorem hOut_eq (H : Mat 100000 128) (s d : IVc 1600000) (ew : Vc 1600000) (Wt : Mat 64 128) (b : Vc 64) :
    hOut (F := Ideal) H s d ew Wt b
      = Cert.Sgc.pre (Cert.Sgc.prop Cert.Sgc.nodes_pos (wrapCol bcast_S1600000_S1600000x1_0 bcast_S_S1600000 100000#32 s)
          (rawCol bcast_S1600000_S1600000x1_0 d) ew H) (Cert.Sgc.tr Wt) b := by
  unfold hOut
  rw [hProp_eq, dotGeneral_eq_mm dot_S100000x128_S128x64_S100000x64_1_0_0_1_n_n rfl, transpose_eq_tr, broadcastInDim_eq_rows]
  rfl

end Cert.ReferenceIdeal.RefStages

end
-- ==== Proof.RefValue.lean ====
/-
  The host program's three results are the network's functions of its arguments.

  The arguments are read from a memory: the features, the edge weights and the layers' parameters are the argument
  buffers' contents; the source column is row 0 of the index table with every negative entry increased by the node
  count, laid as a column, and the destination column is row 1 laid as a column.
-/
import proofs.«117873_j69002944578214_2_alg».proof.Proof.RefStages

noncomputable section

namespace Cert.ReferenceIdeal.RefValue

open Cert.ReferenceIdeal Cert.ReferenceIdeal.Gen Cert.ReferenceIdeal.RefRun Cert.ReferenceIdeal.RefStages Idealize.ShloMosaic
  Idealize.ShloMosaic.TcCoe Idealize.SL.Sem Idealize.ShloMosaic.StableHlo

/-- The network's arguments, read from a memory on one device. -/
def args (m : (ℓ : Loc nD τ sig) → Buf (Elt Ideal) ℓ) (c : Dev nD) : Cert.Sgc.Args where
  x := m ((c.tc : Thread nD τ).loc main_arg0)
  src := Cert.Gcn.wrapCol bcast_S1600000_S1600000x1_0 bcast_S_S1600000 100000#32
    (shapeCast S1600000 (extractStridedSlice S1x1600000 ![0, 0] (m ((c.tc : Thread nD τ).loc main_arg1)) slices_S2x1600000_S1x1600000_0_0)
      shapeCasts_S1x1600000_S1600000)
  dst := Cert.Gcn.rawCol bcast_S1600000_S1600000x1_0
    (shapeCast S1600000 (extractStridedSlice S1x1600000 ![1, 0] (m ((c.tc : Thread nD τ).loc main_arg1)) slices_S2x1600000_S1x1600000_1_0)
      shapeCasts_S1x1600000_S1600000)
  ew := m ((c.tc : Thread nD τ).loc main_arg2)
  W1 := m ((c.tc : Thread nD τ).loc main_arg3)
  b1 := m ((c.tc : Thread nD τ).loc main_arg4)
  W2 := m ((c.tc : Thread nD τ).loc main_arg5)
  b2 := m ((c.tc : Thread nD τ).loc main_arg6)
  W3 := m ((c.tc : Thread nD τ).loc main_arg7)
  b3 := m ((c.tc : Thread nD τ).loc main_arg8)
  g1 := m ((c.tc : Thread nD τ).loc main_arg9)
  be1 := m ((c.tc : Thread nD τ).loc main_arg10)
  g2 := m ((c.tc : Thread nD τ).loc main_arg11)
  be2 := m ((c.tc : Thread nD τ).loc main_arg12)
  pW1 := m ((c.tc : Thread nD τ).loc main_arg13)
  pb1 := m ((c.tc : Thread nD τ).loc main_arg14)
  pW2 := m ((c.tc : Thread nD τ).loc main_arg15)
  pb2 := m ((c.tc : Thread nD τ).loc main_arg16)

variable (m : (ℓ : Loc nD τ sig) → Buf (Elt Ideal) ℓ) (c : Dev nD)

theorem resH1_eq : resH1 (F := Ideal) (launchContents m c) = Cert.Sgc.refH1 (args m c) := by
  unfold resH1
  rw [hLayer_eq]
  rfl

theorem resH2_eq : resH2 (F := Ideal) (launchContents m c) = Cert.Sgc.refH2 (args m c) := by
  unfold resH2
  rw [hLayer_eq, resH1_eq]
  rfl

theorem resZ_eq : resZ (F := Ideal) (launchContents m c) = Cert.Sgc.refZ (args m c) := by
  unfold resZ
  rw [hHead_eq, resH2_eq]
  rfl

theorem resLogits_eq : resLogits (F := Ideal) (launchContents m c) = Cert.Sgc.refLogits (args m c) := by
  unfold resLogits
  rw [hOut_eq, resH2_eq]
  rfl

/-- From any memory with zero counters, every weakly fair execution of the host program terminates with the three
    results at the network's functions of the arguments read from that memory, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v108) = Cert.Sgc.refLogits (args m c)
      ∧ r.2.mem ((c.tc : Thread nD τ).loc main_v79) = Cert.Sgc.refH2 (args m c)
      ∧ r.2.mem ((c.tc : Thread nD τ).loc main_v90) = Cert.Sgc.refZ (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run _ _ _).mono (fun _ h c => by
      obtain ⟨h108, h79, h90, hargs⟩ := h c
      exact ⟨h108.trans (resLogits_eq m c), h79.trans (resH2_eq m c), h90.trans (resZ_eq m c), hargs⟩)
    (RefRun.run (F := Ideal) m ρ)

end Cert.ReferenceIdeal.RefValue

end
-- ==== Proof.LibSgcStats.lean ====
/-
  The column statistics of the network, gathered in one pass tile by tile, equal the two-pass statistics where the
  entries are real and the divisor is the number of rows.

  * The tile sums of a column add up to the column sum: a finite sum over N = B · T rows regrouped as B sums of T
    rows, row t · T + r being row r of tile t.  This needs no finiteness.
  * For reals z₁ … z_N with mean μ = (Σ z) / N one has (Σ z²) / N − μ² = (Σ (z − μ)²) / N, since
    Σ (z − μ)² = Σ z² − 2 μ Σ z + N μ², and the right side is a mean of squares, so it is not negative and the cut
    below at zero leaves it unchanged.
  * The normalisation is then the same function applied to equal means and equal variances.
-/
import proofs.«117873_j69002944578214_2_alg».proof.Proof.LibSgcSpec
import proofs.«117873_j69002944578214_2_alg».proof.Proof.LibSageAlgebra
import Idealize.ShloMosaic.PureOps.Ideal.Laws

noncomputable section

namespace Cert.Sgc

open Idealize.ShloMosaic Idealize.ShloMosaic.ValueIdx Cert.DenseLib Cert.RowsLib Cert.Sage

/-! ## The three float words -/

/-- The word 0x47C35000: sign 0, exponent field 143, fraction field 4411392, so
    (2^23 + 4411392) · 2^(143 − 127 − 23) = 12800000 / 128 = 100000. -/
theorem lit_cN : cN = ((100000 : ℝ) : EReal) := by
  unfold cN
  simp [Ideal.ofBits, Ideal.ieee, -EReal.coe_mul]; norm_num

/-- The stabiliser is a positive real. -/
theorem lit_eps' : ∃ e : ℝ, 0 < e ∧ eps = (e : EReal) := lit_eps

/-- The all-zero word is zero. -/
theorem zeros64_eq : zeros64 = fun _ => 0 := by
  funext _
  exact Ideal.ofBits_zero_f32

/-! ## The tile sums add up to the column sums -/

/-- Row r of tile t is the row numbered r + T · t. -/
theorem tileRow_eq {B T : ℕ} (t : Fin B) (r : Fin T) :
    tileRow (N := B * T) rfl t r = finProdFinEquiv (t, r) := by
  apply Fin.ext
  show t.val * T + r.val = r.val + T * t.val
  ring

/-- The sums of a column over the B tiles of T rows add up to the sum of the column over all N = B · T rows. -/
theorem tileSums_total {N C B T : ℕ} (h : B * T = N) (Z : Mat N C) (q : Fin C) :
    ∑ t : Fin B, tileSums B T h Z (ix3 t (0 : Fin 1) q) = ∑ n : Fin N, Z (ix2 n q) := by
  subst h
  show ∑ t : Fin B, ∑ r : Fin T, Z (ix2 (tileRow rfl t r) q) = ∑ n : Fin (B * T), Z (ix2 n q)
  rw [← Equiv.sum_comp finProdFinEquiv (fun n : Fin (B * T) => Z (ix2 n q)), Fintype.sum_prod_type]
  refine Finset.sum_congr rfl fun t _ => Finset.sum_congr rfl fun r _ => ?_
  rw [tileRow_eq]

/-- The tile sums added and divided by the count are the column means (no finiteness needed). -/
theorem meanT_tileSums {N C B T : ℕ} (h : B * T = N) (cN : EReal) (Z : Mat N C) :
    rowVec (meanT cN (tileSums B T h Z)) = colMean cN Z := by
  funext j
  show Ideal.div (0 + ∑ t : Fin B, tileSums B T h Z (ix3 t (0 : Fin 1) (j 0))) cN
    = Ideal.div (0 + ∑ n : Fin N, Z (ix2 n (j 0))) cN
  exact congrArg (fun s => Ideal.div (0 + s) cN) (tileSums_total h Z (j 0))

/-! ## The statistics of real entries -/

/-- The column mean of real entries over a nonzero real count is the real quotient. -/
theorem colMean_coe {N C : ℕ} {c : ℝ} (hc : c ≠ 0) (z : (⟨2, ![N, C]⟩ : Shape).Idx → ℝ)
    (j : (⟨1, ![C]⟩ : Shape).Idx) :
    colMean (c : EReal) (fun i => (z i : EReal)) j = (((∑ n : Fin N, z (ix2 n (j 0))) / c : ℝ) : EReal) := by
  show Ideal.div (0 + ∑ n : Fin N, ((z (ix2 n (j 0)) : ℝ) : EReal)) (c : EReal) = _
  rw [Ideal.div_coe hc, zero_add, ← coe_sum, ← EReal.coe_mul, mul_one_div]

/-- Mean of the squares minus the square of the mean is the mean squared deviation from the mean:
    Σ (f − μ)² = Σ f² − 2 μ Σ f + N μ² with μ = (Σ f) / N. -/
theorem real_var_identity {N : ℕ} (hN : 0 < N) (f : Fin N → ℝ) :
    (∑ n, f n * f n) / (N : ℝ) - (∑ n, f n) / (N : ℝ) * ((∑ n, f n) / (N : ℝ))
      = (∑ n, (f n - (∑ m, f m) / (N : ℝ)) * (f n - (∑ m, f m) / (N : ℝ))) / (N : ℝ) := by
  have hN' : (N : ℝ) ≠ 0 := by exact_mod_cast hN.ne'
  have expand : ∑ n, (f n - (∑ m, f m) / (N : ℝ)) * (f n - (∑ m, f m) / (N : ℝ))
      = (∑ n, f n * f n) - 2 * ((∑ m, f m) / (N : ℝ)) * (∑ n, f n)
        + (N : ℝ) * ((∑ m, f m) / (N : ℝ) * ((∑ m, f m) / (N : ℝ))) := by
    have hterm : ∀ n, (f n - (∑ m, f m) / (N : ℝ)) * (f n - (∑ m, f m) / (N : ℝ))
        = f n * f n - 2 * ((∑ m, f m) / (N : ℝ)) * f n
          + (∑ m, f m) / (N : ℝ) * ((∑ m, f m) / (N : ℝ)) := fun n => by ring
    simp only [hterm, Finset.sum_add_distrib, Finset.sum_sub_distrib, ← Finset.mul_sum, Finset.sum_const,
      Finset.card_univ, Fintype.card_fin, nsmul_eq_mul]
    ring
  rw [expand]
  field_simp
  ring

/-- With real entries and the divisor equal to the number of rows, the one-pass variance is the two-pass one. -/
theorem varT_tileSums {N C B T : ℕ} (h : B * T = N) (hN : 0 < N) (z : (⟨2, ![N, C]⟩ : Shape).Idx → ℝ) :
    rowVec (varT ((N : ℝ) : EReal) (tileSums B T h (fun i => (z i : EReal)))
        (tileSums B T h (sq (fun i => (z i : EReal)))))
      = colMean ((N : ℝ) : EReal)
          (sqDev (fun i => (z i : EReal)) (colMean ((N : ℝ) : EReal) (fun i => (z i : EReal)))) := by
  have hN' : (N : ℝ) ≠ 0 := by exact_mod_cast hN.ne'
  have hsq : sq (fun i => (z i : EReal)) = fun i => ((z i * z i : ℝ) : EReal) :=
    funext fun i => (EReal.coe_mul _ _).symm
  have hmu : colMean ((N : ℝ) : EReal) (fun i => (z i : EReal))
      = fun j => (((∑ n : Fin N, z (ix2 n (j 0))) / (N : ℝ) : ℝ) : EReal) :=
    funext fun j => colMean_coe hN' z j
  have hdev : sqDev (fun i => (z i : EReal)) (fun j => (((∑ n : Fin N, z (ix2 n (j 0))) / (N : ℝ) : ℝ) : EReal))
      = fun i => (((z i - (∑ n : Fin N, z (ix2 n (i 1))) / (N : ℝ))
          * (z i - (∑ n : Fin N, z (ix2 n (i 1))) / (N : ℝ)) : ℝ) : EReal) := by
    funext i
    show (((z i : ℝ) : EReal) - (((∑ n : Fin N, z (ix2 n (i 1))) / (N : ℝ) : ℝ) : EReal))
        * (((z i : ℝ) : EReal) - (((∑ n : Fin N, z (ix2 n (i 1))) / (N : ℝ) : ℝ) : EReal)) = _
    rw [← EReal.coe_sub, ← EReal.coe_mul]
  funext j
  show max (rowVec (meanT ((N : ℝ) : EReal) (tileSums B T h (sq (fun i => (z i : EReal))))) j
      - rowVec (meanT ((N : ℝ) : EReal) (tileSums B T h (fun i => (z i : EReal)))) j
        * rowVec (meanT ((N : ℝ) : EReal) (tileSums B T h (fun i => (z i : EReal)))) j) 0 = _
  rw [meanT_tileSums, meanT_tileSums, hsq, hmu, hdev, colMean_coe hN', colMean_coe hN']
  show max ((((∑ n : Fin N, z (ix2 n (j 0)) * z (ix2 n (j 0))) / (N : ℝ) : ℝ) : EReal)
      - (((∑ n : Fin N, z (ix2 n (j 0))) / (N : ℝ) : ℝ) : EReal)
        * (((∑ n : Fin N, z (ix2 n (j 0))) / (N : ℝ) : ℝ) : EReal)) (((0 : ℝ)) : EReal)
    = (((∑ n : Fin N, (z (ix2 n (j 0)) - (∑ m : Fin N, z (ix2 m (j 0))) / (N : ℝ))
        * (z (ix2 n (j 0)) - (∑ m : Fin N, z (ix2 m (j 0))) / (N : ℝ))) / (N : ℝ) : ℝ) : EReal)
  rw [← EReal.coe_mul, ← EReal.coe_sub, coe_max_real, real_var_identity hN (fun n => z (ix2 n (j 0))),
    max_eq_left (div_nonneg (Finset.sum_nonneg fun n _ => mul_self_nonneg _) (Nat.cast_nonneg N))]

/-! ## The two normalisations agree -/

/-- THE ONE-PASS NORMALISATION IS THE TWO-PASS ONE where the entries are real and the divisor is the number of rows:
    equal means, equal variances, and the same function of them. -/
theorem normOne_eq_normTwo {N C B T : ℕ} (h : B * T = N) (hN : 0 < N) (cN eps : EReal)
    (hc : cN = ((N : ℝ) : EReal)) (_he : ∃ e : ℝ, 0 < e ∧ eps = (e : EReal)) (Z : Mat N C) (g be : Vc C)
    (hZ : IsFin Z) : normOne B T h cN eps Z g be = normTwo cN eps Z g be := by
  obtain ⟨z, rfl⟩ := hZ.exists_real
  subst hc
  show bnRelu eps _ (rowVec (meanT _ (tileSums B T h _))) (rowVec (varT _ (tileSums B T h _) (tileSums B T h (sq _))))
      g be = bnRelu eps _ (colMean _ _) (colMean _ (sqDev _ (colMean _ _))) g be
  rw [meanT_tileSums, varT_tileSums h hN]

end Cert.Sgc

end
-- ==== Proof.LibSgcLaws.lean ====
/-
  The two arrangements of the network agree where every float argument is real.

  * A propagation step commutes with a product on the right: at entry (n, j) both sides are the sum, over the edges e
    sent to n and over k, of H (source e, k) · w e · W (k, j), by distributivity in the reals.
  * Every stage keeps the entries real: the column variance is a nonnegative real, so the reciprocal root of the
    variance plus a positive real is real.
  * Each layer's one-pass normalisation is the two-pass one, the divisor being the number of rows (100000 = 20 · 5000).
  * In the last layer the early product with a zero bias is the plain product, which commutes with the propagation.
-/
import proofs.«117873_j69002944578214_2_alg».proof.Proof.LibSgcStats

noncomputable section

namespace Cert.Sgc

open Idealize.ShloMosaic Idealize.ShloMosaic.ValueIdx Cert.DenseLib Cert.RowsLib Cert.Sage

/-! ## The propagation commutes with a product on the right -/

/-- With real entries, propagating the products is the product of the propagated rows. -/
theorem prop_mm {N K C R : ℕ} (hN : 0 < N) (src dst : ICol R) (ew : Vc R) (H : Mat N K) (W : Mat K C)
    (hH : IsFin H) (hW : IsFin W) (hew : IsFin ew) :
    prop hN src dst ew (mm H W) = mm (prop hN src dst ew H) W := by
  obtain ⟨h, rfl⟩ := hH.exists_real
  obtain ⟨w, rfl⟩ := hW.exists_real
  obtain ⟨e, rfl⟩ := hew.exists_real
  funext i
  obtain ⟨n, j, rfl⟩ : ∃ (n : Fin N) (j : Fin C), i = ix2 n j := ⟨i 0, i 1, eq_ix2 i⟩
  show (∑ r ∈ Finset.univ.filter (fun r : Fin R => (dst (ix2 r (0 : Fin 1))).toInt = ((n : Fin N).val : ℤ)),
      (∑ k : Fin K, ((h (ix2 (rowOf N hN (src (ix2 r (0 : Fin 1)))) k) : ℝ) : EReal) * ((w (ix2 k j) : ℝ) : EReal))
        * ((e (ix1 r) : ℝ) : EReal))
    = ∑ k : Fin K, (∑ r ∈ Finset.univ.filter (fun r : Fin R => (dst (ix2 r (0 : Fin 1))).toInt = ((n : Fin N).val : ℤ)),
      ((h (ix2 (rowOf N hN (src (ix2 r (0 : Fin 1)))) k) : ℝ) : EReal) * ((e (ix1 r) : ℝ) : EReal))
        * ((w (ix2 k j) : ℝ) : EReal)
  simp only [← EReal.coe_mul, ← coe_sum]
  congr 1
  simp only [Finset.sum_mul]
  rw [Finset.sum_comm]
  exact Finset.sum_congr rfl fun k _ => Finset.sum_congr rfl fun r _ => by ring

/-! ## Every stage keeps the entries real -/

theorem isFin_prop {N C R : ℕ} (hN : 0 < N) (src dst : ICol R) {ew : Vc R} {X : Mat N C} (hew : IsFin ew)
    (hX : IsFin X) : IsFin (prop hN src dst ew X) :=
  isFin_segSum dst (isFin_scaleRows hew (isFin_takeRows hN src hX))

theorem isFin_pre {N K C : ℕ} {P : Mat N K} {W : Mat K C} {b : Vc C} (hP : IsFin P) (hW : IsFin W) (hb : IsFin b) :
    IsFin (pre P W b) :=
  isFin_plus (isFin_mm hP hW) (isFin_vrows hb)

theorem isFin_tr {a b : ℕ} {W : Mat a b} (hW : IsFin W) : IsFin (tr W) := fun _ => hW _

/-- The two-pass normalisation of real entries over a positive real count, with a positive real stabiliser, is real:
    the variance is a mean of squares of reals. -/
theorem isFin_normTwo {N C : ℕ} (cN eps : EReal) (hc : ∃ r : ℝ, 0 < r ∧ cN = (r : EReal))
    (he : ∃ e : ℝ, 0 < e ∧ eps = (e : EReal)) {Z : Mat N C} {g be : Vc C} (hZ : IsFin Z) (hg : IsFin g)
    (hbe : IsFin be) : IsFin (normTwo cN eps Z g be) :=
  have hmu := isFin_colMean cN hc hZ
  isFin_bnRelu eps he hZ hmu (colMean_nonneg cN hc (sqDev_nonneg hZ hmu)) hg hbe

/-! ## The network -/

/-- The divisor both arrangements write is the number of rows. -/
theorem cN_eq_card : cN = (((100000 : ℕ) : ℝ) : EReal) := by
  rw [lit_cN]; norm_num

/-- The divisor is a positive real. -/
theorem cN_pos : ∃ r : ℝ, 0 < r ∧ cN = (r : EReal) := ⟨100000, by norm_num, lit_cN⟩

variable (a : Args)

/-- A propagation step of real rows along real edge weights is real. -/
theorem isFin_step (ha : a.Fin) {C : ℕ} {X : Mat 100000 C} (hX : IsFin X) : IsFin (step a X) :=
  isFin_prop nodes_pos a.src a.dst ha.ew hX

/-- One layer: the one-pass arrangement is the two-pass one where the layer's operands are real. -/
theorem layerOne_eq_layerTwo (ha : a.Fin) {X : Mat 100000 128} {W : Mat 128 128} {b g be : Vc 128} (hX : IsFin X)
    (hW : IsFin W) (hb : IsFin b) : layerOne a X W b g be = layerTwo a X W b g be :=
  normOne_eq_normTwo rfl nodes_pos cN eps cN_eq_card lit_eps' _ g be
    (isFin_pre (isFin_step a ha hX) (isFin_tr hW) hb)

/-- A two-pass layer of real operands is real. -/
theorem isFin_layerTwo (ha : a.Fin) {X : Mat 100000 128} {W : Mat 128 128} {b g be : Vc 128} (hX : IsFin X)
    (hW : IsFin W) (hb : IsFin b) (hg : IsFin g) (hbe : IsFin be) : IsFin (layerTwo a X W b g be) :=
  isFin_normTwo cN eps cN_pos lit_eps' (isFin_pre (isFin_step a ha hX) (isFin_tr hW) hb) hg hbe

theorem kerH1_eq (ha : a.Fin) : kerH1 a = refH1 a := layerOne_eq_layerTwo a ha ha.x ha.W1 ha.b1

theorem isFin_refH1 (ha : a.Fin) : IsFin (refH1 a) := isFin_layerTwo a ha ha.x ha.W1 ha.b1 ha.g1 ha.be1

theorem kerH2_eq (ha : a.Fin) : kerH2 a = refH2 a := by
  show layerOne a (kerH1 a) a.W2 a.b2 a.g2 a.be2 = layerTwo a (refH1 a) a.W2 a.b2 a.g2 a.be2
  rw [kerH1_eq a ha]
  exact layerOne_eq_layerTwo a ha (isFin_refH1 a ha) ha.W2 ha.b2

theorem isFin_refH2 (ha : a.Fin) : IsFin (refH2 a) :=
  isFin_layerTwo a ha (isFin_refH1 a ha) ha.W2 ha.b2 ha.g2 ha.be2

/-- A product plus the zero bias is the product. -/
theorem pre_zeros64 {N K : ℕ} (H : Mat N K) (W : Mat K 64) : pre H W zeros64 = mm H W := by
  funext i
  show mm H W i + zeros64 (ix1 (i 1)) = mm H W i
  rw [zeros64_eq, add_zero]

/-- The last layer: multiplying first (with a zero bias), propagating the narrow rows and adding the bias last is
    propagating first and then multiplying and adding the bias. -/
theorem kerLogits_eq (ha : a.Fin) : kerLogits a = refLogits a := by
  show plus (step a (pre (kerH2 a) (tr a.W3) zeros64)) (vrows a.b3)
    = plus (mm (step a (refH2 a)) (tr a.W3)) (vrows a.b3)
  rw [kerH2_eq a ha, pre_zeros64]
  show plus (prop nodes_pos a.src a.dst a.ew (mm (refH2 a) (tr a.W3))) (vrows a.b3) = _
  rw [prop_mm nodes_pos a.src a.dst a.ew (refH2 a) (tr a.W3) (isFin_refH2 a ha) (isFin_tr ha.W3) ha.ew]
  rfl

/-- THE KERNEL'S ARRANGEMENT OF THE NETWORK EQUALS THE REFERENCE'S where every float argument is real. -/
theorem network_eq (a : Args) (ha : a.Fin) : kerH2 a = refH2 a ∧ kerZ a = refZ a ∧ kerLogits a = refLogits a := by
  refine ⟨kerH2_eq a ha, ?_, kerLogits_eq a ha⟩
  show proj (kerH2 a) (tr a.pW1) a.pb1 (tr a.pW2) a.pb2 = proj (refH2 a) (tr a.pW1) a.pb1 (tr a.pW2) a.pb2
  rw [kerH2_eq a ha]

end Cert.Sgc

end
-- ==== Proof.Finite.lean ====
/-
  From the precondition to "every entry of every float argument is a real number".

  The precondition is the conjunction, over the sixteen float arguments, of "every |x| is below +∞", each
  conjunct an "and" of a whole array of comparison bits reduced to one bit, and the claim says the final bit is 1.
  An "and" of bits is 1 exactly when both are; a reduction by "and" that is 1 met only 1s; and for an extended
  real x, max x (−x) < +∞ excludes both infinities, so x is a real.
-/
import proofs.«117873_j69002944578214_2_alg».proof.Defs
import proofs.«117873_j69002944578214_2_alg».proof.Proof.Gen.Pre_finite_inputs
import proofs.«117873_j69002944578214_2_alg».proof.Proof.Gen.KernelIdeal
import proofs.«117873_j69002944578214_2_alg».proof.Proof.LibSageSpec
import Idealize.ShloMosaic.Lib.ReduceAll

namespace Cert.KernelIdeal.Finite

open Idealize.ShloMosaic Cert.Pre_finite_inputs

/-- The rank-zero shape has one index. -/
instance : Subsingleton Pre_finite_inputs.S_.Idx := ⟨fun a b => funext fun d => d.elim0⟩

/-- One array: if the "and" over all entries of the bits "|x| < +∞" is 1, every entry of x is a real.  Each bit is
    1, that is max x (−x) < ⊤; at x = ⊤ and at x = ⊥ the maximum is ⊤, so x is neither. -/
theorem isFin_of_all {S : Shape} {axes : List (Fin S.rank)} (x : FVec Ideal S .f32)
    (hb : Pre_finite_inputs.S_.BroadcastsInDim S (![] : Fin 0 → Fin S.rank)) (hr : S.ReducesTo axes Pre_finite_inputs.S_) (hu : 0 < Pre_finite_inputs.S_.numel)
    (j : Pre_finite_inputs.S_.Idx)
    (e : Host.reduce IntOp.andi (cmpf .olt (Host.absf x)
        (broadcastInDim S ![] hb (constant (F := Ideal) Pre_finite_inputs.S_ .f32 0x7F800000#32))) (constantI Pre_finite_inputs.S_ 1 1#1) hr hu j = 1#1) :
    Cert.Sage.IsFin (s := S) x := by
  intro i
  have h := Host.reduce_andi_all _ _ hr hu j e i
  have htop : Ideal.ofBits .f32 0x7F800000#32 = ⊤ := by simp [Ideal.ofBits, Ideal.ieee]
  change Ideal.cmp .olt (max (x i : EReal) (-(x i : EReal))) (Ideal.ofBits .f32 0x7F800000#32) = 1#1 at h
  rw [htop] at h
  unfold Ideal.cmp at h
  generalize x i = v at h ⊢
  induction v using EReal.rec with
  | bot => simp at h
  | top => simp at h
  | coe r => exact ⟨r, rfl⟩

/-- UNDER THE PRECONDITION EVERY FLOAT ARGUMENT HAS REAL ENTRIES: arguments 0, 2, 3, …, 16 in order (argument 1 is
    the integer edge index). -/
theorem isFin_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      Cert.Sage.IsFin (s := ⟨2, ![100000, 128]⟩) (m ((c.tc : Thread Cert.KernelIdeal.nD Cert.KernelIdeal.τ).loc Cert.KernelIdeal.main_arg0)) ∧
      Cert.Sage.IsFin (s := ⟨1, ![1600000]⟩) (m ((c.tc : Thread Cert.KernelIdeal.nD Cert.KernelIdeal.τ).loc Cert.KernelIdeal.main_arg2)) ∧
      Cert.Sage.IsFin (s := ⟨2, ![128, 128]⟩) (m ((c.tc : Thread Cert.KernelIdeal.nD Cert.KernelIdeal.τ).loc Cert.KernelIdeal.main_arg3)) ∧
      Cert.Sage.IsFin (s := ⟨1, ![128]⟩) (m ((c.tc : Thread Cert.KernelIdeal.nD Cert.KernelIdeal.τ).loc Cert.KernelIdeal.main_arg4)) ∧
      Cert.Sage.IsFin (s := ⟨2, ![128, 128]⟩) (m ((c.tc : Thread Cert.KernelIdeal.nD Cert.KernelIdeal.τ).loc Cert.KernelIdeal.main_arg5)) ∧
      Cert.Sage.IsFin (s := ⟨1, ![128]⟩) (m ((c.tc : Thread Cert.KernelIdeal.nD Cert.KernelIdeal.τ).loc Cert.KernelIdeal.main_arg6)) ∧
      Cert.Sage.IsFin (s := ⟨2, ![64, 128]⟩) (m ((c.tc : Thread Cert.KernelIdeal.nD Cert.KernelIdeal.τ).loc Cert.KernelIdeal.main_arg7)) ∧
      Cert.Sage.IsFin (s := ⟨1, ![64]⟩) (m ((c.tc : Thread Cert.KernelIdeal.nD Cert.KernelIdeal.τ).loc Cert.KernelIdeal.main_arg8)) ∧
      Cert.Sage.IsFin (s := ⟨1, ![128]⟩) (m ((c.tc : Thread Cert.KernelIdeal.nD Cert.KernelIdeal.τ).loc Cert.KernelIdeal.main_arg9)) ∧
      Cert.Sage.IsFin (s := ⟨1, ![128]⟩) (m ((c.tc : Thread Cert.KernelIdeal.nD Cert.KernelIdeal.τ).loc Cert.KernelIdeal.main_arg10)) ∧
      Cert.Sage.IsFin (s := ⟨1, ![128]⟩) (m ((c.tc : Thread Cert.KernelIdeal.nD Cert.KernelIdeal.τ).loc Cert.KernelIdeal.main_arg11)) ∧
      Cert.Sage.IsFin (s := ⟨1, ![128]⟩) (m ((c.tc : Thread Cert.KernelIdeal.nD Cert.KernelIdeal.τ).loc Cert.KernelIdeal.main_arg12)) ∧
      Cert.Sage.IsFin (s := ⟨2, ![128, 128]⟩) (m ((c.tc : Thread Cert.KernelIdeal.nD Cert.KernelIdeal.τ).loc Cert.KernelIdeal.main_arg13)) ∧
      Cert.Sage.IsFin (s := ⟨1, ![128]⟩) (m ((c.tc : Thread Cert.KernelIdeal.nD Cert.KernelIdeal.τ).loc Cert.KernelIdeal.main_arg14)) ∧
      Cert.Sage.IsFin (s := ⟨2, ![128, 128]⟩) (m ((c.tc : Thread Cert.KernelIdeal.nD Cert.KernelIdeal.τ).loc Cert.KernelIdeal.main_arg15)) ∧
      Cert.Sage.IsFin (s := ⟨1, ![128]⟩) (m ((c.tc : Thread Cert.KernelIdeal.nD Cert.KernelIdeal.τ).loc Cert.KernelIdeal.main_arg16)) := by
  have h0 := congrFun (h c) ValueIdx.ix0
  dsimp only [Cert.Pre_finite_inputs.fn, fn_part1, fn_part2, fn_part3, fn_part4] at h0
  obtain ⟨h0, e16⟩ := IntOp.andi_eq_one.1 h0
  obtain ⟨h0, e15⟩ := IntOp.andi_eq_one.1 h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨isFin_of_all _ _ _ _ _ e0,
    isFin_of_all _ _ _ _ _ e2,
    isFin_of_all _ _ _ _ _ e3,
    isFin_of_all _ _ _ _ _ e4,
    isFin_of_all _ _ _ _ _ e5,
    isFin_of_all _ _ _ _ _ e6,
    isFin_of_all _ _ _ _ _ e7,
    isFin_of_all _ _ _ _ _ e8,
    isFin_of_all _ _ _ _ _ e9,
    isFin_of_all _ _ _ _ _ e10,
    isFin_of_all _ _ _ _ _ e11,
    isFin_of_all _ _ _ _ _ e12,
    isFin_of_all _ _ _ _ _ e13,
    isFin_of_all _ _ _ _ _ e14,
    isFin_of_all _ _ _ _ _ e15,
    isFin_of_all _ _ _ _ _ e16⟩

end Cert.KernelIdeal.Finite
-- ==== Proof.lean ====
/-
  Three outputs of a two-layer graph network with batch normalisation — the class scores, the hidden features
  and their projection through a two-layer head — computed two ways over the same arguments, are equal as extended
  reals wherever every float argument is finite.

  One propagation step carries each node's row along the edges, scales it by the edge's weight and sums per
  destination.  Both programs apply it three times.  They differ in how a layer's column statistics are gathered
  (mean and mean squared deviation in two passes, against per-tile sums of z and z² and mean(z²) − mean(z)² cut
  at zero: equal because over the reals the two variances are one number, nonnegative, and the divisor is exactly
  the row count 100000) and in the last layer (weight after the propagation, against weight before it with the bias
  added last: equal because propagation is linear in the rows, which needs finite entries to distribute a product
  over a sum of extended reals).  A change of float format is the identity at this reading.

  The kernel program's three results are read off its run's last boundary back to the arguments (KerRun, KerChain),
  the host program's off its run (RefRun, RefValue); both are the specification's functions (LibSgcSpec), and the two
  arrangements of the specification agree on finite arguments (LibSgcStats, LibSgcLaws), which the precondition gives
  (Finite).
-/
import proofs.«117873_j69002944578214_2_alg».proof.Defs
import proofs.«117873_j69002944578214_2_alg».proof.Proof.Gen.Kernel
import proofs.«117873_j69002944578214_2_alg».proof.Proof.Gen.Kernel.Skeleton
import proofs.«117873_j69002944578214_2_alg».proof.Proof.Gen.Kernel.Launch
import proofs.«117873_j69002944578214_2_alg».proof.Proof.Gen.Kernel.Points
import proofs.«117873_j69002944578214_2_alg».proof.Proof.Gen.Kernel.Frame
import proofs.«117873_j69002944578214_2_alg».proof.Proof.Gen.KernelIdeal
import proofs.«117873_j69002944578214_2_alg».proof.Proof.Gen.KernelIdeal.Skeleton
import proofs.«117873_j69002944578214_2_alg».proof.Proof.Gen.KernelIdeal.Launch
import proofs.«117873_j69002944578214_2_alg».proof.Proof.Gen.KernelIdeal.Points
import proofs.«117873_j69002944578214_2_alg».proof.Proof.Gen.KernelIdeal.Frame
import proofs.«117873_j69002944578214_2_alg».proof.Proof.Gen.ReferenceIdeal
import proofs.«117873_j69002944578214_2_alg».proof.Proof.Gen.Pre_finite_inputs
import proofs.«117873_j69002944578214_2_alg».proof.Proof.KerChain
import proofs.«117873_j69002944578214_2_alg».proof.Proof.RefValue
import proofs.«117873_j69002944578214_2_alg».proof.Proof.LibSgcLaws
import proofs.«117873_j69002944578214_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- Under the precondition every float argument of the network is real-valued. -/
theorem args_fin (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.KerValue.args m c).Fin := by
  obtain ⟨h0, h2, h3, h4, h5, h6, h7, h8, h9, h10, h11, h12, h13, h14, h15, h16⟩ :=
    Cert.KernelIdeal.Finite.isFin_of_pre m h c
  exact ⟨h0, h2, h3, h4, h5, h6, h7, h8, h9, h10, h11, h12, h13, h14, h15, h16⟩

/-- Memories that agree on the seventeen argument buffers give the two programs the same network arguments. -/
theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    Cert.ReferenceIdeal.RefValue.args m' c = Cert.KernelIdeal.KerValue.args m c := by
  obtain ⟨e0, e1, e2, e3, e4, e5, e6, e7, e8, e9, e10, e11, e12, e13, e14, e15, e16⟩ := h
  unfold Cert.ReferenceIdeal.RefValue.args Cert.KernelIdeal.KerValue.args Cert.KernelIdeal.KerValue.srcVec
    Cert.KernelIdeal.KerValue.dstVec
  rw [e0, e1, e2, e3, e4, e5, e6, e7, e8, e9, e10, e11, e12, e13, e14, e15, e16]

theorem frame_k : Cert.frame_Kernel := fun m ρ _ => Cert.Kernel.Gen.frame m ρ

theorem frame_ki : Cert.frame_KernelIdeal := fun m ρ _ => Cert.KernelIdeal.Gen.frame m ρ

/-- The host program's frame is its run with the three results dropped. -/
theorem frame_ri : Cert.frame_ReferenceIdeal := fun m ρ _ =>
  (θ_run Cert.ReferenceIdeal.defs _ _).mono (fun _ h c => (h c).2.2.2) (Cert.ReferenceIdeal.RefValue.run m ρ)

/-- Both runs end with the reference arrangement's three functions of the (agreeing) arguments. -/
theorem algebraic : Cert.algebraic_KernelIdeal_ReferenceIdeal := by
  intro m ρ m' ρ' hpre hagree
  refine ⟨fun c => Cert.Sgc.refLogits (Cert.ReferenceIdeal.RefValue.args m' c), fun c => Cert.Sgc.refH2 (Cert.ReferenceIdeal.RefValue.args m' c),
    fun c => Cert.Sgc.refZ (Cert.ReferenceIdeal.RefValue.args m' c), ?_, Cert.ReferenceIdeal.RefValue.run m' ρ'⟩
  refine (θ_run Cert.KernelIdeal.defs _ _).mono (fun r h c => ?_) (Cert.KernelIdeal.KerValue.run_results m ρ)
  have ha := args_agree m m' c (hagree c)
  obtain ⟨e2, ez, el⟩ := Cert.Sgc.network_eq _ (args_fin m hpre c)
  obtain ⟨h88, h0, h1, hrest⟩ := h c
  refine ⟨?_, ?_, ?_, hrest⟩
  · exact (h88.trans (Cert.KernelIdeal.KerValue.w11_logits m ρ c)).trans (el.trans (congrArg Cert.Sgc.refLogits ha.symm))
  · exact (h0.trans (Cert.KernelIdeal.KerValue.w11_h2 m ρ c)).trans (e2.trans (congrArg Cert.Sgc.refH2 ha.symm))
  · exact (h1.trans (Cert.KernelIdeal.KerValue.w11_z m ρ c)).trans (ez.trans (congrArg Cert.Sgc.refZ ha.symm))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
